-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v28) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x768 : Shape := ⟨3, ![4, 2048, 768]⟩
abbrev S2304x768 : Shape := ⟨2, ![2304, 768]⟩
abbrev S768x768 : Shape := ⟨2, ![768, 768]⟩
abbrev S_ : Shape := ⟨0, ![]⟩

class Facts : Prop where
  bcast_S_S4x2048x768 : S_.BroadcastsInDim S4x2048x768 (![] : Fin 0 → Fin S4x2048x768.rank)
  reducesTo_S4x2048x768_S_d0_1_2 : S4x2048x768.ReducesTo [0, 1, 2] S_
  h_S_ : 0 < S_.numel
  bcast_S_S2304x768 : S_.BroadcastsInDim S2304x768 (![] : Fin 0 → Fin S2304x768.rank)
  reducesTo_S2304x768_S_d0_1 : S2304x768.ReducesTo [0, 1] S_
  bcast_S_S768x768 : S_.BroadcastsInDim S768x768 (![] : Fin 0 → Fin S768x768.rank)
  reducesTo_S768x768_S_d0_1 : S768x768.ReducesTo [0, 1] S_

variable [Facts]

def fn {F : FTy → Type} [FloatOps F] (main_arg0 : FVec F S4x2048x768 .f32) (main_arg1 : FVec F S2304x768 .f32) (main_arg2 : FVec F S768x768 .f32) : IVec S_ 1 :=
  let main_v0 : FVec F S4x2048x768 .f32 := Host.absf main_arg0
  let main_cst : FVec F S_ .f32 := constant S_ .f32 0x7F800000#32
  let main_v1 : FVec F S4x2048x768 .f32 := broadcastInDim S4x2048x768 ![] bcast_S_S4x2048x768 main_cst
  let main_v2 : IVec S4x2048x768 1 := cmpf .olt main_v0 main_v1
  let main_c : IVec S_ 1 := constantI S_ 1 1#1
  let main_v3 : IVec S_ 1 := (fun x v => Host.reduce IntOp.andi x v reducesTo_S4x2048x768_S_d0_1_2 h_S_) main_v2 main_c
  let main_v4 : FVec F S2304x768 .f32 := Host.absf main_arg1
  let main_cst_0 : FVec F S_ .f32 := constant S_ .f32 0x7F800000#32
  let main_v5 : FVec F S2304x768 .f32 := broadcastInDim S2304x768 ![] bcast_S_S2304x768 main_cst_0
  let main_v6 : IVec S2304x768 1 := cmpf .olt main_v4 main_v5
  let main_c_1 : IVec S_ 1 := constantI S_ 1 1#1
  let main_v7 : IVec S_ 1 := (fun x v => Host.reduce IntOp.andi x v reducesTo_S2304x768_S_d0_1 h_S_) main_v6 main_c_1
  let main_v8 : IVec S_ 1 := andi main_v3 main_v7
  let main_v9 : FVec F S768x768 .f32 := Host.absf main_arg2
  let main_cst_2 : FVec F S_ .f32 := constant S_ .f32 0x7F800000#32
  let main_v10 : FVec F S768x768 .f32 := broadcastInDim S768x768 ![] bcast_S_S768x768 main_cst_2
  let main_v11 : IVec S768x768 1 := cmpf .olt main_v9 main_v10
  let main_c_3 : IVec S_ 1 := constantI S_ 1 1#1
  let main_v12 : IVec S_ 1 := (fun x v => Host.reduce IntOp.andi x v reducesTo_S768x768_S_d0_1 h_S_) main_v11 main_c_3
  let main_v13 : IVec S_ 1 := andi main_v8 main_v12
  main_v13
-- ==== Kernel.lean ====
abbrev S4x2048x768 : Shape := ⟨3, ![4, 2048, 768]⟩
abbrev S2304x768 : Shape := ⟨2, ![2304, 768]⟩
abbrev S768x768 : Shape := ⟨2, ![768, 768]⟩
abbrev S3x4x2048x768 : Shape := ⟨4, ![3, 4, 2048, 768]⟩
abbrev S1x2048x768 : Shape := ⟨3, ![1, 2048, 768]⟩
abbrev S1x1x2048x768 : Shape := ⟨4, ![1, 1, 2048, 768]⟩
abbrev S2048x768 : Shape := ⟨2, ![2048, 768]⟩
abbrev S4x12x2048x64 : Shape := ⟨4, ![4, 12, 2048, 64]⟩
abbrev S1x1x2048x64 : Shape := ⟨4, ![1, 1, 2048, 64]⟩
abbrev S2048x64 : Shape := ⟨2, ![2048, 64]⟩
abbrev S2048x1 : Shape := ⟨2, ![2048, 1]⟩
abbrev S1x1x512x64 : Shape := ⟨4, ![1, 1, 512, 64]⟩
abbrev S512x64 : Shape := ⟨2, ![512, 64]⟩
abbrev S2048x512 : Shape := ⟨2, ![2048, 512]⟩
abbrev S2048 : Shape := ⟨1, ![2048]⟩
abbrev S768x64 : Shape := ⟨2, ![768, 64]⟩

abbrev nBuf : Space → Nat
  | .hbm => 6
  | .vmem => 19
  | .smem => 0
  | _ => 0

abbrev bufTy : (tb : Table) → Fin (tcTables nBuf tb) → BufTy
  | .hbm, ⟨0, _⟩ => ⟨S4x2048x768, .f32⟩
  | .hbm, ⟨1, _⟩ => ⟨S2304x768, .f32⟩
  | .hbm, ⟨2, _⟩ => ⟨S768x768, .f32⟩
  | .hbm, ⟨3, _⟩ => ⟨S3x4x2048x768, .bf16⟩
  | .hbm, ⟨4, _⟩ => ⟨S4x12x2048x64, .f32⟩
  | .hbm, ⟨5, _⟩ => ⟨S4x2048x768, .f32⟩
  | .local _ .vmem, ⟨0, _⟩ => ⟨S1x2048x768, .f32⟩
  | .local _ .vmem, ⟨1, _⟩ => ⟨S1x2048x768, .f32⟩
  | .local _ .vmem, ⟨2, _⟩ => ⟨S2304x768, .f32⟩
  | .local _ .vmem, ⟨3, _⟩ => ⟨S1x1x2048x768, .bf16⟩
  | .local _ .vmem, ⟨4, _⟩ => ⟨S1x1x2048x768, .bf16⟩
  | .local _ .vmem, ⟨5, _⟩ => ⟨S1x1x2048x768, .bf16⟩
  | .local _ .vmem, ⟨6, _⟩ => ⟨S1x1x2048x768, .bf16⟩
  | .local _ .vmem, ⟨7, _⟩ => ⟨S1x1x2048x768, .bf16⟩
  | .local _ .vmem, ⟨8, _⟩ => ⟨S1x1x2048x768, .bf16⟩
  | .local _ .vmem, ⟨9, _⟩ => ⟨S1x1x2048x768, .bf16⟩
  | .local _ .vmem, ⟨10, _⟩ => ⟨S1x1x2048x768, .bf16⟩
  | .local _ .vmem, ⟨11, _⟩ => ⟨S1x1x2048x64, .f32⟩
  | .local _ .vmem, ⟨12, _⟩ => ⟨S1x1x2048x64, .f32⟩
  | .local _ .vmem, ⟨13, _⟩ => ⟨S1x1x2048x64, .f32⟩
  | .local _ .vmem, ⟨14, _⟩ => ⟨S1x1x2048x64, .f32⟩
  | .local _ .vmem, ⟨15, _⟩ => ⟨S768x768, .f32⟩
  | .local _ .vmem, ⟨16, _⟩ => ⟨S1x2048x768, .f32⟩
  | .local _ .vmem, ⟨17, _⟩ => ⟨S1x2048x768, .f32⟩
  | .local _ .vmem, ⟨18, _⟩ => ⟨S2048x768, .f32⟩
  | _, _ => ⟨S4x2048x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc1_stg3_0 : Ref sig .tc := ⟨.vmem, 11, rfl⟩
abbrev cc1_stg3_1 : Ref sig .tc := ⟨.vmem, 12, rfl⟩
abbrev cc2_stg0_0 : Ref sig .tc := ⟨.vmem, 13, rfl⟩
abbrev cc2_stg0_1 : Ref sig .tc := ⟨.vmem, 14, rfl⟩
abbrev cc2_stg1_0 : Ref sig .tc := ⟨.vmem, 15, rfl⟩
abbrev cc2_stg2_0 : Ref sig .tc := ⟨.vmem, 16, rfl⟩
abbrev cc2_stg2_1 : Ref sig .tc := ⟨.vmem, 17, rfl⟩
abbrev cc2_scratch0 : Ref sig .tc := ⟨.vmem, 18, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc1_sem3_0 : DmaSem sig := 11
abbrev cc1_sem3_1 : DmaSem sig := 12
abbrev cc2_sem0_0 : DmaSem sig := 13
abbrev cc2_sem0_1 : DmaSem sig := 14
abbrev cc2_sem1_0 : DmaSem sig := 15
abbrev cc2_sem2_0 : DmaSem sig := 16
abbrev cc2_sem2_1 : DmaSem sig := 17

abbrev nD : Nat := 1
abbrev τ : Topo := Topo.v7x

variable {F : FTy → Type} [FloatOps F]

abbrev grid0 : Pipeline.Grid := ⟨2, ![4, 3], ![false, false]⟩

def k0_mult1 (i : grid0.Coords) : BitVec 32 :=
  let arg1 : BitVec 32 := BitVec.ofNat 32 (i 1).val
  let c768_i32 : BitVec 32 := 768#32
  let v3 : BitVec 32 := Scalar.muli arg1 c768_i32
  v3
def k0_off1 (i : grid0.Coords) : Fin 2 → Nat :=
  let arg1 : BitVec 32 := BitVec.ofNat 32 (i 1).val
  let c768_i32 : BitVec 32 := 768#32
  let v3 : BitVec 32 := Scalar.muli arg1 c768_i32
  let v4 : BitVec 32 := v3
  let v5 : Index := Scalar.indexCast v4
  let c0_2 : Index := 0#32
  ![v5.toNat, 0]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, arg0.toNat, c0_i32.toNat, c0_i32_0.toNat]

abbrev stage0_0 : Fin 2 → Memref sig .tc .vmem S1x2048x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S2304x768 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x1x2048x768 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev grid1 : Pipeline.Grid := ⟨2, ![4, 12], ![false, false]⟩

def k1_mult1 (i : grid1.Coords) : BitVec 32 :=
  let arg1 : BitVec 32 := BitVec.ofNat 32 (i 1).val
  let c64_i32 : BitVec 32 := 64#32
  let v0 : BitVec 32 := Scalar.muli arg1 c64_i32
  v0
def k1_off1 (i : grid1.Coords) : Fin 4 → Nat :=
  let c0 : Index := 0#32
  let c0_0 : Index := 0#32
  let c0_1 : Index := 0#32
  let arg1 : BitVec 32 := BitVec.ofNat 32 (i 1).val
  let c64_i32 : BitVec 32 := 64#32
  let v0 : BitVec 32 := Scalar.muli arg1 c64_i32
  let v1 : BitVec 32 := v0
  let v2 : Index := Scalar.indexCast v1
  ![0, 0, 0, v2.toNat]
def k1_off2 (i : grid1.Coords) : Fin 4 → Nat :=
  let c0_4 : Index := 0#32
  let c0_5 : Index := 0#32
  let c0_6 : Index := 0#32
  let arg1 : BitVec 32 := BitVec.ofNat 32 (i 1).val
  let c64_i32 : BitVec 32 := 64#32
  let v0 : BitVec 32 := Scalar.muli arg1 c64_i32
  let v1 : BitVec 32 := v0
  let v8 : Index := Scalar.indexCast v1
  ![0, 0, 0, v8.toNat]
def k1_off3 (i : grid1.Coords) : Fin 4 → Nat :=
  let c0_15 : Index := 0#32
  let c0_16 : Index := 0#32
  let c512 : Index := 512#32
  let arg1 : BitVec 32 := BitVec.ofNat 32 (i 1).val
  let c64_i32 : BitVec 32 := 64#32
  let v0 : BitVec 32 := Scalar.muli arg1 c64_i32
  let v1 : BitVec 32 := v0
  let v34 : Index := Scalar.indexCast v1
  ![0, 0, 512, v34.toNat]
def k1_off4 (i : grid1.Coords) : Fin 4 → Nat :=
  let c0_25 : Index := 0#32
  let c0_26 : Index := 0#32
  let c1024 : Index := 1024#32
  let arg1 : BitVec 32 := BitVec.ofNat 32 (i 1).val
  let c64_i32 : BitVec 32 := 64#32
  let v0 : BitVec 32 := Scalar.muli arg1 c64_i32
  let v1 : BitVec 32 := v0
  let v60 : Index := Scalar.indexCast v1
  ![0, 0, 1024, v60.toNat]
def k1_off5 (i : grid1.Coords) : Fin 4 → Nat :=
  let c0_35 : Index := 0#32
  let c0_36 : Index := 0#32
  let c1536 : Index := 1536#32
  let arg1 : BitVec 32 := BitVec.ofNat 32 (i 1).val
  let c64_i32 : BitVec 32 := 64#32
  let v0 : BitVec 32 := Scalar.muli arg1 c64_i32
  let v1 : BitVec 32 := v0
  let v86 : Index := Scalar.indexCast v1
  ![0, 0, 1536, v86.toNat]
def cc1_transform_0 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc1_transform_1 (i : grid1.Coords) : Fin 4 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, arg0.toNat, c0_i32.toNat, c0_i32_0.toNat]

def cc1_transform_2 (i : grid1.Coords) : Fin 4 → Nat :=
  let arg0 : BitVec 32 := BitVec.ofNat 32 (i 0).val
  let arg1 : BitVec 32 := BitVec.ofNat 32 (i 1).val
  let c2_i32 : BitVec 32 := 2#32
  let c0_i32 : BitVec 32 := 0#32
  let c0_i32_0 : BitVec 32 := 0#32
  let c0_i32_1 : BitVec 32 := 0#32
  ![c2_i32.toNat, arg0.toNat, c0_i32.toNat, c0_i32_0.toNat]

def cc1_transform_3 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage1_0 : Fin 2 → Memref sig .tc .vmem S1x1x2048x768 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S1x1x2048x768 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S1x1x2048x768 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S1x1x2048x64 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

abbrev grid2 : Pipeline.Grid := ⟨2, ![4, 12], ![false, false]⟩

def k2_mult1 (i : grid2.Coords) : BitVec 32 :=
  let arg1 : BitVec 32 := BitVec.ofNat 32 (i 1).val
  let c64_i32 : BitVec 32 := 64#32
  let v3 : BitVec 32 := Scalar.muli arg1 c64_i32
  v3
def k2_off1 (i : grid2.Coords) : Fin 2 → Nat :=
  let c0_4 : Index := 0#32
  let arg1 : BitVec 32 := BitVec.ofNat 32 (i 1).val
  let c64_i32 : BitVec 32 := 64#32
  let v3 : BitVec 32 := Scalar.muli arg1 c64_i32
  let v4 : BitVec 32 := v3
  let v8 : Index := Scalar.indexCast v4
  ![0, v8.toNat]
def k2_cond2 (i : grid2.Coords) : BitVec 1 :=
  let arg1 : BitVec 32 := BitVec.ofNat 32 (i 1).val
  let c11_i32 : BitVec 32 := 11#32
  let v17 : BitVec 1 := Scalar.cmpi .eq arg1 c11_i32
  let v18 : BitVec 32 := Scalar.extui v17
  let c0_i32_9 : BitVec 32 := 0#32
  let v19 : BitVec 1 := Scalar.cmpi .ne v18 c0_i32_9
  v19

def cc2_transform_0 (i : grid2.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage2_0 : Fin 2 → Memref sig .tc .vmem S1x1x2048x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, true]

abbrev stage2_1 : Fin 1 → Memref sig .tc .vmem S768x768 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false, false]

abbrev stage2_2 : Fin 2 → Memref sig .tc .vmem S1x2048x768 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, false]

class Facts₀ : Prop where
  inb_S1x2048x768_S1x2048x768_0_0_0 : ∀ a, (![0, 0, 0] : Fin 3 → Nat) a + S1x2048x768.size a ≤ S1x2048x768.size a
  h_S1x2048x768 : 0 < S1x2048x768.numel
  shapeCasts_S1x2048x768_S2048x768 : S1x2048x768.ShapeCasts S2048x768
  bitsLt_bf16_f32 : FTy.bits .bf16 < FTy.bits .f32
  h_S768x768 : 0 < S768x768.numel
  inb_S1x1x2048x768_S1x1x2048x768_0_0_0_0 : ∀ a, (![0, 0, 0, 0] : Fin 4 → Nat) a + S1x1x2048x768.size a ≤ S1x1x2048x768.size a
  h_S1x1x2048x768 : 0 < S1x1x2048x768.numel
  shapeCasts_S1x1x2048x768_S2048x768 : S1x1x2048x768.ShapeCasts S2048x768
  shapeCasts_S2048x768_S1x1x2048x768 : S2048x768.ShapeCasts S1x1x2048x768
  packedbf16_S1x1x2048x768_S1x1x2048x768_0_0_0_0 : (Rect.unit (s := S1x1x2048x768) ![0, 0, 0, 0] S1x1x2048x768.size inb_S1x1x2048x768_S1x1x2048x768_0_0_0_0).PackedRows (EltTy.packing .bf16)
  h_S1x1x2048x64 : 0 < S1x1x2048x64.numel
  shapeCasts_S1x1x2048x64_S2048x64 : S1x1x2048x64.ShapeCasts S2048x64
  h_S1x1x512x64 : 0 < S1x1x512x64.numel
  shapeCasts_S1x1x512x64_S512x64 : S1x1x512x64.ShapeCasts S512x64
  reduces_S2048x512_S2048 : S2048x512.Reduces [1] S2048
  shapeCasts_S2048_S2048x1 : S2048.ShapeCasts S2048x1
  broadcasts_S2048x1_S2048x512 : S2048x1.Broadcasts S2048x512
  broadcasts_S2048x1_S2048x64 : S2048x1.Broadcasts S2048x64
  inb_S1x1x2048x64_S1x1x2048x64_0_0_0_0 : ∀ a, (![0, 0, 0, 0] : Fin 4 → Nat) a + S1x1x2048x64.size a ≤ S1x1x2048x64.size a
  shapeCasts_S2048x64_S1x1x2048x64 : S2048x64.ShapeCasts S1x1x2048x64
  inb_S2048x768_S2048x768_0_0 : ∀ a, (![0, 0] : Fin 2 → Nat) a + S2048x768.size a ≤ S2048x768.size a
  h_S2048x768 : 0 < S2048x768.numel
  shapeCasts_S2048x768_S2048x768 : S2048x768.ShapeCasts S2048x768
  h_S768x64 : 0 < S768x64.numel
  shapeCasts_S2048x768_S1x2048x768 : S2048x768.ShapeCasts S1x2048x768
  dot_S2048x768_S768x768_S2048x768_1_1_0_0_n_n_wf : DotDims.WF S2048x768 S768x768 S2048x768 [1] [1] [0] [0] [] []
  dot_S2048x64_S512x64_S2048x512_1_1_0_0_n_n_wf : DotDims.WF S2048x64 S512x64 S2048x512 [1] [1] [0] [0] [] []
  dot_S2048x512_S512x64_S2048x64_1_0_0_1_n_n_wf : DotDims.WF S2048x512 S512x64 S2048x64 [1] [0] [0] [1] [] []
  dot_S2048x64_S768x64_S2048x768_1_1_0_0_n_n_wf : DotDims.WF S2048x64 S768x64 S2048x768 [1] [1] [0] [0] [] []
  hrank0 : 0 < grid0.rank
  k0_mult1_dvd : ∀ i : grid0.Coords, 768 ∣ (k0_mult1 i).toNat
  k0_off1_inb : ∀ i : grid0.Coords, ∀ a, (k0_off1 i) a + S768x768.size a ≤ S2304x768.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x2048x768.size a ≤ S4x2048x768.size a
  hwx0_0 : ∀ i : grid0.Coords, EltTy.bits .f32 = 32 ∨ (Rect.block (s := S4x2048x768) S1x2048x768.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S2304x768.size a ≤ S2304x768.size a
  hwx0_1 : ∀ i : grid0.Coords, EltTy.bits .f32 = 32 ∨ (Rect.block (s := S2304x768) S2304x768.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x2048x768.size a ≤ S3x4x2048x768.size a
  hwx0_2 : ∀ i : grid0.Coords, EltTy.bits .bf16 = 32 ∨ (Rect.block (s := S3x4x2048x768) S1x1x2048x768.size (cc0_transform_2 i) (hinb0_2 i)).WholeWords (EltTy.packing .bf16)
  hrank1 : 0 < grid1.rank
  k1_mult1_dvd : ∀ i : grid1.Coords, 64 ∣ (k1_mult1 i).toNat
  k1_off1_inb : ∀ i : grid1.Coords, ∀ a, (k1_off1 i) a + S1x1x2048x64.size a ≤ S1x1x2048x768.size a
  k1_off2_inb : ∀ i : grid1.Coords, ∀ a, (k1_off2 i) a + S1x1x512x64.size a ≤ S1x1x2048x768.size a
  k1_off3_inb : ∀ i : grid1.Coords, ∀ a, (k1_off3 i) a + S1x1x512x64.size a ≤ S1x1x2048x768.size a
  k1_off4_inb : ∀ i : grid1.Coords, ∀ a, (k1_off4 i) a + S1x1x512x64.size a ≤ S1x1x2048x768.size a
  k1_off5_inb : ∀ i : grid1.Coords, ∀ a, (k1_off5 i) a + S1x1x512x64.size a ≤ S1x1x2048x768.size a
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x1x2048x768.size a ≤ S3x4x2048x768.size a
  hwx1_0 : ∀ i : grid1.Coords, EltTy.bits .bf16 = 32 ∨ (Rect.block (s := S3x4x2048x768) S1x1x2048x768.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x1x2048x768.size a ≤ S3x4x2048x768.size a
  hwx1_1 : ∀ i : grid1.Coords, EltTy.bits .bf16 = 32 ∨ (Rect.block (s := S3x4x2048x768) S1x1x2048x768.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x1x2048x768.size a ≤ S3x4x2048x768.size a
  hwx1_2 : ∀ i : grid1.Coords, EltTy.bits .bf16 = 32 ∨ (Rect.block (s := S3x4x2048x768) S1x1x2048x768.size (cc1_transform_2 i) (hinb1_2 i)).WholeWords (EltTy.packing .bf16)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x1x2048x64.size a ≤ S4x12x2048x64.size a
  hwx1_3 : ∀ i : grid1.Coords, EltTy.bits .f32 = 32 ∨ (Rect.block (s := S4x12x2048x64) S1x1x2048x64.size (cc1_transform_3 i) (hinb1_3 i)).WholeWords (EltTy.packing .f32)
  hrank2 : 0 < grid2.rank
  k2_mult1_dvd : ∀ i : grid2.Coords, 64 ∣ (k2_mult1 i).toNat
  k2_off1_inb : ∀ i : grid2.Coords, ∀ a, (k2_off1 i) a + S768x64.size a ≤ S768x768.size a
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1x1x2048x64.size a ≤ S4x12x2048x64.size a
  hwx2_0 : ∀ i : grid2.Coords, EltTy.bits .f32 = 32 ∨ (Rect.block (s := S4x12x2048x64) S1x1x2048x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S768x768.size a ≤ S768x768.size a
  hwx2_1 : ∀ i : grid2.Coords, EltTy.bits .f32 = 32 ∨ (Rect.block (s := S768x768) S768x768.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S1x2048x768.size a ≤ S4x2048x768.size a
  hwx2_2 : ∀ i : grid2.Coords, EltTy.bits .f32 = 32 ∨ (Rect.block (s := S4x2048x768) S1x2048x768.size (cc2_transform_2 i) (hinb2_2 i)).WholeWords (EltTy.packing .f32)

variable [Facts₀]

def dot_S2048x768_S768x768_S2048x768_1_1_0_0_n_n : DotDims S2048x768 S768x768 S2048x768 where
  lhsContracting := [1]
  rhsContracting := [1]
  lhsNonContracting := [0]
  rhsNonContracting := [0]
  lhsBatch := []
  rhsBatch := []
  wf := dot_S2048x768_S768x768_S2048x768_1_1_0_0_n_n_wf
def dot_S2048x64_S512x64_S2048x512_1_1_0_0_n_n : DotDims S2048x64 S512x64 S2048x512 where
  lhsContracting := [1]
  rhsContracting := [1]
  lhsNonContracting := [0]
  rhsNonContracting := [0]
  lhsBatch := []
  rhsBatch := []
  wf := dot_S2048x64_S512x64_S2048x512_1_1_0_0_n_n_wf
def dot_S2048x512_S512x64_S2048x64_1_0_0_1_n_n : DotDims S2048x512 S512x64 S2048x64 where
  lhsContracting := [1]
  rhsContracting := [0]
  lhsNonContracting := [0]
  rhsNonContracting := [1]
  lhsBatch := []
  rhsBatch := []
  wf := dot_S2048x512_S512x64_S2048x64_1_0_0_1_n_n_wf
def dot_S2048x64_S768x64_S2048x768_1_1_0_0_n_n : DotDims S2048x64 S768x64 S2048x768 where
  lhsContracting := [1]
  rhsContracting := [1]
  lhsNonContracting := [0]
  rhsNonContracting := [0]
  lhsBatch := []
  rhsBatch := []
  wf := dot_S2048x64_S768x64_S2048x768_1_1_0_0_n_n_wf

abbrev win0_0 : Pipeline.Window sig grid0 :=
  Pipeline.Window.ofSpec (Memref.whole main_arg0) S1x2048x768.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S2304x768.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x1x2048x768.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v0) S1x1x2048x768.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v0) S1x1x2048x768.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v0) S1x1x2048x768.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v1) S1x1x2048x64.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v1) S1x1x2048x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg2) S768x768.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v2) S1x2048x768.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev idle2 : Fin 3 → grid2.Coords → Bool := fun | 0 => fun _ => false | 1 => fun _ => false | 2 => fun i => !(k2_cond2 i == 1#1) | ⟨_ + 3, h⟩ => absurd h (Nat.not_lt.2 (Nat.le_add_left _ _))

class Facts : Prop extends Facts₀ where

variable [Facts]
-- ==== ReferenceIdeal.lean ====
abbrev S4x2048x768 : Shape := ⟨3, ![4, 2048, 768]⟩
abbrev S2304x768 : Shape := ⟨2, ![2304, 768]⟩
abbrev S768x768 : Shape := ⟨2, ![768, 768]⟩
abbrev S4x2048x2304 : Shape := ⟨3, ![4, 2048, 2304]⟩
abbrev S4x2048x3x12x64 : Shape := ⟨5, ![4, 2048, 3, 12, 64]⟩
abbrev S3x4x12x2048x64 : Shape := ⟨5, ![3, 4, 12, 2048, 64]⟩
abbrev S1x4x12x2048x64 : Shape := ⟨5, ![1, 4, 12, 2048, 64]⟩
abbrev S4x12x2048x64 : Shape := ⟨4, ![4, 12, 2048, 64]⟩
abbrev S_ : Shape := ⟨0, ![]⟩
abbrev S4x12x2048x2048 : Shape := ⟨4, ![4, 12, 2048, 2048]⟩
abbrev S4x12x2048 : Shape := ⟨3, ![4, 12, 2048]⟩
abbrev S4x12x2048x1 : Shape := ⟨4, ![4, 12, 2048, 1]⟩
abbrev S4x2048x12x64 : Shape := ⟨4, ![4, 2048, 12, 64]⟩

abbrev nBuf : Space → Nat
  | .hbm => 37
  | .vmem => 0
  | .smem => 0
  | _ => 0

abbrev bufTy : (tb : Table) → Fin (tcTables nBuf tb) → BufTy
  | .hbm, ⟨0, _⟩ => ⟨S4x2048x768, .f32⟩
  | .hbm, ⟨1, _⟩ => ⟨S2304x768, .f32⟩
  | .hbm, ⟨2, _⟩ => ⟨S768x768, .f32⟩
  | .hbm, ⟨3, _⟩ => ⟨S4x2048x2304, .f32⟩
  | .hbm, ⟨4, _⟩ => ⟨S4x2048x3x12x64, .f32⟩
  | .hbm, ⟨5, _⟩ => ⟨S3x4x12x2048x64, .f32⟩
  | .hbm, ⟨6, _⟩ => ⟨S1x4x12x2048x64, .f32⟩
  | .hbm, ⟨7, _⟩ => ⟨S4x12x2048x64, .f32⟩
  | .hbm, ⟨8, _⟩ => ⟨S1x4x12x2048x64, .f32⟩
  | .hbm, ⟨9, _⟩ => ⟨S4x12x2048x64, .f32⟩
  | .hbm, ⟨10, _⟩ => ⟨S1x4x12x2048x64, .f32⟩
  | .hbm, ⟨11, _⟩ => ⟨S4x12x2048x64, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S4x12x2048x2048, .f32⟩
  | .hbm, ⟨17, _⟩ => ⟨S4x12x2048x2048, .f32⟩
  | .hbm, ⟨18, _⟩ => ⟨S4x12x2048x2048, .f32⟩
  | .hbm, ⟨19, _⟩ => ⟨S_, .f32⟩
  | .hbm, ⟨20, _⟩ => ⟨S4x12x2048, .f32⟩
  | .hbm, ⟨21, _⟩ => ⟨S_, .f32⟩
  | .hbm, ⟨22, _⟩ => ⟨S4x12x2048, .f32⟩
  | .hbm, ⟨23, _⟩ => ⟨S4x12x2048, .f32⟩
  | .hbm, ⟨24, _⟩ => ⟨S4x12x2048x1, .f32⟩
  | .hbm, ⟨25, _⟩ => ⟨S4x12x2048x2048, .f32⟩
  | .hbm, ⟨26, _⟩ => ⟨S4x12x2048x2048, .f32⟩
  | .hbm, ⟨27, _⟩ => ⟨S4x12x2048x2048, .f32⟩
  | .hbm, ⟨28, _⟩ => ⟨S_, .f32⟩
  | .hbm, ⟨29, _⟩ => ⟨S4x12x2048, .f32⟩
  | .hbm, ⟨30, _⟩ => ⟨S4x12x2048x1, .f32⟩
  | .hbm, ⟨31, _⟩ => ⟨S4x12x2048x2048, .f32⟩
  | .hbm, ⟨32, _⟩ => ⟨S4x12x2048x2048, .f32⟩
  | .hbm, ⟨33, _⟩ => ⟨S4x12x2048x64, .f32⟩
  | .hbm, ⟨34, _⟩ => ⟨S4x2048x12x64, .f32⟩
  | .hbm, ⟨35, _⟩ => ⟨S4x2048x768, .f32⟩
  | .hbm, ⟨36, _⟩ => ⟨S4x2048x768, .f32⟩
  | _, _ => ⟨S4x2048x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_cst : Ref sig .tc := ⟨.hbm, 12, rfl⟩
abbrev main_v9 : Ref sig .tc := ⟨.hbm, 13, rfl⟩
abbrev main_cst_0 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_cst_1 : Ref sig .tc := ⟨.hbm, 19, rfl⟩
abbrev main_v14 : Ref sig .tc := ⟨.hbm, 20, rfl⟩
abbrev main_cst_2 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_cst_3 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩

abbrev nD : Nat := 1
abbrev τ : Topo := Topo.v7x

variable {F : FTy → Type} [FloatOps F]

class Facts₀ : Prop where
  shapeCasts_S4x2048x2304_S4x2048x3x12x64 : S4x2048x2304.ShapeCasts S4x2048x3x12x64
  transposes_S4x2048x3x12x64_S3x4x12x2048x64_2_0_3_1_4 : S4x2048x3x12x64.Transposes [2, 0, 3, 1, 4] S3x4x12x2048x64
  slices_S3x4x12x2048x64_S1x4x12x2048x64_0_0_0_0_0 : S3x4x12x2048x64.Slices ![0, 0, 0, 0, 0] S1x4x12x2048x64
  shapeCasts_S1x4x12x2048x64_S4x12x2048x64 : S1x4x12x2048x64.ShapeCasts S4x12x2048x64
  slices_S3x4x12x2048x64_S1x4x12x2048x64_1_0_0_0_0 : S3x4x12x2048x64.Slices ![1, 0, 0, 0, 0] S1x4x12x2048x64
  slices_S3x4x12x2048x64_S1x4x12x2048x64_2_0_0_0_0 : S3x4x12x2048x64.Slices ![2, 0, 0, 0, 0] S1x4x12x2048x64
  bcast_S_S4x12x2048x2048 : S_.BroadcastsInDim S4x12x2048x2048 (![] : Fin 0 → Fin S4x12x2048x2048.rank)
  reducesTo_S4x12x2048x2048_S4x12x2048_d3 : S4x12x2048x2048.ReducesTo [3] S4x12x2048
  h_S_ : 0 < S_.numel
  bcast_S_S4x12x2048 : S_.BroadcastsInDim S4x12x2048 (![] : Fin 0 → Fin S4x12x2048.rank)
  bcast_S4x12x2048_S4x12x2048x1_0_1_2 : S4x12x2048.BroadcastsInDim S4x12x2048x1 (![0, 1, 2] : Fin 3 → Fin S4x12x2048x1.rank)
  bcast_S4x12x2048x1_S4x12x2048x2048_0_1_2_3 : S4x12x2048x1.BroadcastsInDim S4x12x2048x2048 (![0, 1, 2, 3] : Fin 4 → Fin S4x12x2048x2048.rank)
  transposes_S4x12x2048x64_S4x2048x12x64_0_2_1_3 : S4x12x2048x64.Transposes [0, 2, 1, 3] S4x2048x12x64
  shapeCasts_S4x2048x12x64_S4x2048x768 : S4x2048x12x64.ShapeCasts S4x2048x768
  dot_S4x2048x768_S2304x768_S4x2048x2304_2_1_01_0_n_n_wf : DotDims.WF S4x2048x768 S2304x768 S4x2048x2304 [2] [1] [0, 1] [0] [] []
  dot_S4x12x2048x64_S4x12x2048x64_S4x12x2048x2048_3_3_2_2_01_01_wf : DotDims.WF S4x12x2048x64 S4x12x2048x64 S4x12x2048x2048 [3] [3] [2] [2] [0, 1] [0, 1]
  dot_S4x12x2048x2048_S4x12x2048x64_S4x12x2048x64_3_2_2_3_01_01_wf : DotDims.WF S4x12x2048x2048 S4x12x2048x64 S4x12x2048x64 [3] [2] [2] [3] [0, 1] [0, 1]
  dot_S4x2048x768_S768x768_S4x2048x768_2_1_01_0_n_n_wf : DotDims.WF S4x2048x768 S768x768 S4x2048x768 [2] [1] [0, 1] [0] [] []

variable [Facts₀]

def dot_S4x2048x768_S2304x768_S4x2048x2304_2_1_01_0_n_n : DotDims S4x2048x768 S2304x768 S4x2048x2304 where
  lhsContracting := [2]
  rhsContracting := [1]
  lhsNonContracting := [0, 1]
  rhsNonContracting := [0]
  lhsBatch := []
  rhsBatch := []
  wf := dot_S4x2048x768_S2304x768_S4x2048x2304_2_1_01_0_n_n_wf
def dot_S4x12x2048x64_S4x12x2048x64_S4x12x2048x2048_3_3_2_2_01_01 : DotDims S4x12x2048x64 S4x12x2048x64 S4x12x2048x2048 where
  lhsContracting := [3]
  rhsContracting := [3]
  lhsNonContracting := [2]
  rhsNonContracting := [2]
  lhsBatch := [0, 1]
  rhsBatch := [0, 1]
  wf := dot_S4x12x2048x64_S4x12x2048x64_S4x12x2048x2048_3_3_2_2_01_01_wf
def dot_S4x12x2048x2048_S4x12x2048x64_S4x12x2048x64_3_2_2_3_01_01 : DotDims S4x12x2048x2048 S4x12x2048x64 S4x12x2048x64 where
  lhsContracting := [3]
  rhsContracting := [2]
  lhsNonContracting := [2]
  rhsNonContracting := [3]
  lhsBatch := [0, 1]
  rhsBatch := [0, 1]
  wf := dot_S4x12x2048x2048_S4x12x2048x64_S4x12x2048x64_3_2_2_3_01_01_wf
def dot_S4x2048x768_S768x768_S4x2048x768_2_1_01_0_n_n : DotDims S4x2048x768 S768x768 S4x2048x768 where
  lhsContracting := [2]
  rhsContracting := [1]
  lhsNonContracting := [0, 1]
  rhsNonContracting := [0]
  lhsBatch := []
  rhsBatch := []
  wf := dot_S4x2048x768_S768x768_S4x2048x768_2_1_01_0_n_n_wf

class Facts : Prop extends Facts₀ where

variable [Facts]
-- ==== Proof.K.R0Body.lean ====
import proofs.«105011_j8443905704227_2_alg».proof.Proof.Gen.Kernel.Launch
import proofs.«105011_j8443905704227_2_alg».proof.Proof.Gen.Kernel.Skeleton
import proofs.«105011_j8443905704227_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-!
# The projection of the activations onto queries, keys and values: the body of the first call

The first call walks a grid of 4 × 3 points (b, s). At a point it holds the activations of batch b
(a 1 × 2048 × 768 block), the whole 2304 × 768 weight matrix, and the (s, b) block of the
3 × 4 × 2048 × 768 result. The body reads the activations, reads the 768 weight rows that start at
row 768·s, and overwrites the whole result block with the product of the activations by the transpose
of those rows. Here: the contents the body leaves in the result's buffer as a function of the two
input blocks, the body's triple, and the pipeline's proof data built from them, all at an arbitrary
memory "V" found when the call is entered.
-/

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffer contents found when the call is entered
variable (V : (c : Dev nD) → (b : Ref sig .tc) → Buf (Elt F) ((c : Thread nD τ).loc b))

/-! ## The windows' blocks -/

/-- Window w's block at point t, read off its array as the call finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The activations' buffer holds batch b's block at every point (b, s), also at the points with s ≠ 0 where the
    block index has not moved and nothing is fetched: for any proof data over V's arrays whose body leaves the
    block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The weights' buffer holds the whole matrix at every point, though it is fetched at the first only. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses -/

/-- The whole activations block. -/
abbrev r0_x : Rect S1x2048x768 := Rect.unit (s := S1x2048x768) ![0, 0, 0] S1x2048x768.size inb_S1x2048x768_S1x2048x768_0_0_0
/-- The 768 weight rows from row 768·s on, at the point i = (b, s). -/
abbrev r0_w (i : grid0.Coords) : Rect S2304x768 := Rect.unit (s := S2304x768) (k0_off1 i) S768x768.size (k0_off1_inb i)
/-- The whole result block. -/
abbrev r0_o : Rect S1x1x2048x768 := Rect.unit (s := S1x1x2048x768) ![0, 0, 0, 0] S1x1x2048x768.size inb_S1x1x2048x768_S1x1x2048x768_0_0_0_0

/-! ## What the body leaves in the result's buffer -/

/-- The result's buffer after the body at the point i, from the activations block x0 and the weight matrix x1:
    its one store, of the product of x0 by the transposed rows [768·s, 768·s + 768) of x1, over the whole buffer. -/
def out0_2 (i : grid0.Coords) (x0 : Vec F S1x2048x768 .f32) (x1 : Vec F S2304x768 .f32) : Vec F S1x1x2048x768 .bf16 :=
  View.canon [⟨r0_o, k0_pay1 (View.ld x0 r0_x) (View.ld x1 (r0_w i))⟩]

/-- The store fills the buffer. -/
theorem cover0_2 (p0 : Vec F S1x1x2048x768 .bf16) (y : S1x1x2048x768.Idx) :
    ∃ pc ∈ ([⟨r0_o, p0⟩] : List (View.Piece (Elt F) S1x1x2048x768 .bf16)), y ∈ pc.1.set :=
  View.cover_of_tiled [⟨r0_o, p0⟩] S1x1x2048x768.size (by rfl) y

/-! ## The body's triple -/

set_option maxHeartbeats 1000000 in
/-- The body on whole buffers, the activations' reading x0, the weights' reading x1 and the result's holding
    anything, runs to the continuation with the inputs as they were and the result's buffer at out0_2 i x0 x1.
    (The body also reads the result's buffer before overwriting it; what it reads there is never used.) -/
theorem sound_kernel0 (c : Dev nD) (E : Set ℕ) (i : grid0.Coords)
    (arg0 : Memref sig .tc .vmem S1x2048x768 .f32) (harg0 : arg0.IsWhole)
    (arg1 : Memref sig .tc .vmem S2304x768 .f32) (harg1 : arg1.IsWhole)
    (arg2 : Memref sig .tc .vmem S1x1x2048x768 .bf16) (harg2 : arg2.IsWhole)
    (x0 : Vec F S1x2048x768 .f32) (x1 : Vec F S2304x768 .f32) (K : PUnit → sProp 𝕄) :
    iprop(owns (c : Thread nD τ) arg0 fullShare x0 ∗ owns (c : Thread nD τ) arg1 fullShare x1
        ∗ (∃ d, owns (c : Thread nD τ) arg2 fullShare d)
        ∗ (iprop(owns (c : Thread nD τ) arg0 fullShare x0 ∗ owns (c : Thread nD τ) arg1 fullShare x1
            ∗ owns (c : Thread nD τ) arg2 fullShare (out0_2 i x0 x1)) -∗ K ⟨⟩))
      ⊢ wp frame (wpE (defs₀ (F := F)) Variants.none c none) E (cc0__qkv_kernel i arg0 harg0 arg1 harg1 arg2 harg2) K := by
  simp only [cc0__qkv_kernel_eq_skeleton]; unfold cc0__qkv_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-! ## The pipeline's proof data -/

/-- The proof data of the first call on core c: the arrays as the call finds them; after the body at point t the
    activations' and the weights' buffers still at their blocks and the result's at out0_2 of those blocks; the
    invariant that of a call whose body touches nothing but its windows; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (grid0.coords t) (iblk0 V c 0 t) (iblk0 V c 1 t)
  Φ _ := Pipeline.ΦA spec0 c
  q _ := fullShare
  owed _ := 0

/-- The proof data's arrays are the contents found at entry. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) :
    (dat0 V c).after 2 t = out0_2 (grid0.coords t) (iblk0 V c 0 t) (iblk0 V c 1 t) := by dsimp only [dat0]

/-- Each input's buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation, at a generic point -/

/-- What the body is called with at point t, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: the inputs' buffers hold their blocks, so the body's triple applies; the invariant and what
    the core owes pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ (grid0.coords t) _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.K.R1Body.lean ====
/-
  The attention call (the second of the three kernel launches), on one TensorCore.

  Grid point (b, h) sees three slabs of the projected array qkv : bf16[3, 4, 2048, 768] — q = qkv[0, b], k = qkv[1, b],
  v = qkv[2, b], each 2048 × 768 — and writes the 2048 × 64 block ctx[b, h] of the context array.  Head h uses the
  lanes [64 h, 64 h + 64) of each slab.  The body runs an online softmax over four chunks of 512 keys: it keeps a
  running row maximum m, a running denominator l and a running numerator acc, rescales both by exp (m_old − m_new)
  at each chunk and finally stores acc / l.  This module states what the output block is as a function of the three
  slabs (the composition of the body's arithmetic, chunk by chunk) and proves that the body, run on the staging
  buffers holding the slabs, leaves exactly that in the output's staging buffer.
-/
import proofs.«105011_j8443905704227_2_alg».proof.Proof.Gen.Kernel.Launch
import proofs.«105011_j8443905704227_2_alg».proof.Proof.Gen.Kernel.Skeleton
import proofs.«105011_j8443905704227_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The slabs a grid point sees -/

/-- The block of window `w` at grid point `t`: the slab of the window's array that the point's block index selects,
    read off the array as the call finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The q slab's staging buffer holds the point's slab whether or not it was fetched at this point: an unfetched
    point has the same block index as the one before it, and the body leaves the slab in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- The same for the k slab. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
/-- The same for the v slab. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## The rectangles the body reads and writes -/

/-- Head h's 64 lanes of all 2048 rows of a slab (the query rows). -/
abbrev rHead (i : grid1.Coords) : Rect S1x1x2048x768 := Rect.unit (s := S1x1x2048x768) (k1_off1 i) S1x1x2048x64.size (k1_off1_inb i)
/-- Head h's 64 lanes of key rows 0–511, 512–1023, 1024–1535, 1536–2047. -/
abbrev rChunk0 (i : grid1.Coords) : Rect S1x1x2048x768 := Rect.unit (s := S1x1x2048x768) (k1_off2 i) S1x1x512x64.size (k1_off2_inb i)
abbrev rChunk1 (i : grid1.Coords) : Rect S1x1x2048x768 := Rect.unit (s := S1x1x2048x768) (k1_off3 i) S1x1x512x64.size (k1_off3_inb i)
abbrev rChunk2 (i : grid1.Coords) : Rect S1x1x2048x768 := Rect.unit (s := S1x1x2048x768) (k1_off4 i) S1x1x512x64.size (k1_off4_inb i)
abbrev rChunk3 (i : grid1.Coords) : Rect S1x1x2048x768 := Rect.unit (s := S1x1x2048x768) (k1_off5 i) S1x1x512x64.size (k1_off5_inb i)
/-- The whole output block. -/
abbrev rCtx : Rect S1x1x2048x64 := Rect.unit (s := S1x1x2048x64) ![0, 0, 0, 0] S1x1x2048x64.size inb_S1x1x2048x64_S1x1x2048x64_0_0_0_0

/-! ## What the body leaves in the output block -/

/-- The value stored into the output block at grid coordinates `i`, from the q, k and v slabs: the four chunks of the
    online softmax composed.  After chunk 0 the running maximum, denominator and numerator are `m0`, `l0`, `a0`; chunk 1
    gives `m1` and the numerator `a1` (its denominator is folded into the next step); chunks 2 and 3 are done by the
    last two payloads. -/
def ctxBlock (i : grid1.Coords) (xq xk xv : Vec F S1x1x2048x768 .bf16) : FVec F S1x1x2048x64 .f32 :=
  let q3 := View.ld xq (rHead i)
  let k0 := View.ld xk (rChunk0 i)
  let v0 := View.ld xv (rChunk0 i)
  let k1 := View.ld xk (rChunk1 i)
  let v1 := View.ld xv (rChunk1 i)
  let k2 := View.ld xk (rChunk2 i)
  let v2 := View.ld xv (rChunk2 i)
  let k3 := View.ld xk (rChunk3 i)
  let v3 := View.ld xv (rChunk3 i)
  let q := k1_pay2 q3
  let m0 := k1_pay5 q3 k0
  let l0 := k1_pay8 q3 k0
  let a0 := k1_pay9 q3 k0 v0
  let kk1 := k1_pay10 k1
  k1_pay1 q (k1_pay15 q m0 a0 kk1 v1) (k1_pay16 v2) (k1_pay18 q m0 kk1 k2) (k1_pay19 q m0 kk1 k2) (k1_pay20 q m0 kk1 k2)
    (k1_pay21 q m0 l0 kk1 k2) (k1_pay22 q m0 kk1 k2) k3 v3

/-- The output's staging buffer after the body: its one store, of the whole block. -/
def out1_3 (i : grid1.Coords) (xq xk xv : Vec F S1x1x2048x768 .bf16) : Vec F S1x1x2048x64 .f32 :=
  View.canon [⟨rCtx, ctxBlock i xq xk xv⟩]

/-- The store covers the block. -/
theorem cover1_3 (p0 : Vec F S1x1x2048x64 .f32) (y : S1x1x2048x64.Idx) :
    ∃ pc ∈ ([⟨rCtx, p0⟩] : List (View.Piece (Elt F) S1x1x2048x64 .f32)), y ∈ pc.1.set :=
  View.cover_of_tiled [⟨rCtx, p0⟩] S1x1x2048x64.size (by rfl) y

/-! ## The body's triple -/

set_option maxHeartbeats 4000000 in
/-- Run on whole staging memrefs holding the three slabs (the output's holding anything), the body returns with the
    slabs untouched and the output's buffer at `out1_3` of them. -/
theorem sound_kernel1 (c : Dev nD) (E : Set ℕ) (i : grid1.Coords)
    (arg2 : Memref sig .tc .vmem S1x1x2048x768 .bf16) (harg2 : arg2.IsWhole) (arg3 : Memref sig .tc .vmem S1x1x2048x768 .bf16) (harg3 : arg3.IsWhole)
    (arg4 : Memref sig .tc .vmem S1x1x2048x768 .bf16) (harg4 : arg4.IsWhole) (arg5 : Memref sig .tc .vmem S1x1x2048x64 .f32) (harg5 : arg5.IsWhole)
    (xq xk xv : Vec F S1x1x2048x768 .bf16) (K : PUnit → sProp 𝕄) :
    iprop(owns (c : Thread nD τ) arg2 fullShare xq ∗ owns (c : Thread nD τ) arg3 fullShare xk ∗ owns (c : Thread nD τ) arg4 fullShare xv
        ∗ (∃ d, owns (c : Thread nD τ) arg5 fullShare d)
        ∗ (iprop(owns (c : Thread nD τ) arg2 fullShare xq ∗ owns (c : Thread nD τ) arg3 fullShare xk ∗ owns (c : Thread nD τ) arg4 fullShare xv
            ∗ owns (c : Thread nD τ) arg5 fullShare (out1_3 i xq xk xv)) -∗ K ⟨⟩))
      ⊢ wp frame (wpE (defs₀ (F := F)) Variants.none c none) E (cc1__attn_kernel i arg2 harg2 arg3 harg3 arg4 harg4 arg5 harg5) K := by
  simp only [cc1__attn_kernel_eq_skeleton]; unfold cc1__attn_kernel_skel
  unfold owns
  iintro ⟨⟨%f2, %hf2, H2⟩, ⟨%f3, %hf3, H3⟩, ⟨%f4, %hf4, H4⟩, ⟨%d5, %f5, -, H5⟩, Hk⟩
  subst hf2; subst hf3; subst hf4
  sl_exec
  sl_step
  iapply Hk
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover1_3 _)

/-! ## The proof data of the call -/

/-- On core `c`: the arrays as the call finds them; after the body at point `t` the three input buffers still hold
    their slabs and the output's holds `out1_3` of them; the invariant is the untouched scoped rest and the generator
    register; nothing is owed.  The three input windows read ONE array, so each holds a part of its ownership: the
    left half, the left half of the right half, and the right half of the right half. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (grid1.coords t) (iblk1 V c 0 t) (iblk1 V c 1 t) (iblk1 V c 2 t)
  Φ _ := Pipeline.ΦA spec1 c
  q w := match w with
    | ⟨0, _⟩ => fullShare.left
    | ⟨1, _⟩ => fullShare.right.left
    | ⟨2, _⟩ => fullShare.right.right
    | ⟨3, _⟩ => fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) :
    (dat1 V c).after 3 t = out1_3 (grid1.coords t) (iblk1 V c 0 t) (iblk1 V c 1 t) (iblk1 V c 2 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation at a generic grid point -/

/-- What the body is called with at point `t`, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

/-- At any point the three input buffers hold the point's slabs, so the body's triple applies; the invariant and
    what the core owes pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ (grid1.coords t) _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation of the call, at every point. -/
theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.K.R1Glue.lean ====
/-
  Ownership bookkeeping for the attention call.  Its three input windows read ONE array (the projected qkv), so the
  whole ownership of that array is divided among them on entry — a left half, and the two halves of the right half — and
  put back together on exit; the output array (the context) is owned outright throughout.
-/
import proofs.«105011_j8443905704227_2_alg».proof.Proof.K.R1Body

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The distinct buffers behind the call's four windows are two: the projected array and the context array. -/
theorem arrBufs1_eq (c : Dev nD) (Vc : (b : Ref sig .tc) → Buf (Elt F) ((c : Thread nD τ).loc b)) :
    (Pipeline.arrBufs (Ix := Unit) (Name := ℕ) (U := UR sig nD τ) (Lvl := ℕ) spec1 c Vc : sProp 𝕄)
      = iprop((((c : Thread nD τ).loc main_v0) ↦{fullShare} Vc main_v0) ∗ (((c : Thread nD τ).loc main_v1) ↦{fullShare} Vc main_v1)) := by
  unfold Pipeline.arrBufs
  exact bigSep_eq_bigSepL_of_eq [main_v0, main_v1] (by decide) (by decide) _

/-- ENTRY: the two buffers, each whole, give the four windows' arrays at the shares the proof data names. -/
theorem split1 (c : Dev nD) :
    (Pipeline.arrBufs (Ix := Unit) (Name := ℕ) (U := UR sig nD τ) (Lvl := ℕ) spec1 c (V c) : sProp 𝕄)
      ⊢ (dat1 V c).arrays ((dat1 V c).arrAt · 0) := by
  rw [arrBufs1_eq]
  unfold Pipeline.Dat.arrays
  rw [bigSep_W1]
  have e0 : (cfg1.win 0).arr.view.set = Finset.univ := (arr_whole1 0).set_eq_univ
  have e3 : (cfg1.win 3).arr.view.set = Finset.univ := (arr_whole1 3).set_eq_univ
  rw [e0, e3]
  iintro ⟨H0, H1⟩
  ihave H0' := (pointsTo_share (PosShare.mem_left_op_right fullShare)).1 $$ H0
  icases H0' with ⟨Hq, Hr⟩
  ihave Hr' := (pointsTo_share (PosShare.mem_left_op_right fullShare.right)).1 $$ Hr
  icases Hr' with ⟨Hk, Hv⟩
  isplitl [Hq]; · iexact Hq
  isplitl [Hk]; · iexact Hk
  isplitl [Hv]; · iexact Hv
  iexact H1

/-- EXIT: the four windows' arrays at what the call leaves — the projected array untouched under each of its three
    readers, the context array at its final contents — are the two buffers whole again, at any contents that agree. -/
theorem join1 (c : Dev nD) (Vc' : (b : Ref sig .tc) → Buf (Elt F) ((c : Thread nD τ).loc b))
    (h0 : Vc' main_v0 = V c main_v0) (h1 : Vc' main_v1 = (dat1 V c).arrAt 3 cfg1.N) :
    (dat1 V c).arrays ((dat1 V c).arrAt · cfg1.N)
      ⊢ (Pipeline.arrBufs (Ix := Unit) (Name := ℕ) (U := UR sig nD τ) (Lvl := ℕ) spec1 c Vc' : sProp 𝕄) := by
  rw [arrBufs1_eq, h0, h1]
  unfold Pipeline.Dat.arrays
  rw [bigSep_W1]
  have e0 : (cfg1.win 0).arr.view.set = Finset.univ := (arr_whole1 0).set_eq_univ
  have e3 : (cfg1.win 3).arr.view.set = Finset.univ := (arr_whole1 3).set_eq_univ
  rw [e0, e3]
  have a0 : (dat1 V c).arrAt 0 cfg1.N = V c main_v0 := ((dat1 V c).arrAt_in 0 rfl _).trans (A_eq1 V c 0)
  have a1 : (dat1 V c).arrAt 1 cfg1.N = V c main_v0 := ((dat1 V c).arrAt_in 1 rfl _).trans (A_eq1 V c 1)
  have a2 : (dat1 V c).arrAt 2 cfg1.N = V c main_v0 := ((dat1 V c).arrAt_in 2 rfl _).trans (A_eq1 V c 2)
  simp only [a0, a1, a2]
  iintro ⟨Hq, Hk, Hv, H1⟩
  ihave Hr := (pointsTo_share (PosShare.mem_left_op_right fullShare.right)).2 $$ [Hk Hv]
  · isplitl [Hk]; · iexact Hk
    iexact Hv
  ihave H0 := (pointsTo_share (PosShare.mem_left_op_right fullShare)).2 $$ [Hq Hr]
  · isplitl [Hq]; · iexact Hq
    iexact Hr
  isplitl [H0]; · iexact H0
  iexact H1

end Cert.Kernel.Hand

end
-- ==== Proof.K.R2Runs.lean ====
import proofs.«105011_j8443905704227_2_alg».proof.Proof.Gen.Kernel.Launch
import proofs.«105011_j8443905704227_2_alg».proof.Proof.Gen.Kernel.Skeleton
import proofs.«105011_j8443905704227_2_alg».proof.Proof.Gen.Kernel.Points
import Idealize.ShloMosaic.Lib.Pipeline.FrameBody
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The output projection's body, case by case

The body of the third call keeps an accumulator in a scratch buffer across the twelve heads of a batch row:
it zeroes the accumulator at the first head, adds the head's product at every head, and copies the
accumulator into the output block at the last head. Each case is run once, on any whole staging
memrefs, with what the buffers hold afterwards stated in closed form over the payloads. -/

/-- The first conditional of the projection body (the accumulator's reset): the head coordinate is zero. -/
abbrev cond2_0 (i : grid2.Coords) : Prop := (Scalar.cmpi .ne (Scalar.extui (Scalar.cmpi .eq (BitVec.ofNat 32 (i 1).val) 0#32)) 0#32) = 1#1
/-- It holds exactly at the first head of each batch row of the grid. -/
theorem hcond2_0 : ∀ t : Fin cfg2.N, cond2_0 (grid2.coords t) ↔ t.val % 12 = 0 :=
  (by decide +kernel : ∀ t : Fin grid2.N, cond2_0 (grid2.coords t) ↔ t.val % 12 = 0)
/-- The second conditional (the copy-out): the head coordinate is the last one. -/
abbrev cond2_1 (i : grid2.Coords) : Prop := k2_cond2 i = 1#1
/-- It holds exactly at the last head of each batch row of the grid. -/
theorem hcond2_1 : ∀ t : Fin cfg2.N, cond2_1 (grid2.coords t) ↔ t.val % 12 = 11 :=
  (by decide +kernel : ∀ t : Fin grid2.N, cond2_1 (grid2.coords t) ↔ t.val % 12 = 11)

theorem hz2 : (![0, 0] : Fin 2 → Nat) = fun _ => 0 := funext fun a => by fin_cases a <;> rfl
theorem hz3 : (![0, 0, 0] : Fin 3 → Nat) = fun _ => 0 := funext fun a => by fin_cases a <;> rfl
theorem hz4 : (![0, 0, 0, 0] : Fin 4 → Nat) = fun _ => 0 := funext fun a => by fin_cases a <;> rfl

/-- A store through the whole rectangle, last, covers the shape whatever the earlier stores were. -/
theorem cover_cons_unit_zero {S : Shape} {e : EltTy} {Val : EltTy → Type} {off : Fin S.rank → Nat} (h : off = fun _ => 0)
    (inb : ∀ a, off a + S.size a ≤ S.size a) (w : S.Idx → Val e) (L : List (View.Piece Val S e)) (y : S.Idx) :
    ∃ p ∈ ((⟨Rect.unit off S.size inb, w⟩ : View.Piece Val S e) :: L), y ∈ p.1.set := by
  subst h
  exact ⟨_, List.mem_cons.mpr (Or.inl rfl), by show y ∈ (Rect.whole S).set; rw [Rect.set_whole]; exact Finset.mem_univ y⟩

/-- The sixty-four columns of the projection weight that head `i 1` contracts with: rows all, columns
    `[64 h, 64 h + 64)` of the weight block. -/
abbrev wcols (i : grid2.Coords) (x1 : Vec F S768x768 .f32) : Vec F S768x64 .f32 :=
  View.ld x1 (Rect.unit (s := S768x768) (k2_off1 i) S768x64.size (k2_off1_inb i))

/-- One head's step of the accumulation: the accumulator `xs` plus the head's context block `x0` times
    the head's weight columns, transposed. -/
def step2 (i : grid2.Coords) (x0 : Vec F S1x1x2048x64 .f32) (x1 : Vec F S768x768 .f32) (xs : Vec F S2048x768 .f32) :
    Vec F S2048x768 .f32 :=
  k2_pay2 x0 (wcols i x1) xs

set_option maxHeartbeats 1000000 in
/-- A middle head (neither first nor last): the accumulator, found at `xs`, is left at one more step; the
    output block's buffer is handed back untouched. -/
theorem run2_B (c : Dev nD) (i : grid2.Coords) (arg2 : Memref sig .tc .vmem S1x1x2048x64 .f32) (harg2 : arg2.IsWhole) (arg3 : Memref sig .tc .vmem S768x768 .f32) (harg3 : arg3.IsWhole) (arg4 : Memref sig .tc .vmem S1x2048x768 .f32) (harg4 : arg4.IsWhole) (arg5 : Memref sig .tc .vmem S2048x768 .f32) (harg5 : arg5.IsWhole)
    (hc0 : ¬cond2_0 i) (hc1 : ¬cond2_1 i)
    (x0 : Vec F S1x1x2048x64 .f32) (x1 : Vec F S768x768 .f32) (xo : Vec F S1x2048x768 .f32) (xs : Vec F S2048x768 .f32)
    (E : Set ℕ) (K : PUnit → sProp 𝕄) :
    iprop(owns (c : Thread nD τ) arg2 fullShare x0 ∗ owns (c : Thread nD τ) arg3 fullShare x1 ∗ owns (c : Thread nD τ) arg4 fullShare xo ∗ owns (c : Thread nD τ) arg5 fullShare xs
        ∗ (iprop(owns (c : Thread nD τ) arg2 fullShare x0 ∗ owns (c : Thread nD τ) arg3 fullShare x1 ∗ owns (c : Thread nD τ) arg4 fullShare xo ∗ owns (c : Thread nD τ) arg5 fullShare (step2 i x0 x1 xs)) -∗ K ⟨⟩))
      ⊢ wp frame (wpE (defs₀ (F := F)) Variants.none c none) E (cc2__proj_kernel i arg2 harg2 arg3 harg3 arg4 harg4 arg5 harg5) K := by
  simp only [cc2__proj_kernel_eq_skeleton]; unfold cc2__proj_kernel_skel
  unfold owns
  iintro ⟨⟨%f0, %hf0, H0⟩, ⟨%f1, %hf1, H1⟩, ⟨%fo, %hfo, HO⟩, ⟨%fs, %hfs, HS⟩, Hk⟩
  obtain rfl := harg2.eq_unread hf0; obtain rfl := harg3.eq_unread hf1; obtain rfl := harg4.eq_unread hfo; obtain rfl := harg5.eq_unread hfs
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [HO]
  · iexists _; isplitr; · ipureintro; exact harg4.read_unread _
    iexact HO
  iexists _; isplitr
  swap; · iexact HS
  ipureintro
  rw [View.read_writes_eq_canon _ _ _ (cover_cons_unit_zero hz2 _ _ _), View.canon_unit_zero hz2]
  simp only [View.readAt_eq_ld, harg2.read_unread, harg3.read_unread, harg5.read_unread,
    View.ld_unit_zero (S := S2048x768) hz2, View.ld_unit_zero (S := S1x1x2048x64) hz4]
  rfl

set_option maxHeartbeats 1000000 in
/-- The first head of a batch row: the accumulator, found at anything, is zeroed and left at the first step
    from zero; the output block's buffer is handed back untouched. -/
theorem run2_A (c : Dev nD) (i : grid2.Coords) (arg2 : Memref sig .tc .vmem S1x1x2048x64 .f32) (harg2 : arg2.IsWhole) (arg3 : Memref sig .tc .vmem S768x768 .f32) (harg3 : arg3.IsWhole) (arg4 : Memref sig .tc .vmem S1x2048x768 .f32) (harg4 : arg4.IsWhole) (arg5 : Memref sig .tc .vmem S2048x768 .f32) (harg5 : arg5.IsWhole)
    (hc0 : cond2_0 i) (hc1 : ¬cond2_1 i)
    (x0 : Vec F S1x1x2048x64 .f32) (x1 : Vec F S768x768 .f32) (xo : Vec F S1x2048x768 .f32)
    (E : Set ℕ) (K : PUnit → sProp 𝕄) :
    iprop(owns (c : Thread nD τ) arg2 fullShare x0 ∗ owns (c : Thread nD τ) arg3 fullShare x1 ∗ owns (c : Thread nD τ) arg4 fullShare xo ∗ (∃ xs, owns (c : Thread nD τ) arg5 fullShare xs)
        ∗ (iprop(owns (c : Thread nD τ) arg2 fullShare x0 ∗ owns (c : Thread nD τ) arg3 fullShare x1 ∗ owns (c : Thread nD τ) arg4 fullShare xo ∗ owns (c : Thread nD τ) arg5 fullShare (step2 i x0 x1 (k2_pay1 (F := F)))) -∗ K ⟨⟩))
      ⊢ wp frame (wpE (defs₀ (F := F)) Variants.none c none) E (cc2__proj_kernel i arg2 harg2 arg3 harg3 arg4 harg4 arg5 harg5) K := by
  simp only [cc2__proj_kernel_eq_skeleton]; unfold cc2__proj_kernel_skel
  unfold owns
  iintro ⟨⟨%f0, %hf0, H0⟩, ⟨%f1, %hf1, H1⟩, ⟨%fo, %hfo, HO⟩, ⟨%xs, %fs, -, HS⟩, Hk⟩
  obtain rfl := harg2.eq_unread hf0; obtain rfl := harg3.eq_unread hf1; obtain rfl := harg4.eq_unread hfo
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [HO]
  · iexists _; isplitr; · ipureintro; exact harg4.read_unread _
    iexact HO
  iexists _; isplitr
  swap; · iexact HS
  ipureintro
  rw [View.read_writes_eq_canon _ _ _ (cover_cons_unit_zero hz2 _ _ _), View.canon_cons_unit_zero hz2]
  sl_unfold_words
  rw [View.readCov_unit_zero (S := S2048x768) _ hz2]
  simp only [View.readAt_eq_ld, harg2.read_unread, harg3.read_unread, View.ld_unit_zero (S := S1x1x2048x64) hz4]
  rfl

set_option maxHeartbeats 1000000 in
/-- The last head of a batch row: the accumulator, found at `xs`, is left at one more step, and the output
    block's buffer, found at anything, is left at a copy of it. -/
theorem run2_C (c : Dev nD) (i : grid2.Coords) (arg2 : Memref sig .tc .vmem S1x1x2048x64 .f32) (harg2 : arg2.IsWhole) (arg3 : Memref sig .tc .vmem S768x768 .f32) (harg3 : arg3.IsWhole) (arg4 : Memref sig .tc .vmem S1x2048x768 .f32) (harg4 : arg4.IsWhole) (arg5 : Memref sig .tc .vmem S2048x768 .f32) (harg5 : arg5.IsWhole)
    (hc0 : ¬cond2_0 i) (hc1 : cond2_1 i)
    (x0 : Vec F S1x1x2048x64 .f32) (x1 : Vec F S768x768 .f32) (xs : Vec F S2048x768 .f32)
    (E : Set ℕ) (K : PUnit → sProp 𝕄) :
    iprop(owns (c : Thread nD τ) arg2 fullShare x0 ∗ owns (c : Thread nD τ) arg3 fullShare x1 ∗ (∃ xo, owns (c : Thread nD τ) arg4 fullShare xo) ∗ owns (c : Thread nD τ) arg5 fullShare xs
        ∗ (iprop(owns (c : Thread nD τ) arg2 fullShare x0 ∗ owns (c : Thread nD τ) arg3 fullShare x1 ∗ owns (c : Thread nD τ) arg4 fullShare (k2_pay3 (step2 i x0 x1 xs)) ∗ owns (c : Thread nD τ) arg5 fullShare (step2 i x0 x1 xs)) -∗ K ⟨⟩))
      ⊢ wp frame (wpE (defs₀ (F := F)) Variants.none c none) E (cc2__proj_kernel i arg2 harg2 arg3 harg3 arg4 harg4 arg5 harg5) K := by
  simp only [cc2__proj_kernel_eq_skeleton]; unfold cc2__proj_kernel_skel
  unfold owns
  iintro ⟨⟨%f0, %hf0, H0⟩, ⟨%f1, %hf1, H1⟩, ⟨%xo, %fo, -, HO⟩, ⟨%fs, %hfs, HS⟩, Hk⟩
  obtain rfl := harg2.eq_unread hf0; obtain rfl := harg3.eq_unread hf1; obtain rfl := harg5.eq_unread hfs
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [HO]
  · iexists _; isplitr
    swap; · iexact HO
    ipureintro
    rw [View.read_writes_eq_canon _ _ _ (cover_cons_unit_zero hz3 _ _ _), View.canon_unit_zero hz3]
    sl_unfold_words
    rw [View.readCov_unit_zero (S := S2048x768) _ hz2]
    simp only [View.readAt_eq_ld, harg2.read_unread, harg3.read_unread, harg5.read_unread,
      View.ld_unit_zero (S := S2048x768) hz2, View.ld_unit_zero (S := S1x1x2048x64) hz4]
    rfl
  iexists _; isplitr
  swap; · iexact HS
  ipureintro
  sl_unfold_words
  rw [View.read_writes_eq_canon _ _ _ (cover_cons_unit_zero hz2 _ _ _), View.canon_unit_zero hz2]
  simp only [View.readAt_eq_ld, harg2.read_unread, harg3.read_unread, harg5.read_unread,
    View.ld_unit_zero (S := S2048x768) hz2, View.ld_unit_zero (S := S1x1x2048x64) hz4]
  rfl

end Cert.Kernel.Hand

end
-- ==== Proof.K.R2Body.lean ====
import proofs.«105011_j8443905704227_2_alg».proof.Proof.K.R2Runs
import Idealize.ShloMosaic.Lib.Pipeline.FrameBody
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The output projection's region: proof data and body obligation

The third call's proof data at a parameter `V` (what the TensorCore's buffers hold when the region is
entered): the accumulator's contents after each point by recursion on the point, the invariant that carries
them from point to point, and the body obligation, one leaf per case of the body's two conditionals. -/

/-! ## Where the windows are idle -/

theorem liveAt2_0 : ∀ t : Fin cfg2.N, cfg2.idle 0 (grid2.coords t) = false := by decide +kernel
theorem liveAt2_1 : ∀ t : Fin cfg2.N, cfg2.idle 1 (grid2.coords t) = false := by decide +kernel
/-- Away from the last head the output window is idle, -/
theorem idleAt2_2 : ∀ t : Fin cfg2.N, ¬cond2_1 (grid2.coords t) → cfg2.idle 2 (grid2.coords t) = true := by decide +kernel
/-- and its block is not written back; -/
theorem noFlush2_2 : ∀ t : Fin cfg2.N, ¬cond2_1 (grid2.coords t) → (cfg2.win 2).flush t = false := by decide +kernel
/-- at the last head it is live. -/
theorem liveAt2_2 : ∀ t : Fin cfg2.N, cond2_1 (grid2.coords t) → cfg2.idle 2 (grid2.coords t) = false := by decide +kernel

/-! ## The memrefs the body is called with -/

abbrev ms2_0 (t : Fin cfg2.N) : Memref sig .tc .vmem S1x1x2048x64 .f32 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S768x768 .f32 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S1x2048x768 .f32 := win2_2.stage (cfg2.slots t 2)
abbrev hs2_2 (t : Fin cfg2.N) : (ms2_2 t).IsWhole := hstage2_2 ((cfg2.slots t 2).cast nbuf2_2)
/-- The accumulator: a whole scoped buffer of the call's own. -/
abbrev scM2 : Memref sig .tc .vmem S2048x768 .f32 := Memref.whole cc2_scratch0

/-- The class invariant with the accumulator split off as a memref owned at some contents; every other scoped
    buffer stays unopened. -/
theorem PhiA2_eq (c : Dev nD) :
    (Pipeline.ΦA spec2 c : sProp 𝕄)
      = iprop(iprop((∃ d, owns (c : Thread nD τ) scM2 fullShare d)
          ∗ Pipeline.scopedRestBut (Ix := Unit) (Name := ℕ) (U := UR sig nD τ) (Lvl := ℕ) (Val := Elt F) spec2 c [cc2_scratch0])
        ∗ (∃ r, prngReg c r)) := by
  unfold Pipeline.ΦA
  rw [Pipeline.scopedRest_split_of_list spec2 c [cc2_scratch0] (by decide) (by decide)]
  simp only [Idealize.SL.BI.bigSepL_singleton, scM2, owns_whole]; try rfl

section Region
variable (V : (c : Dev nD) → (b : Ref sig .tc) → Buf (Elt F) ((c : Thread nD τ).loc b))

/-! ## The windows' blocks -/

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- An input window's current staging buffer holds its block at every point, fetched there or not. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-! ## The accumulation -/

/-- What the accumulator holds after the body at position `n`: one step from zero at the first head of a batch
    row, one step from what the point before left at the others. -/
def accAt (c : Dev nD) : (n : ℕ) → n < cfg2.N → Vec F S2048x768 .f32
  | 0, hn => step2 (grid2.coords ⟨0, hn⟩) (iblk2 V c 0 ⟨0, hn⟩) (iblk2 V c 1 ⟨0, hn⟩) (k2_pay1 (F := F))
  | n + 1, hn =>
    if (n + 1) % 12 = 0 then
      step2 (grid2.coords ⟨n + 1, hn⟩) (iblk2 V c 0 ⟨n + 1, hn⟩) (iblk2 V c 1 ⟨n + 1, hn⟩) (k2_pay1 (F := F))
    else
      step2 (grid2.coords ⟨n + 1, hn⟩) (iblk2 V c 0 ⟨n + 1, hn⟩) (iblk2 V c 1 ⟨n + 1, hn⟩) (accAt c n (Nat.lt_of_succ_lt hn))

/-- At the first head of a batch row: from zero. -/
theorem accAt_first (c : Dev nD) (t : Fin cfg2.N) (h0 : t.val % 12 = 0) :
    accAt V c t.val t.isLt = step2 (grid2.coords t) (iblk2 V c 0 t) (iblk2 V c 1 t) (k2_pay1 (F := F)) := by
  obtain ⟨n, hn⟩ := t
  cases n with
  | zero => rfl
  | succ n => exact if_pos h0

/-- At any other head: from what the point before left. -/
theorem accAt_next (c : Dev nD) (t : Fin cfg2.N) (h0 : ¬t.val % 12 = 0) :
    accAt V c t.val t.isLt = step2 (grid2.coords t) (iblk2 V c 0 t) (iblk2 V c 1 t)
      (accAt V c (t.val - 1) (Nat.lt_of_le_of_lt (Nat.sub_le _ _) t.isLt)) := by
  obtain ⟨n, hn⟩ := t
  cases n with
  | zero => exact absurd (Nat.zero_mod _) h0
  | succ n => exact if_neg h0

/-! ## The invariant -/

/-- Before position `n`: before the first point what the launch hands the region; afterwards the accumulator at
    what the point before left in it, the other scoped buffers at anything, the generator register at some state. -/
def PhiS (c : Dev nD) : (n : ℕ) → n ≤ cfg2.N → sProp 𝕄
  | 0, _ => Pipeline.ΦA spec2 c
  | n + 1, hn => iprop(iprop(owns (c : Thread nD τ) scM2 fullShare (accAt V c n hn)
      ∗ Pipeline.scopedRestBut (Ix := Unit) (Name := ℕ) (U := UR sig nD τ) (Lvl := ℕ) (Val := Elt F) spec2 c [cc2_scratch0])
      ∗ (∃ r, prngReg c r))

theorem PhiS_zero (c : Dev nD) (n : ℕ) (h : n ≤ cfg2.N) (hz : n = 0) : PhiS V c n h = Pipeline.ΦA spec2 c := by
  subst hz; rfl

theorem PhiS_succ (c : Dev nD) (n : ℕ) (hn : n < cfg2.N) :
    PhiS V c (n + 1) hn = iprop(iprop(owns (c : Thread nD τ) scM2 fullShare (accAt V c n hn)
      ∗ Pipeline.scopedRestBut (Ix := Unit) (Name := ℕ) (U := UR sig nD τ) (Lvl := ℕ) (Val := Elt F) spec2 c [cc2_scratch0])
      ∗ (∃ r, prngReg c r)) := rfl

theorem PhiS_pos (c : Dev nD) (n : ℕ) (h : n ≤ cfg2.N) (hz : n ≠ 0) :
    PhiS V c n h = iprop(iprop(owns (c : Thread nD τ) scM2 fullShare (accAt V c (n - 1) (by omega))
      ∗ Pipeline.scopedRestBut (Ix := Unit) (Name := ℕ) (U := UR sig nD τ) (Lvl := ℕ) (Val := Elt F) spec2 c [cc2_scratch0])
      ∗ (∃ r, prngReg c r)) := by
  cases n with
  | zero => exact absurd rfl hz
  | succ n => rfl

/-! ## The proof data -/

/-- The proof data of the third call on core `c`: the arrays as the region finds them; after the body each input's
    buffer at its block and the output's at a copy of the accumulator (consulted at the last head of a batch row
    only: elsewhere the window is idle); the invariant `PhiS`; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => k2_pay3 (accAt V c t.val t.isLt)
  Φ t := PhiS V c t.val (Nat.le_of_lt_succ t.isLt)
  q _ := fullShare
  owed _ := 0

theorem A_eq2 (c : Dev nD) (w : Fin cfg2.W) : (dat2 V c).A w = V c (Pipeline.arrRef spec2 w) := by
  dsimp only [dat2]

theorem PhiS_castSucc (c : Dev nD) (t : Fin cfg2.N) :
    (dat2 V c).Φ t.castSucc = PhiS V c t.val (Nat.le_of_lt t.isLt) := by
  dsimp only [dat2]; simp only [Fin.coe_castSucc]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = k2_pay3 (accAt V c t.val t.isLt) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d

/-! ## The body obligation, at a generic point -/

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d)))

/-- and what it returns. -/
def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t)

set_option maxHeartbeats 4800000 in
/-- The body at any point. The inputs' memrefs hold their blocks; the closed forms of the two conditions say which
    case the point is in; the invariant hands the body the accumulator at what the point before left (at anything
    before the first point) and takes it back at this point's contents; away from the last head the output's
    buffer goes back as it came, at the last head it goes back at a copy of the accumulator. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1]
  rw [show (dat2 V c).owesAt () t.succ = (dat2 V c).owesAt () t.castSucc from rfl]
  rw [show (dat2 V c).Φ t.succ = PhiS V c (t.val + 1) t.isLt from rfl, PhiS_succ]
  rw [show (dat2 V c).leavesExact 0 t = owns (c : Thread nD τ) (ms2_0 t) fullShare ((dat2 V c).after 0 t) from by
    unfold Dat.leavesExact; rw [liveAt2_0 t], after2_0]
  rw [show (dat2 V c).leavesExact 1 t = owns (c : Thread nD τ) (ms2_1 t) fullShare ((dat2 V c).after 1 t) from by
    unfold Dat.leavesExact; rw [liveAt2_1 t], after2_1]
  have hN : t.val < 48 := lt_of_lt_of_eq t.isLt (show cfg2.N = 48 from N_2)
  by_cases h1 : t.val % 12 = 11
  · have h0 : ¬t.val % 12 = 0 := by omega
    have hz : t.val ≠ 0 := by omega
    rw [show (dat2 V c).leavesExact 2 t = owns (c : Thread nD τ) (ms2_2 t) fullShare ((dat2 V c).after 2 t) from by
      unfold Dat.leavesExact; rw [liveAt2_2 t ((hcond2_1 t).mpr h1)], after2_2]
    rw [accAt_next V c t h0]
    rw [PhiS_castSucc V c t, PhiS_pos V c _ _ hz]
    iintro ⟨⟨⟨HS, HR⟩, Hg⟩, Ho, ⟨%d0, H0⟩, ⟨%d1, H1⟩, ⟨%d2, H2⟩⟩
    iapply (run2_C c (grid2.coords t) _ _ _ _ _ _ _ _ (fun h => h0 ((hcond2_0 t).mp h)) ((hcond2_1 t).mpr h1) (iblk2 V c 0 t) (iblk2 V c 1 t) _ Set.univ _)
    isplitl [H0]; · iexact H0
    isplitl [H1]; · iexact H1
    isplitl [H2]; · iexists _; iexact H2
    isplitl [HS]; · iexact HS
    iintro ⟨H0, H1, H2, HS⟩
    isplitl [HS HR Hg]
    · isplitl [HS HR]
      · isplitl [HS]; · iexact HS
        iexact HR
      iexact Hg
    isplitl [Ho]; · iexact Ho
    isplitl [H0]; · iexact H0
    isplitl [H1]; · iexact H1
    iexact H2
  · rw [Dat.leavesExact_idle (dat2 V c) 2 t (idleAt2_2 t (fun h => h1 ((hcond2_1 t).mp h))) (noFlush2_2 t (fun h => h1 ((hcond2_1 t).mp h)))]
    by_cases h0 : t.val % 12 = 0
    · rw [accAt_first V c t h0]
      by_cases hz : t.val = 0
      · rw [PhiS_castSucc V c t, PhiS_zero V c _ _ hz, PhiA2_eq]
        iintro ⟨⟨⟨HS, HR⟩, Hg⟩, Ho, ⟨%d0, H0⟩, ⟨%d1, H1⟩, ⟨%d2, H2⟩⟩
        iapply (run2_A c (grid2.coords t) _ _ _ _ _ _ _ _ ((hcond2_0 t).mpr h0) (fun h => h1 ((hcond2_1 t).mp h)) (iblk2 V c 0 t) (iblk2 V c 1 t) _ Set.univ _)
        isplitl [H0]; · iexact H0
        isplitl [H1]; · iexact H1
        isplitl [H2]; · iexact H2
        isplitl [HS]; · iexact HS
        iintro ⟨H0, H1, H2, HS⟩
        isplitl [HS HR Hg]
        · isplitl [HS HR]
          · isplitl [HS]; · iexact HS
            iexact HR
          iexact Hg
        isplitl [Ho]; · iexact Ho
        isplitl [H0]; · iexact H0
        isplitl [H1]; · iexact H1
        iexists _; iexact H2
      · rw [PhiS_castSucc V c t, PhiS_pos V c _ _ hz]
        iintro ⟨⟨⟨HS, HR⟩, Hg⟩, Ho, ⟨%d0, H0⟩, ⟨%d1, H1⟩, ⟨%d2, H2⟩⟩
        iapply (run2_A c (grid2.coords t) _ _ _ _ _ _ _ _ ((hcond2_0 t).mpr h0) (fun h => h1 ((hcond2_1 t).mp h)) (iblk2 V c 0 t) (iblk2 V c 1 t) _ Set.univ _)
        isplitl [H0]; · iexact H0
        isplitl [H1]; · iexact H1
        isplitl [H2]; · iexact H2
        isplitl [HS]; · iexists _; iexact HS
        iintro ⟨H0, H1, H2, HS⟩
        isplitl [HS HR Hg]
        · isplitl [HS HR]
          · isplitl [HS]; · iexact HS
            iexact HR
          iexact Hg
        isplitl [Ho]; · iexact Ho
        isplitl [H0]; · iexact H0
        isplitl [H1]; · iexact H1
        iexists _; iexact H2
    · have hz : t.val ≠ 0 := fun h => h0 (by rw [h])
      rw [accAt_next V c t h0]
      rw [PhiS_castSucc V c t, PhiS_pos V c _ _ hz]
      iintro ⟨⟨⟨HS, HR⟩, Hg⟩, Ho, ⟨%d0, H0⟩, ⟨%d1, H1⟩, ⟨%d2, H2⟩⟩
      iapply (run2_B c (grid2.coords t) _ _ _ _ _ _ _ _ (fun h => h0 ((hcond2_0 t).mp h)) (fun h => h1 ((hcond2_1 t).mp h)) (iblk2 V c 0 t) (iblk2 V c 1 t) _ _ Set.univ _)
      isplitl [H0]; · iexact H0
      isplitl [H1]; · iexact H1
      isplitl [H2]; · iexact H2
      isplitl [HS]; · iexact HS
      iintro ⟨H0, H1, H2, HS⟩
      isplitl [HS HR Hg]
      · isplitl [HS HR]
        · isplitl [HS]; · iexact HS
          iexact HR
        iexact Hg
      isplitl [Ho]; · iexact Ho
      isplitl [H0]; · iexact H0
      isplitl [H1]; · iexact H1
      iexists _; iexact H2

/-- The library's body obligation, at every point. -/
theorem body_obligation2 (c : Dev nD) : BodyObligation (dat2 (F := F) V c) (defs₀ (F := F)) Variants.none () Set.univ := fun t => by
  rw [bigSep_W2, bigSep_W2]
  exact sound_body2 V c t

/-- What the launch hands the region is the invariant before the first point. -/
theorem hin2 (c : Dev nD) : Pipeline.ΦA spec2 c ⊢ (dat2 V c).Φ 0 := by
  rw [show (dat2 V c).Φ 0 = PhiS V c 0 (Nat.zero_le _) from rfl, PhiS_zero V c 0 _ rfl]
  try exact Idealize.SL.BI.Entails.refl _

/-- After any point but the first the invariant gives the class invariant back: the accumulator's named contents
    are forgotten. -/
theorem Phi_out2 (c : Dev nD) (t : Fin (cfg2.N + 1)) (ht : t.val ≠ 0) : (dat2 V c).Φ t ⊢ Pipeline.ΦA spec2 c := by
  rw [show (dat2 V c).Φ t = PhiS V c t.val (Nat.le_of_lt_succ t.isLt) from rfl, PhiS_pos V c _ _ ht, PhiA2_eq]
  iintro ⟨⟨HS, HR⟩, Hg⟩
  isplitl [HS HR]
  · isplitl [HS]
    · iexists _; iexact HS
    iexact HR
  iexact Hg

/-- The same after the last point. -/
theorem hout2 (c : Dev nD) : (dat2 V c).Φ (Fin.last cfg2.N) ⊢ Pipeline.ΦA spec2 c :=
  Phi_out2 V c _ (by rw [Fin.val_last]; have : cfg2.N = 48 := N_2; omega)

end Region

end Cert.Kernel.Hand

end
-- ==== Proof.K.Run.lean ====
/-
  The three kernel launches in sequence, on one TensorCore: the projection writes the qkv array, the attention call
  reads it (three times over) and writes the context array, the output projection reads that and writes the result.
  This module follows the buffers' contents from launch to return — after each call its output array holds what the
  call's write-backs leave and every other buffer is as before — and concludes that every fair execution terminates
  with the result array at the third call's final contents and the three argument arrays as launched.
-/
import proofs.«105011_j8443905704227_2_alg».proof.Proof.K.R0Body
import proofs.«105011_j8443905704227_2_alg».proof.Proof.K.R1Glue
import proofs.«105011_j8443905704227_2_alg».proof.Proof.K.R2Body

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents between the calls -/

/-- At launch. -/
abbrev W0 : Dev nD → Valuation τ sig (Elt F) := fun c b => m (c, b)
abbrev V0 : (c : Dev nD) → (b : Ref sig .tc) → Buf (Elt F) ((c : Thread nD τ).loc b) := fun c b => W0 m c b

/-- After the projection: its windows' arrays at what its write-backs leave (the two inputs unchanged, the qkv array
    written), every other buffer as launched. -/
def W1 (c : Dev nD) : Valuation τ sig (Elt F) :=
  Pipeline.withArrays spec0 c (W0 m c) fun w => (dat0 (V0 m) c).arrAt w cfg0.N
theorem W1_arr (c : Dev nD) (w : Fin cfg0.W) :
    W1 m c (Proc.devRef .tc (Pipeline.arrRef spec0 w)) = (dat0 (V0 m) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m c (Proc.devRef .tc b) = W0 m c (Proc.devRef .tc b) := by
  unfold W1; exact Pipeline.withArrays_of_ne spec0 c _ _ b hb
abbrev V1 : (c : Dev nD) → (b : Ref sig .tc) → Buf (Elt F) ((c : Thread nD τ).loc b) := fun c b => W1 m c b
theorem hF0 (c : Dev nD) (w : Fin cfg0.W) : (dat0 (V0 m) c).arrAt w cfg0.N = V1 m c (Pipeline.arrRef spec0 w) :=
  (W1_arr m c w).symm
theorem hrest0 (c : Dev nD) : ∀ b, b ∉ Finset.univ.image (Pipeline.arrRef spec0) → V1 m c b = V0 m c b :=
  fun b hb => W1_of_ne m c b fun w e => hb (Finset.mem_image.mpr ⟨w, Finset.mem_univ _, e⟩)

/-- After the attention call: the context array at what its write-backs leave, every other buffer as before. -/
def W2 (c : Dev nD) : Valuation τ sig (Elt F) :=
  Function.update (W1 m c) main_v1 ((dat1 (V1 m) c).arrAt 3 cfg1.N)
theorem W2_v1 (c : Dev nD) : W2 m c (Proc.devRef .tc main_v1) = (dat1 (V1 m) c).arrAt 3 cfg1.N :=
  Function.update_self ..
theorem W2_of_ne (c : Dev nD) (b : Ref sig .tc) (hb : b ≠ main_v1) :
    W2 m c (Proc.devRef .tc b) = W1 m c (Proc.devRef .tc b) :=
  Function.update_of_ne (StableHlo.devRef_ne_of_ne hb) ..
abbrev V2 : (c : Dev nD) → (b : Ref sig .tc) → Buf (Elt F) ((c : Thread nD τ).loc b) := fun c b => W2 m c b

/-- After the output projection. -/
def W3 (c : Dev nD) : Valuation τ sig (Elt F) :=
  Pipeline.withArrays spec2 c (W2 m c) fun w => (dat2 (V2 m) c).arrAt w cfg2.N
theorem W3_arr (c : Dev nD) (w : Fin cfg2.W) :
    W3 m c (Proc.devRef .tc (Pipeline.arrRef spec2 w)) = (dat2 (V2 m) c).arrAt w cfg2.N := by
  unfold W3; exact Pipeline.withArrays_arr spec2 launch2.win.arr_inj c _ _ w
theorem W3_of_ne (c : Dev nD) (b : Ref sig .tc) (hb : ∀ w, Pipeline.arrRef spec2 w ≠ b) :
    W3 m c (Proc.devRef .tc b) = W2 m c (Proc.devRef .tc b) := by
  unfold W3; exact Pipeline.withArrays_of_ne spec2 c _ _ b hb
abbrev V3 : (c : Dev nD) → (b : Ref sig .tc) → Buf (Elt F) ((c : Thread nD τ).loc b) := fun c b => W3 m c b
theorem hF2 (c : Dev nD) (w : Fin cfg2.W) : (dat2 (V2 m) c).arrAt w cfg2.N = V3 m c (Pipeline.arrRef spec2 w) :=
  (W3_arr m c w).symm
theorem hrest2 (c : Dev nD) : ∀ b, b ∉ Finset.univ.image (Pipeline.arrRef spec2) → V3 m c b = V2 m c b :=
  fun b hb => W3_of_ne m c b fun w e => hb (Finset.mem_image.mpr ⟨w, Finset.mem_univ _, e⟩)

/-! ### The arguments end as launched, the result at the third call's final contents -/

theorem W3_main_arg0 (c : Dev nD) : W3 m c (Proc.devRef .tc main_arg0) = m ((c : Thread nD τ).loc main_arg0) :=
  calc W3 m c (Proc.devRef .tc main_arg0)
    _ = W2 m c (Proc.devRef .tc main_arg0) := W3_of_ne m c main_arg0 (by decide)
    _ = W1 m c (Proc.devRef .tc main_arg0) := W2_of_ne m c main_arg0 (by decide)
    _ = W0 m c (Proc.devRef .tc main_arg0) := (W1_arr m c 0).trans (((dat0 (V0 m) c).arrAt_in 0 rfl _).trans (A_eq0 (V0 m) c 0))
    _ = m ((c : Thread nD τ).loc main_arg0) := rfl
theorem W3_main_arg1 (c : Dev nD) : W3 m c (Proc.devRef .tc main_arg1) = m ((c : Thread nD τ).loc main_arg1) :=
  calc W3 m c (Proc.devRef .tc main_arg1)
    _ = W2 m c (Proc.devRef .tc main_arg1) := W3_of_ne m c main_arg1 (by decide)
    _ = W1 m c (Proc.devRef .tc main_arg1) := W2_of_ne m c main_arg1 (by decide)
    _ = W0 m c (Proc.devRef .tc main_arg1) := (W1_arr m c 1).trans (((dat0 (V0 m) c).arrAt_in 1 rfl _).trans (A_eq0 (V0 m) c 1))
    _ = m ((c : Thread nD τ).loc main_arg1) := rfl
theorem W3_main_arg2 (c : Dev nD) : W3 m c (Proc.devRef .tc main_arg2) = m ((c : Thread nD τ).loc main_arg2) :=
  calc W3 m c (Proc.devRef .tc main_arg2)
    _ = W2 m c (Proc.devRef .tc main_arg2) := (W3_arr m c 1).trans (((dat2 (V2 m) c).arrAt_in 1 rfl _).trans (A_eq2 (V2 m) c 1))
    _ = W1 m c (Proc.devRef .tc main_arg2) := W2_of_ne m c main_arg2 (by decide)
    _ = W0 m c (Proc.devRef .tc main_arg2) := W1_of_ne m c main_arg2 (by decide)
    _ = m ((c : Thread nD τ).loc main_arg2) := rfl
theorem W3_main_v2 (c : Dev nD) : W3 m c (Proc.devRef .tc main_v2) = (dat2 (V2 m) c).arrAt 2 cfg2.N :=
  W3_arr m c 2

/-! ## The proof data of the three calls, and what rides beside the buffers -/

/-- No call has a prefetched table. -/
abbrev adm : (p : Fin 3) → (pcfgs (F := F) p).Adm := fun p => (cfgs p).toPCfg_adm
/-- Each call's proof data at the contents it is entered from. -/
def pdats : (p : Fin 3) → (c : Dev nD) → Dat τ (Elt F) Unit ℕ (UR sig nD τ) ℕ (Pipeline.pin (pcfgs (F := F)) adm p) c
  | ⟨0, _⟩ => fun c => dat0 (V0 m) c
  | ⟨1, _⟩ => fun c => dat1 (V1 m) c
  | ⟨2, _⟩ => fun c => dat2 (V2 m) c
abbrev 𝒱₀ : Variants := Variants.none
abbrev L : GSem nD τ sig → Finset Unit := fun _ => ∅
abbrev lv : GSem nD τ sig → Unit → ℕ := fun _ _ => 0
/-- Beside the buffers: the generator register at some state, and the core owing nothing. -/
abbrev R (c : Dev nD) : sProp 𝕄 := iprop((∃ r, prngReg c r) ∗ ∃ W, owes (c : Thread nD τ) (0 : CellTallies nD τ sig Unit) W)
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W3 m c) ∗ ∃ r, prngReg c r)

/-! ## The calls as segments of the program -/

set_option backward.isDefEq.respectTransparency.types false in
/-- The projection: entered from the launch contents, left at `W1`. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V0 m) c).loose
  hwaits := Pipeline.hwaits_of_owed_zero _ _ _ _ L lv 0 fun _ _ => rfl
  pre c := iprop(StableHlo.held (c : Thread nD τ) (Pipeline.ucRefs τ sig) (W0 m c) ∗ R c)
  post c := iprop(StableHlo.held (c : Thread nD τ) (Pipeline.ucRefs τ sig) (W1 m c) ∗ R c)
  X c := iprop(∃ r, prngReg c r)
  Y c := iprop(∃ r, prngReg c r)
  Z c := Pipeline.unscopedRest (Ix := Unit) (Name := ℕ) (U := UR sig nD τ) (Lvl := ℕ) spec0 c (V0 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V0 m c) (V1 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- Off the context array, the contents after the attention call are those before it. -/
theorem hrest1 (c : Dev nD) (b : Ref sig .tc) (hb : b ∉ Finset.univ.image (Pipeline.arrRef spec1)) : V2 m c b = V1 m c b :=
  W2_of_ne m c b fun e => hb (Finset.mem_image.mpr ⟨3, Finset.mem_univ _, e.symm⟩)

set_option backward.isDefEq.respectTransparency.types false in
/-- The attention call: entered from `W1`, left at `W2`.  Its three readers share the qkv array: the array's ownership
    is divided among them on entry and reassembled on exit. -/
def reg1 : Pipeline.RegionSeg (pcfgs (F := F)) adm (pdats m) () defs₀ 𝒱₀ L lv 1 where
  win := winFacts₀1
  block_pos := block_pos1
  stage_whole := stage_whole1
  K := PEmpty
  osem k := k.elim
  ho := Pipeline.OwnSemFacts.none _
  hbody c := (body_obligation1 (V1 m) c).loose
  hwaits := Pipeline.hwaits_of_owed_zero _ _ _ _ L lv 1 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec1 c (V1 m c)
  hentry c := by
    rw [Pipeline.ownSems0_none]
    have hsplit : (unscopedBufs c (V1 m c) : sProp 𝕄)
        ⊢ iprop((pdats m 1 c).arrays ((pdats m 1 c).arrAt · 0) ∗ Pipeline.unscopedRest spec1 c (V1 m c)) := by
      rw [Pipeline.unscopedBufs_split₀ (Pipeline.pin (pcfgs (F := F)) adm) 1 winFacts₀1.arr_unscoped c (V1 m c)]
      exact sep_mono (split1 (V1 m) c) .rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin : iprop((pdats m 1 c).arrays ((pdats m 1 c).arrAt · cfg1.N) ∗ Pipeline.unscopedRest spec1 c (V1 m c))
        ⊢ (unscopedBufs c (V2 m c) : sProp 𝕄) := by
      rw [Pipeline.unscopedBufs_split₀ (Pipeline.pin (pcfgs (F := F)) adm) 1 winFacts₀1.arr_unscoped c (V2 m c)]
      refine sep_mono (join1 (V1 m) c (V2 m c) (W2_of_ne m c main_v0 (by decide)) (W2_v1 m c)) (Entails.of_eq ?_)
      unfold Pipeline.unscopedRest
      exact bigSep_congr fun b hb => by rw [hrest1 m c b (Finset.mem_sdiff.mp hb).2]
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- Of three resources keep the first and the last, the last first. -/
theorem keep_outer (A B C : sProp 𝕄) : iprop(A ∗ B ∗ C) ⊢ iprop(C ∗ A) := by
  iintro ⟨HA, -, HC⟩
  isplitl [HC]; · iexact HC
  iexact HA
/-- Two resources swapped, nothing between them. -/
theorem swap_emp (A C : sProp 𝕄) : iprop(C ∗ A) ⊢ iprop(A ∗ BI.emp ∗ C) := by
  iintro ⟨HC, HA⟩
  isplitl [HA]; · iexact HA
  isplitr; · iempintro
  iexact HC

set_option backward.isDefEq.respectTransparency.types false in
/-- The output projection: entered from `W2`, left at `W3`.  Its invariant carries the accumulator across the grid;
    it starts from, and gives back, the untouched scoped rest and the generator register. -/
def reg2 : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V2 m) c).loose
  hwaits := Pipeline.hwaits_of_owed_zero _ _ _ _ L lv 2 fun _ _ => rfl
  pre c := iprop(StableHlo.held (c : Thread nD τ) (Pipeline.ucRefs τ sig) (W2 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec2 c (V2 m c)
  hentry c := by
    rw [Pipeline.ownSems0_none]
    have hsplit := Pipeline.arrays_of_unscopedBufs (p := 2) (pcfgs (F := F)) adm (pdats m) launch2.win launch2.arr_whole c
      ((pdats m 2 c).share_full fun _ => rfl) (V2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = (dat2 (V2 m) c).Φ 0 from rfl]
    exact (keep_outer _ _ _).trans (hin2 (V2 m) c)
  hout c := by
    rw [Pipeline.ownSems0_none, show (pdats m 2 c).Φ (Fin.last _) = (dat2 (V2 m) c).Φ (Fin.last cfg2.N) from rfl]
    exact (hout2 (V2 m) c).trans (swap_emp _ _)
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (V2 m c) (V3 m c) ((pdats m 2 c).arrAt · cfg2.N) (hF2 m c) (hrest2 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as its three calls, and the launch -/

abbrev segs : List (Pipeline.Seg (pcfgs (F := F)) adm (pdats m) () defs₀ 𝒱₀ L lv) :=
  [ .region (reg0 m), .region (reg1 m), .region (reg2 m) ]
/-- The program is the run of the three calls in order. -/
theorem main_run (c : Dev nD) : main (F := F) c = Pipeline.Seg.run (segs m) := (main_chain c).trans (by chain_rfl)

set_option backward.isDefEq.respectTransparency.types false in
/-- From any memory with zero counters every fair execution of the program terminates, nothing faulting; the result
    array ends at what the output projection's write-backs leave (`Dat.arrAt` at the last point, from the contents the
    two earlier calls left), and the three argument arrays end as launched. -/
theorem run_main : θ_run defs (onTc (τ := τ) (main (F := F))) ⟨m, fun _ => 0, ρ⟩ (fun r => ∀ c : Dev nD,
      r.2.mem ((c.tc : Thread nD τ).loc main_v2) = (dat2 (V2 m) c).arrAt 2 cfg2.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m c b)
    (hfin := fun c s' => by
      iintro ⟨⟨Hh, -⟩, HSI⟩
      unfold StableHlo.held
      imodintro
      iapply (pointsTo_read_all (Pipeline.ucRefs τ sig) (fun b => (((c : Thread nD τ)).1, b)) (W3 m c) s')
      isplitl [Hh] <;> iassumption)
    (hQ := fun s h c =>
      ⟨(h c _ (mem_uc main_v2 (by decide))).trans (W3_main_v2 m c),
       (h c _ (mem_uc main_arg0 (by decide))).trans (W3_main_arg0 m c),
       (h c _ (mem_uc main_arg1 (by decide))).trans (W3_main_arg1 m c),
       (h c _ (mem_uc main_arg2 (by decide))).trans (W3_main_arg2 m c)⟩)

end Cert.Kernel.Hand

end
-- ==== Proof.KI.R0Body.lean ====
import proofs.«105011_j8443905704227_2_alg».proof.Proof.Gen.KernelIdeal.Launch
import proofs.«105011_j8443905704227_2_alg».proof.Proof.Gen.KernelIdeal.Skeleton
import proofs.«105011_j8443905704227_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-!
# The projection of the activations onto queries, keys and values: the body of the first call

The first call walks a grid of 4 × 3 points (b, s). At a point it holds the activations of batch b
(a 1 × 2048 × 768 block), the whole 2304 × 768 weight matrix, and the (s, b) block of the
3 × 4 × 2048 × 768 result. The body reads the activations, reads the 768 weight rows that start at
row 768·s, and overwrites the whole result block with the product of the activations by the transpose
of those rows. Here: the contents the body leaves in the result's buffer as a function of the two
input blocks, the body's triple, and the pipeline's proof data built from them, all at an arbitrary
memory "V" found when the call is entered.
-/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffer contents found when the call is entered
variable (V : (c : Dev nD) → (b : Ref sig .tc) → Buf (Elt F) ((c : Thread nD τ).loc b))

/-! ## The windows' blocks -/

/-- Window w's block at point t, read off its array as the call finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The activations' buffer holds batch b's block at every point (b, s), also at the points with s ≠ 0 where the
    block index has not moved and nothing is fetched: for any proof data over V's arrays whose body leaves the
    block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The weights' buffer holds the whole matrix at every point, though it is fetched at the first only. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses -/

/-- The whole activations block. -/
abbrev r0_x : Rect S1x2048x768 := Rect.unit (s := S1x2048x768) ![0, 0, 0] S1x2048x768.size inb_S1x2048x768_S1x2048x768_0_0_0
/-- The 768 weight rows from row 768·s on, at the point i = (b, s). -/
abbrev r0_w (i : grid0.Coords) : Rect S2304x768 := Rect.unit (s := S2304x768) (k0_off1 i) S768x768.size (k0_off1_inb i)
/-- The whole result block. -/
abbrev r0_o : Rect S1x1x2048x768 := Rect.unit (s := S1x1x2048x768) ![0, 0, 0, 0] S1x1x2048x768.size inb_S1x1x2048x768_S1x1x2048x768_0_0_0_0

/-! ## What the body leaves in the result's buffer -/

/-- The result's buffer after the body at the point i, from the activations block x0 and the weight matrix x1:
    its one store, of the product of x0 by the transposed rows [768·s, 768·s + 768) of x1, over the whole buffer. -/
def out0_2 (i : grid0.Coords) (x0 : Vec F S1x2048x768 .f32) (x1 : Vec F S2304x768 .f32) : Vec F S1x1x2048x768 .bf16 :=
  View.canon [⟨r0_o, k0_pay1 (View.ld x0 r0_x) (View.ld x1 (r0_w i))⟩]

/-- The store fills the buffer. -/
theorem cover0_2 (p0 : Vec F S1x1x2048x768 .bf16) (y : S1x1x2048x768.Idx) :
    ∃ pc ∈ ([⟨r0_o, p0⟩] : List (View.Piece (Elt F) S1x1x2048x768 .bf16)), y ∈ pc.1.set :=
  View.cover_of_tiled [⟨r0_o, p0⟩] S1x1x2048x768.size (by rfl) y

/-! ## The body's triple -/

set_option maxHeartbeats 1000000 in
/-- The body on whole buffers, the activations' reading x0, the weights' reading x1 and the result's holding
    anything, runs to the continuation with the inputs as they were and the result's buffer at out0_2 i x0 x1.
    (The body also reads the result's buffer before overwriting it; what it reads there is never used.) -/
theorem sound_kernel0 (c : Dev nD) (E : Set ℕ) (i : grid0.Coords)
    (arg0 : Memref sig .tc .vmem S1x2048x768 .f32) (harg0 : arg0.IsWhole)
    (arg1 : Memref sig .tc .vmem S2304x768 .f32) (harg1 : arg1.IsWhole)
    (arg2 : Memref sig .tc .vmem S1x1x2048x768 .bf16) (harg2 : arg2.IsWhole)
    (x0 : Vec F S1x2048x768 .f32) (x1 : Vec F S2304x768 .f32) (K : PUnit → sProp 𝕄) :
    iprop(owns (c : Thread nD τ) arg0 fullShare x0 ∗ owns (c : Thread nD τ) arg1 fullShare x1
        ∗ (∃ d, owns (c : Thread nD τ) arg2 fullShare d)
        ∗ (iprop(owns (c : Thread nD τ) arg0 fullShare x0 ∗ owns (c : Thread nD τ) arg1 fullShare x1
            ∗ owns (c : Thread nD τ) arg2 fullShare (out0_2 i x0 x1)) -∗ K ⟨⟩))
      ⊢ wp frame (wpE (defs₀ (F := F)) Variants.none c none) E (cc0__qkv_kernel i arg0 harg0 arg1 harg1 arg2 harg2) K := by
  simp only [cc0__qkv_kernel_eq_skeleton]; unfold cc0__qkv_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-! ## The pipeline's proof data -/

/-- The proof data of the first call on core c: the arrays as the call finds them; after the body at point t the
    activations' and the weights' buffers still at their blocks and the result's at out0_2 of those blocks; the
    invariant that of a call whose body touches nothing but its windows; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (grid0.coords t) (iblk0 V c 0 t) (iblk0 V c 1 t)
  Φ _ := Pipeline.ΦA spec0 c
  q _ := fullShare
  owed _ := 0

/-- The proof data's arrays are the contents found at entry. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) :
    (dat0 V c).after 2 t = out0_2 (grid0.coords t) (iblk0 V c 0 t) (iblk0 V c 1 t) := by dsimp only [dat0]

/-- Each input's buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation, at a generic point -/

/-- What the body is called with at point t, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: the inputs' buffers hold their blocks, so the body's triple applies; the invariant and what
    the core owes pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ (grid0.coords t) _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.KI.R1Body.lean ====
/-
  The attention call (the second of the three kernel launches), on one TensorCore.

  Grid point (b, h) sees three slabs of the projected array qkv : bf16[3, 4, 2048, 768] — q = qkv[0, b], k = qkv[1, b],
  v = qkv[2, b], each 2048 × 768 — and writes the 2048 × 64 block ctx[b, h] of the context array.  Head h uses the
  lanes [64 h, 64 h + 64) of each slab.  The body runs an online softmax over four chunks of 512 keys: it keeps a
  running row maximum m, a running denominator l and a running numerator acc, rescales both by exp (m_old − m_new)
  at each chunk and finally stores acc / l.  This module states what the output block is as a function of the three
  slabs (the composition of the body's arithmetic, chunk by chunk) and proves that the body, run on the staging
  buffers holding the slabs, leaves exactly that in the output's staging buffer.
-/
import proofs.«105011_j8443905704227_2_alg».proof.Proof.Gen.KernelIdeal.Launch
import proofs.«105011_j8443905704227_2_alg».proof.Proof.Gen.KernelIdeal.Skeleton
import proofs.«105011_j8443905704227_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The slabs a grid point sees -/

/-- The block of window `w` at grid point `t`: the slab of the window's array that the point's block index selects,
    read off the array as the call finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The q slab's staging buffer holds the point's slab whether or not it was fetched at this point: an unfetched
    point has the same block index as the one before it, and the body leaves the slab in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- The same for the k slab. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
/-- The same for the v slab. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## The rectangles the body reads and writes -/

/-- Head h's 64 lanes of all 2048 rows of a slab (the query rows). -/
abbrev rHead (i : grid1.Coords) : Rect S1x1x2048x768 := Rect.unit (s := S1x1x2048x768) (k1_off1 i) S1x1x2048x64.size (k1_off1_inb i)
/-- Head h's 64 lanes of key rows 0–511, 512–1023, 1024–1535, 1536–2047. -/
abbrev rChunk0 (i : grid1.Coords) : Rect S1x1x2048x768 := Rect.unit (s := S1x1x2048x768) (k1_off2 i) S1x1x512x64.size (k1_off2_inb i)
abbrev rChunk1 (i : grid1.Coords) : Rect S1x1x2048x768 := Rect.unit (s := S1x1x2048x768) (k1_off3 i) S1x1x512x64.size (k1_off3_inb i)
abbrev rChunk2 (i : grid1.Coords) : Rect S1x1x2048x768 := Rect.unit (s := S1x1x2048x768) (k1_off4 i) S1x1x512x64.size (k1_off4_inb i)
abbrev rChunk3 (i : grid1.Coords) : Rect S1x1x2048x768 := Rect.unit (s := S1x1x2048x768) (k1_off5 i) S1x1x512x64.size (k1_off5_inb i)
/-- The whole output block. -/
abbrev rCtx : Rect S1x1x2048x64 := Rect.unit (s := S1x1x2048x64) ![0, 0, 0, 0] S1x1x2048x64.size inb_S1x1x2048x64_S1x1x2048x64_0_0_0_0

/-! ## What the body leaves in the output block -/

/-- The value stored into the output block at grid coordinates `i`, from the q, k and v slabs: the four chunks of the
    online softmax composed.  After chunk 0 the running maximum, denominator and numerator are `m0`, `l0`, `a0`; chunk 1
    gives `m1` and the numerator `a1` (its denominator is folded into the next step); chunks 2 and 3 are done by the
    last two payloads. -/
def ctxBlock (i : grid1.Coords) (xq xk xv : Vec F S1x1x2048x768 .bf16) : FVec F S1x1x2048x64 .f32 :=
  let q3 := View.ld xq (rHead i)
  let k0 := View.ld xk (rChunk0 i)
  let v0 := View.ld xv (rChunk0 i)
  let k1 := View.ld xk (rChunk1 i)
  let v1 := View.ld xv (rChunk1 i)
  let k2 := View.ld xk (rChunk2 i)
  let v2 := View.ld xv (rChunk2 i)
  let k3 := View.ld xk (rChunk3 i)
  let v3 := View.ld xv (rChunk3 i)
  let q := k1_pay2 q3
  let m0 := k1_pay5 q3 k0
  let l0 := k1_pay8 q3 k0
  let a0 := k1_pay9 q3 k0 v0
  let kk1 := k1_pay10 k1
  k1_pay1 q (k1_pay15 q m0 a0 kk1 v1) (k1_pay16 v2) (k1_pay18 q m0 kk1 k2) (k1_pay19 q m0 kk1 k2) (k1_pay20 q m0 kk1 k2)
    (k1_pay21 q m0 l0 kk1 k2) (k1_pay22 q m0 kk1 k2) k3 v3

/-- The output's staging buffer after the body: its one store, of the whole block. -/
def out1_3 (i : grid1.Coords) (xq xk xv : Vec F S1x1x2048x768 .bf16) : Vec F S1x1x2048x64 .f32 :=
  View.canon [⟨rCtx, ctxBlock i xq xk xv⟩]

/-- The store covers the block. -/
theorem cover1_3 (p0 : Vec F S1x1x2048x64 .f32) (y : S1x1x2048x64.Idx) :
    ∃ pc ∈ ([⟨rCtx, p0⟩] : List (View.Piece (Elt F) S1x1x2048x64 .f32)), y ∈ pc.1.set :=
  View.cover_of_tiled [⟨rCtx, p0⟩] S1x1x2048x64.size (by rfl) y

/-! ## The body's triple -/

set_option maxHeartbeats 4000000 in
/-- Run on whole staging memrefs holding the three slabs (the output's holding anything), the body returns with the
    slabs untouched and the output's buffer at `out1_3` of them. -/
theorem sound_kernel1 (c : Dev nD) (E : Set ℕ) (i : grid1.Coords)
    (arg2 : Memref sig .tc .vmem S1x1x2048x768 .bf16) (harg2 : arg2.IsWhole) (arg3 : Memref sig .tc .vmem S1x1x2048x768 .bf16) (harg3 : arg3.IsWhole)
    (arg4 : Memref sig .tc .vmem S1x1x2048x768 .bf16) (harg4 : arg4.IsWhole) (arg5 : Memref sig .tc .vmem S1x1x2048x64 .f32) (harg5 : arg5.IsWhole)
    (xq xk xv : Vec F S1x1x2048x768 .bf16) (K : PUnit → sProp 𝕄) :
    iprop(owns (c : Thread nD τ) arg2 fullShare xq ∗ owns (c : Thread nD τ) arg3 fullShare xk ∗ owns (c : Thread nD τ) arg4 fullShare xv
        ∗ (∃ d, owns (c : Thread nD τ) arg5 fullShare d)
        ∗ (iprop(owns (c : Thread nD τ) arg2 fullShare xq ∗ owns (c : Thread nD τ) arg3 fullShare xk ∗ owns (c : Thread nD τ) arg4 fullShare xv
            ∗ owns (c : Thread nD τ) arg5 fullShare (out1_3 i xq xk xv)) -∗ K ⟨⟩))
      ⊢ wp frame (wpE (defs₀ (F := F)) Variants.none c none) E (cc1__attn_kernel i arg2 harg2 arg3 harg3 arg4 harg4 arg5 harg5) K := by
  simp only [cc1__attn_kernel_eq_skeleton]; unfold cc1__attn_kernel_skel
  unfold owns
  iintro ⟨⟨%f2, %hf2, H2⟩, ⟨%f3, %hf3, H3⟩, ⟨%f4, %hf4, H4⟩, ⟨%d5, %f5, -, H5⟩, Hk⟩
  subst hf2; subst hf3; subst hf4
  sl_exec
  sl_step
  iapply Hk
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover1_3 _)

/-! ## The proof data of the call -/

/-- On core `c`: the arrays as the call finds them; after the body at point `t` the three input buffers still hold
    their slabs and the output's holds `out1_3` of them; the invariant is the untouched scoped rest and the generator
    register; nothing is owed.  The three input windows read ONE array, so each holds a part of its ownership: the
    left half, the left half of the right half, and the right half of the right half. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (grid1.coords t) (iblk1 V c 0 t) (iblk1 V c 1 t) (iblk1 V c 2 t)
  Φ _ := Pipeline.ΦA spec1 c
  q w := match w with
    | ⟨0, _⟩ => fullShare.left
    | ⟨1, _⟩ => fullShare.right.left
    | ⟨2, _⟩ => fullShare.right.right
    | ⟨3, _⟩ => fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) :
    (dat1 V c).after 3 t = out1_3 (grid1.coords t) (iblk1 V c 0 t) (iblk1 V c 1 t) (iblk1 V c 2 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation at a generic grid point -/

/-- What the body is called with at point `t`, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

/-- At any point the three input buffers hold the point's slabs, so the body's triple applies; the invariant and
    what the core owes pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ (grid1.coords t) _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation of the call, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.KI.R1Glue.lean ====
/-
  Ownership bookkeeping for the attention call.  Its three input windows read ONE array (the projected qkv), so the
  whole ownership of that array is divided among them on entry — a left half, and the two halves of the right half — and
  put back together on exit; the output array (the context) is owned outright throughout.
-/
import proofs.«105011_j8443905704227_2_alg».proof.Proof.KI.R1Body

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The distinct buffers behind the call's four windows are two: the projected array and the context array. -/
theorem arrBufs1_eq (c : Dev nD) (Vc : (b : Ref sig .tc) → Buf (Elt F) ((c : Thread nD τ).loc b)) :
    (Pipeline.arrBufs (Ix := Unit) (Name := ℕ) (U := UR sig nD τ) (Lvl := ℕ) spec1 c Vc : sProp 𝕄)
      = iprop((((c : Thread nD τ).loc main_v0) ↦{fullShare} Vc main_v0) ∗ (((c : Thread nD τ).loc main_v1) ↦{fullShare} Vc main_v1)) := by
  unfold Pipeline.arrBufs
  exact bigSep_eq_bigSepL_of_eq [main_v0, main_v1] (by decide) (by decide) _

/-- ENTRY: the two buffers, each whole, give the four windows' arrays at the shares the proof data names. -/
theorem split1 (c : Dev nD) :
    (Pipeline.arrBufs (Ix := Unit) (Name := ℕ) (U := UR sig nD τ) (Lvl := ℕ) spec1 c (V c) : sProp 𝕄)
      ⊢ (dat1 V c).arrays ((dat1 V c).arrAt · 0) := by
  rw [arrBufs1_eq]
  unfold Pipeline.Dat.arrays
  rw [bigSep_W1]
  have e0 : (cfg1.win 0).arr.view.set = Finset.univ := (arr_whole1 0).set_eq_univ
  have e3 : (cfg1.win 3).arr.view.set = Finset.univ := (arr_whole1 3).set_eq_univ
  rw [e0, e3]
  iintro ⟨H0, H1⟩
  ihave H0' := (pointsTo_share (PosShare.mem_left_op_right fullShare)).1 $$ H0
  icases H0' with ⟨Hq, Hr⟩
  ihave Hr' := (pointsTo_share (PosShare.mem_left_op_right fullShare.right)).1 $$ Hr
  icases Hr' with ⟨Hk, Hv⟩
  isplitl [Hq]; · iexact Hq
  isplitl [Hk]; · iexact Hk
  isplitl [Hv]; · iexact Hv
  iexact H1

/-- EXIT: the four windows' arrays at what the call leaves — the projected array untouched under each of its three
    readers, the context array at its final contents — are the two buffers whole again, at any contents that agree. -/
theorem join1 (c : Dev nD) (Vc' : (b : Ref sig .tc) → Buf (Elt F) ((c : Thread nD τ).loc b))
    (h0 : Vc' main_v0 = V c main_v0) (h1 : Vc' main_v1 = (dat1 V c).arrAt 3 cfg1.N) :
    (dat1 V c).arrays ((dat1 V c).arrAt · cfg1.N)
      ⊢ (Pipeline.arrBufs (Ix := Unit) (Name := ℕ) (U := UR sig nD τ) (Lvl := ℕ) spec1 c Vc' : sProp 𝕄) := by
  rw [arrBufs1_eq, h0, h1]
  unfold Pipeline.Dat.arrays
  rw [bigSep_W1]
  have e0 : (cfg1.win 0).arr.view.set = Finset.univ := (arr_whole1 0).set_eq_univ
  have e3 : (cfg1.win 3).arr.view.set = Finset.univ := (arr_whole1 3).set_eq_univ
  rw [e0, e3]
  have a0 : (dat1 V c).arrAt 0 cfg1.N = V c main_v0 := ((dat1 V c).arrAt_in 0 rfl _).trans (A_eq1 V c 0)
  have a1 : (dat1 V c).arrAt 1 cfg1.N = V c main_v0 := ((dat1 V c).arrAt_in 1 rfl _).trans (A_eq1 V c 1)
  have a2 : (dat1 V c).arrAt 2 cfg1.N = V c main_v0 := ((dat1 V c).arrAt_in 2 rfl _).trans (A_eq1 V c 2)
  simp only [a0, a1, a2]
  iintro ⟨Hq, Hk, Hv, H1⟩
  ihave Hr := (pointsTo_share (PosShare.mem_left_op_right fullShare.right)).2 $$ [Hk Hv]
  · isplitl [Hk]; · iexact Hk
    iexact Hv
  ihave H0 := (pointsTo_share (PosShare.mem_left_op_right fullShare)).2 $$ [Hq Hr]
  · isplitl [Hq]; · iexact Hq
    iexact Hr
  isplitl [H0]; · iexact H0
  iexact H1

end Cert.KernelIdeal.Hand

end
-- ==== Proof.KI.R2Runs.lean ====
import proofs.«105011_j8443905704227_2_alg».proof.Proof.Gen.KernelIdeal.Launch
import proofs.«105011_j8443905704227_2_alg».proof.Proof.Gen.KernelIdeal.Skeleton
import proofs.«105011_j8443905704227_2_alg».proof.Proof.Gen.KernelIdeal.Points
import Idealize.ShloMosaic.Lib.Pipeline.FrameBody
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The output projection's body, case by case

The body of the third call keeps an accumulator in a scratch buffer across the twelve heads of a batch row:
it zeroes the accumulator at the first head, adds the head's product at every head, and copies the
accumulator into the output block at the last head. Each case is run once, on any whole staging
memrefs, with what the buffers hold afterwards stated in closed form over the payloads. -/

/-- The first conditional of the projection body (the accumulator's reset): the head coordinate is zero. -/
abbrev cond2_0 (i : grid2.Coords) : Prop := (Scalar.cmpi .ne (Scalar.extui (Scalar.cmpi .eq (BitVec.ofNat 32 (i 1).val) 0#32)) 0#32) = 1#1
/-- It holds exactly at the first head of each batch row of the grid. -/
theorem hcond2_0 : ∀ t : Fin cfg2.N, cond2_0 (grid2.coords t) ↔ t.val % 12 = 0 :=
  (by decide +kernel : ∀ t : Fin grid2.N, cond2_0 (grid2.coords t) ↔ t.val % 12 = 0)
/-- The second conditional (the copy-out): the head coordinate is the last one. -/
abbrev cond2_1 (i : grid2.Coords) : Prop := k2_cond2 i = 1#1
/-- It holds exactly at the last head of each batch row of the grid. -/
theorem hcond2_1 : ∀ t : Fin cfg2.N, cond2_1 (grid2.coords t) ↔ t.val % 12 = 11 :=
  (by decide +kernel : ∀ t : Fin grid2.N, cond2_1 (grid2.coords t) ↔ t.val % 12 = 11)

theorem hz2 : (![0, 0] : Fin 2 → Nat) = fun _ => 0 := funext fun a => by fin_cases a <;> rfl
theorem hz3 : (![0, 0, 0] : Fin 3 → Nat) = fun _ => 0 := funext fun a => by fin_cases a <;> rfl
theorem hz4 : (![0, 0, 0, 0] : Fin 4 → Nat) = fun _ => 0 := funext fun a => by fin_cases a <;> rfl

/-- A store through the whole rectangle, last, covers the shape whatever the earlier stores were. -/
theorem cover_cons_unit_zero {S : Shape} {e : EltTy} {Val : EltTy → Type} {off : Fin S.rank → Nat} (h : off = fun _ => 0)
    (inb : ∀ a, off a + S.size a ≤ S.size a) (w : S.Idx → Val e) (L : List (View.Piece Val S e)) (y : S.Idx) :
    ∃ p ∈ ((⟨Rect.unit off S.size inb, w⟩ : View.Piece Val S e) :: L), y ∈ p.1.set := by
  subst h
  exact ⟨_, List.mem_cons.mpr (Or.inl rfl), by show y ∈ (Rect.whole S).set; rw [Rect.set_whole]; exact Finset.mem_univ y⟩

/-- The sixty-four columns of the projection weight that head `i 1` contracts with: rows all, columns
    `[64 h, 64 h + 64)` of the weight block. -/
abbrev wcols (i : grid2.Coords) (x1 : Vec F S768x768 .f32) : Vec F S768x64 .f32 :=
  View.ld x1 (Rect.unit (s := S768x768) (k2_off1 i) S768x64.size (k2_off1_inb i))

/-- One head's step of the accumulation: the accumulator `xs` plus the head's context block `x0` times
    the head's weight columns, transposed. -/
def step2 (i : grid2.Coords) (x0 : Vec F S1x1x2048x64 .f32) (x1 : Vec F S768x768 .f32) (xs : Vec F S2048x768 .f32) :
    Vec F S2048x768 .f32 :=
  k2_pay2 x0 (wcols i x1) xs

set_option maxHeartbeats 1000000 in
/-- A middle head (neither first nor last): the accumulator, found at `xs`, is left at one more step; the
    output block's buffer is handed back untouched. -/
theorem run2_B (c : Dev nD) (i : grid2.Coords) (arg2 : Memref sig .tc .vmem S1x1x2048x64 .f32) (harg2 : arg2.IsWhole) (arg3 : Memref sig .tc .vmem S768x768 .f32) (harg3 : arg3.IsWhole) (arg4 : Memref sig .tc .vmem S1x2048x768 .f32) (harg4 : arg4.IsWhole) (arg5 : Memref sig .tc .vmem S2048x768 .f32) (harg5 : arg5.IsWhole)
    (hc0 : ¬cond2_0 i) (hc1 : ¬cond2_1 i)
    (x0 : Vec F S1x1x2048x64 .f32) (x1 : Vec F S768x768 .f32) (xo : Vec F S1x2048x768 .f32) (xs : Vec F S2048x768 .f32)
    (E : Set ℕ) (K : PUnit → sProp 𝕄) :
    iprop(owns (c : Thread nD τ) arg2 fullShare x0 ∗ owns (c : Thread nD τ) arg3 fullShare x1 ∗ owns (c : Thread nD τ) arg4 fullShare xo ∗ owns (c : Thread nD τ) arg5 fullShare xs
        ∗ (iprop(owns (c : Thread nD τ) arg2 fullShare x0 ∗ owns (c : Thread nD τ) arg3 fullShare x1 ∗ owns (c : Thread nD τ) arg4 fullShare xo ∗ owns (c : Thread nD τ) arg5 fullShare (step2 i x0 x1 xs)) -∗ K ⟨⟩))
      ⊢ wp frame (wpE (defs₀ (F := F)) Variants.none c none) E (cc2__proj_kernel i arg2 harg2 arg3 harg3 arg4 harg4 arg5 harg5) K := by
  simp only [cc2__proj_kernel_eq_skeleton]; unfold cc2__proj_kernel_skel
  unfold owns
  iintro ⟨⟨%f0, %hf0, H0⟩, ⟨%f1, %hf1, H1⟩, ⟨%fo, %hfo, HO⟩, ⟨%fs, %hfs, HS⟩, Hk⟩
  obtain rfl := harg2.eq_unread hf0; obtain rfl := harg3.eq_unread hf1; obtain rfl := harg4.eq_unread hfo; obtain rfl := harg5.eq_unread hfs
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [HO]
  · iexists _; isplitr; · ipureintro; exact harg4.read_unread _
    iexact HO
  iexists _; isplitr
  swap; · iexact HS
  ipureintro
  rw [View.read_writes_eq_canon _ _ _ (cover_cons_unit_zero hz2 _ _ _), View.canon_unit_zero hz2]
  simp only [View.readAt_eq_ld, harg2.read_unread, harg3.read_unread, harg5.read_unread,
    View.ld_unit_zero (S := S2048x768) hz2, View.ld_unit_zero (S := S1x1x2048x64) hz4]
  rfl

set_option maxHeartbeats 1000000 in
/-- The first head of a batch row: the accumulator, found at anything, is zeroed and left at the first step
    from zero; the output block's buffer is handed back untouched. -/
theorem run2_A (c : Dev nD) (i : grid2.Coords) (arg2 : Memref sig .tc .vmem S1x1x2048x64 .f32) (harg2 : arg2.IsWhole) (arg3 : Memref sig .tc .vmem S768x768 .f32) (harg3 : arg3.IsWhole) (arg4 : Memref sig .tc .vmem S1x2048x768 .f32) (harg4 : arg4.IsWhole) (arg5 : Memref sig .tc .vmem S2048x768 .f32) (harg5 : arg5.IsWhole)
    (hc0 : cond2_0 i) (hc1 : ¬cond2_1 i)
    (x0 : Vec F S1x1x2048x64 .f32) (x1 : Vec F S768x768 .f32) (xo : Vec F S1x2048x768 .f32)
    (E : Set ℕ) (K : PUnit → sProp 𝕄) :
    iprop(owns (c : Thread nD τ) arg2 fullShare x0 ∗ owns (c : Thread nD τ) arg3 fullShare x1 ∗ owns (c : Thread nD τ) arg4 fullShare xo ∗ (∃ xs, owns (c : Thread nD τ) arg5 fullShare xs)
        ∗ (iprop(owns (c : Thread nD τ) arg2 fullShare x0 ∗ owns (c : Thread nD τ) arg3 fullShare x1 ∗ owns (c : Thread nD τ) arg4 fullShare xo ∗ owns (c : Thread nD τ) arg5 fullShare (step2 i x0 x1 (k2_pay1 (F := F)))) -∗ K ⟨⟩))
      ⊢ wp frame (wpE (defs₀ (F := F)) Variants.none c none) E (cc2__proj_kernel i arg2 harg2 arg3 harg3 arg4 harg4 arg5 harg5) K := by
  simp only [cc2__proj_kernel_eq_skeleton]; unfold cc2__proj_kernel_skel
  unfold owns
  iintro ⟨⟨%f0, %hf0, H0⟩, ⟨%f1, %hf1, H1⟩, ⟨%fo, %hfo, HO⟩, ⟨%xs, %fs, -, HS⟩, Hk⟩
  obtain rfl := harg2.eq_unread hf0; obtain rfl := harg3.eq_unread hf1; obtain rfl := harg4.eq_unread hfo
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [HO]
  · iexists _; isplitr; · ipureintro; exact harg4.read_unread _
    iexact HO
  iexists _; isplitr
  swap; · iexact HS
  ipureintro
  rw [View.read_writes_eq_canon _ _ _ (cover_cons_unit_zero hz2 _ _ _), View.canon_cons_unit_zero hz2]
  sl_unfold_words
  rw [View.readCov_unit_zero (S := S2048x768) _ hz2]
  simp only [View.readAt_eq_ld, harg2.read_unread, harg3.read_unread, View.ld_unit_zero (S := S1x1x2048x64) hz4]
  rfl

set_option maxHeartbeats 1000000 in
/-- The last head of a batch row: the accumulator, found at `xs`, is left at one more step, and the output
    block's buffer, found at anything, is left at a copy of it. -/
theorem run2_C (c : Dev nD) (i : grid2.Coords) (arg2 : Memref sig .tc .vmem S1x1x2048x64 .f32) (harg2 : arg2.IsWhole) (arg3 : Memref sig .tc .vmem S768x768 .f32) (harg3 : arg3.IsWhole) (arg4 : Memref sig .tc .vmem S1x2048x768 .f32) (harg4 : arg4.IsWhole) (arg5 : Memref sig .tc .vmem S2048x768 .f32) (harg5 : arg5.IsWhole)
    (hc0 : ¬cond2_0 i) (hc1 : cond2_1 i)
    (x0 : Vec F S1x1x2048x64 .f32) (x1 : Vec F S768x768 .f32) (xs : Vec F S2048x768 .f32)
    (E : Set ℕ) (K : PUnit → sProp 𝕄) :
    iprop(owns (c : Thread nD τ) arg2 fullShare x0 ∗ owns (c : Thread nD τ) arg3 fullShare x1 ∗ (∃ xo, owns (c : Thread nD τ) arg4 fullShare xo) ∗ owns (c : Thread nD τ) arg5 fullShare xs
        ∗ (iprop(owns (c : Thread nD τ) arg2 fullShare x0 ∗ owns (c : Thread nD τ) arg3 fullShare x1 ∗ owns (c : Thread nD τ) arg4 fullShare (k2_pay3 (step2 i x0 x1 xs)) ∗ owns (c : Thread nD τ) arg5 fullShare (step2 i x0 x1 xs)) -∗ K ⟨⟩))
      ⊢ wp frame (wpE (defs₀ (F := F)) Variants.none c none) E (cc2__proj_kernel i arg2 harg2 arg3 harg3 arg4 harg4 arg5 harg5) K := by
  simp only [cc2__proj_kernel_eq_skeleton]; unfold cc2__proj_kernel_skel
  unfold owns
  iintro ⟨⟨%f0, %hf0, H0⟩, ⟨%f1, %hf1, H1⟩, ⟨%xo, %fo, -, HO⟩, ⟨%fs, %hfs, HS⟩, Hk⟩
  obtain rfl := harg2.eq_unread hf0; obtain rfl := harg3.eq_unread hf1; obtain rfl := harg5.eq_unread hfs
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [HO]
  · iexists _; isplitr
    swap; · iexact HO
    ipureintro
    rw [View.read_writes_eq_canon _ _ _ (cover_cons_unit_zero hz3 _ _ _), View.canon_unit_zero hz3]
    sl_unfold_words
    rw [View.readCov_unit_zero (S := S2048x768) _ hz2]
    simp only [View.readAt_eq_ld, harg2.read_unread, harg3.read_unread, harg5.read_unread,
      View.ld_unit_zero (S := S2048x768) hz2, View.ld_unit_zero (S := S1x1x2048x64) hz4]
    rfl
  iexists _; isplitr
  swap; · iexact HS
  ipureintro
  sl_unfold_words
  rw [View.read_writes_eq_canon _ _ _ (cover_cons_unit_zero hz2 _ _ _), View.canon_unit_zero hz2]
  simp only [View.readAt_eq_ld, harg2.read_unread, harg3.read_unread, harg5.read_unread,
    View.ld_unit_zero (S := S2048x768) hz2, View.ld_unit_zero (S := S1x1x2048x64) hz4]
  rfl

end Cert.KernelIdeal.Hand

end
-- ==== Proof.KI.R2Body.lean ====
import proofs.«105011_j8443905704227_2_alg».proof.Proof.KI.R2Runs
import Idealize.ShloMosaic.Lib.Pipeline.FrameBody
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The output projection's region: proof data and body obligation

The third call's proof data at a parameter `V` (what the TensorCore's buffers hold when the region is
entered): the accumulator's contents after each point by recursion on the point, the invariant that carries
them from point to point, and the body obligation, one leaf per case of the body's two conditionals. -/

/-! ## Where the windows are idle -/

theorem liveAt2_0 : ∀ t : Fin cfg2.N, cfg2.idle 0 (grid2.coords t) = false := by decide +kernel
theorem liveAt2_1 : ∀ t : Fin cfg2.N, cfg2.idle 1 (grid2.coords t) = false := by decide +kernel
/-- Away from the last head the output window is idle, -/
theorem idleAt2_2 : ∀ t : Fin cfg2.N, ¬cond2_1 (grid2.coords t) → cfg2.idle 2 (grid2.coords t) = true := by decide +kernel
/-- and its block is not written back; -/
theorem noFlush2_2 : ∀ t : Fin cfg2.N, ¬cond2_1 (grid2.coords t) → (cfg2.win 2).flush t = false := by decide +kernel
/-- at the last head it is live. -/
theorem liveAt2_2 : ∀ t : Fin cfg2.N, cond2_1 (grid2.coords t) → cfg2.idle 2 (grid2.coords t) = false := by decide +kernel

/-! ## The memrefs the body is called with -/

abbrev ms2_0 (t : Fin cfg2.N) : Memref sig .tc .vmem S1x1x2048x64 .f32 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S768x768 .f32 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S1x2048x768 .f32 := win2_2.stage (cfg2.slots t 2)
abbrev hs2_2 (t : Fin cfg2.N) : (ms2_2 t).IsWhole := hstage2_2 ((cfg2.slots t 2).cast nbuf2_2)
/-- The accumulator: a whole scoped buffer of the call's own. -/
abbrev scM2 : Memref sig .tc .vmem S2048x768 .f32 := Memref.whole cc2_scratch0

/-- The class invariant with the accumulator split off as a memref owned at some contents; every other scoped
    buffer stays unopened. -/
theorem PhiA2_eq (c : Dev nD) :
    (Pipeline.ΦA spec2 c : sProp 𝕄)
      = iprop(iprop((∃ d, owns (c : Thread nD τ) scM2 fullShare d)
          ∗ Pipeline.scopedRestBut (Ix := Unit) (Name := ℕ) (U := UR sig nD τ) (Lvl := ℕ) (Val := Elt F) spec2 c [cc2_scratch0])
        ∗ (∃ r, prngReg c r)) := by
  unfold Pipeline.ΦA
  rw [Pipeline.scopedRest_split_of_list spec2 c [cc2_scratch0] (by decide) (by decide)]
  simp only [Idealize.SL.BI.bigSepL_singleton, scM2, owns_whole]; try rfl

section Region
variable (V : (c : Dev nD) → (b : Ref sig .tc) → Buf (Elt F) ((c : Thread nD τ).loc b))

/-! ## The windows' blocks -/

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- An input window's current staging buffer holds its block at every point, fetched there or not. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-! ## The accumulation -/

/-- What the accumulator holds after the body at position `n`: one step from zero at the first head of a batch
    row, one step from what the point before left at the others. -/
def accAt (c : Dev nD) : (n : ℕ) → n < cfg2.N → Vec F S2048x768 .f32
  | 0, hn => step2 (grid2.coords ⟨0, hn⟩) (iblk2 V c 0 ⟨0, hn⟩) (iblk2 V c 1 ⟨0, hn⟩) (k2_pay1 (F := F))
  | n + 1, hn =>
    if (n + 1) % 12 = 0 then
      step2 (grid2.coords ⟨n + 1, hn⟩) (iblk2 V c 0 ⟨n + 1, hn⟩) (iblk2 V c 1 ⟨n + 1, hn⟩) (k2_pay1 (F := F))
    else
      step2 (grid2.coords ⟨n + 1, hn⟩) (iblk2 V c 0 ⟨n + 1, hn⟩) (iblk2 V c 1 ⟨n + 1, hn⟩) (accAt c n (Nat.lt_of_succ_lt hn))

/-- At the first head of a batch row: from zero. -/
theorem accAt_first (c : Dev nD) (t : Fin cfg2.N) (h0 : t.val % 12 = 0) :
    accAt V c t.val t.isLt = step2 (grid2.coords t) (iblk2 V c 0 t) (iblk2 V c 1 t) (k2_pay1 (F := F)) := by
  obtain ⟨n, hn⟩ := t
  cases n with
  | zero => rfl
  | succ n => exact if_pos h0

/-- At any other head: from what the point before left. -/
theorem accAt_next (c : Dev nD) (t : Fin cfg2.N) (h0 : ¬t.val % 12 = 0) :
    accAt V c t.val t.isLt = step2 (grid2.coords t) (iblk2 V c 0 t) (iblk2 V c 1 t)
      (accAt V c (t.val - 1) (Nat.lt_of_le_of_lt (Nat.sub_le _ _) t.isLt)) := by
  obtain ⟨n, hn⟩ := t
  cases n with
  | zero => exact absurd (Nat.zero_mod _) h0
  | succ n => exact if_neg h0

/-! ## The invariant -/

/-- Before position `n`: before the first point what the launch hands the region; afterwards the accumulator at
    what the point before left in it, the other scoped buffers at anything, the generator register at some state. -/
def PhiS (c : Dev nD) : (n : ℕ) → n ≤ cfg2.N → sProp 𝕄
  | 0, _ => Pipeline.ΦA spec2 c
  | n + 1, hn => iprop(iprop(owns (c : Thread nD τ) scM2 fullShare (accAt V c n hn)
      ∗ Pipeline.scopedRestBut (Ix := Unit) (Name := ℕ) (U := UR sig nD τ) (Lvl := ℕ) (Val := Elt F) spec2 c [cc2_scratch0])
      ∗ (∃ r, prngReg c r))

theorem PhiS_zero (c : Dev nD) (n : ℕ) (h : n ≤ cfg2.N) (hz : n = 0) : PhiS V c n h = Pipeline.ΦA spec2 c := by
  subst hz; rfl

theorem PhiS_succ (c : Dev nD) (n : ℕ) (hn : n < cfg2.N) :
    PhiS V c (n + 1) hn = iprop(iprop(owns (c : Thread nD τ) scM2 fullShare (accAt V c n hn)
      ∗ Pipeline.scopedRestBut (Ix := Unit) (Name := ℕ) (U := UR sig nD τ) (Lvl := ℕ) (Val := Elt F) spec2 c [cc2_scratch0])
      ∗ (∃ r, prngReg c r)) := rfl

theorem PhiS_pos (c : Dev nD) (n : ℕ) (h : n ≤ cfg2.N) (hz : n ≠ 0) :
    PhiS V c n h = iprop(iprop(owns (c : Thread nD τ) scM2 fullShare (accAt V c (n - 1) (by omega))
      ∗ Pipeline.scopedRestBut (Ix := Unit) (Name := ℕ) (U := UR sig nD τ) (Lvl := ℕ) (Val := Elt F) spec2 c [cc2_scratch0])
      ∗ (∃ r, prngReg c r)) := by
  cases n with
  | zero => exact absurd rfl hz
  | succ n => rfl

/-! ## The proof data -/

/-- The proof data of the third call on core `c`: the arrays as the region finds them; after the body each input's
    buffer at its block and the output's at a copy of the accumulator (consulted at the last head of a batch row
    only: elsewhere the window is idle); the invariant `PhiS`; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => k2_pay3 (accAt V c t.val t.isLt)
  Φ t := PhiS V c t.val (Nat.le_of_lt_succ t.isLt)
  q _ := fullShare
  owed _ := 0

theorem A_eq2 (c : Dev nD) (w : Fin cfg2.W) : (dat2 V c).A w = V c (Pipeline.arrRef spec2 w) := by
  dsimp only [dat2]

theorem PhiS_castSucc (c : Dev nD) (t : Fin cfg2.N) :
    (dat2 V c).Φ t.castSucc = PhiS V c t.val (Nat.le_of_lt t.isLt) := by
  dsimp only [dat2]; simp only [Fin.coe_castSucc]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = k2_pay3 (accAt V c t.val t.isLt) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d

/-! ## The body obligation, at a generic point -/

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d)))

/-- and what it returns. -/
def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t)

set_option maxHeartbeats 4800000 in
/-- The body at any point. The inputs' memrefs hold their blocks; the closed forms of the two conditions say which
    case the point is in; the invariant hands the body the accumulator at what the point before left (at anything
    before the first point) and takes it back at this point's contents; away from the last head the output's
    buffer goes back as it came, at the last head it goes back at a copy of the accumulator. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1]
  rw [show (dat2 V c).owesAt () t.succ = (dat2 V c).owesAt () t.castSucc from rfl]
  rw [show (dat2 V c).Φ t.succ = PhiS V c (t.val + 1) t.isLt from rfl, PhiS_succ]
  rw [show (dat2 V c).leavesExact 0 t = owns (c : Thread nD τ) (ms2_0 t) fullShare ((dat2 V c).after 0 t) from by
    unfold Dat.leavesExact; rw [liveAt2_0 t], after2_0]
  rw [show (dat2 V c).leavesExact 1 t = owns (c : Thread nD τ) (ms2_1 t) fullShare ((dat2 V c).after 1 t) from by
    unfold Dat.leavesExact; rw [liveAt2_1 t], after2_1]
  have hN : t.val < 48 := lt_of_lt_of_eq t.isLt (show cfg2.N = 48 from N_2)
  by_cases h1 : t.val % 12 = 11
  · have h0 : ¬t.val % 12 = 0 := by omega
    have hz : t.val ≠ 0 := by omega
    rw [show (dat2 V c).leavesExact 2 t = owns (c : Thread nD τ) (ms2_2 t) fullShare ((dat2 V c).after 2 t) from by
      unfold Dat.leavesExact; rw [liveAt2_2 t ((hcond2_1 t).mpr h1)], after2_2]
    rw [accAt_next V c t h0]
    rw [PhiS_castSucc V c t, PhiS_pos V c _ _ hz]
    iintro ⟨⟨⟨HS, HR⟩, Hg⟩, Ho, ⟨%d0, H0⟩, ⟨%d1, H1⟩, ⟨%d2, H2⟩⟩
    iapply (run2_C c (grid2.coords t) _ _ _ _ _ _ _ _ (fun h => h0 ((hcond2_0 t).mp h)) ((hcond2_1 t).mpr h1) (iblk2 V c 0 t) (iblk2 V c 1 t) _ Set.univ _)
    isplitl [H0]; · iexact H0
    isplitl [H1]; · iexact H1
    isplitl [H2]; · iexists _; iexact H2
    isplitl [HS]; · iexact HS
    iintro ⟨H0, H1, H2, HS⟩
    isplitl [HS HR Hg]
    · isplitl [HS HR]
      · isplitl [HS]; · iexact HS
        iexact HR
      iexact Hg
    isplitl [Ho]; · iexact Ho
    isplitl [H0]; · iexact H0
    isplitl [H1]; · iexact H1
    iexact H2
  · rw [Dat.leavesExact_idle (dat2 V c) 2 t (idleAt2_2 t (fun h => h1 ((hcond2_1 t).mp h))) (noFlush2_2 t (fun h => h1 ((hcond2_1 t).mp h)))]
    by_cases h0 : t.val % 12 = 0
    · rw [accAt_first V c t h0]
      by_cases hz : t.val = 0
      · rw [PhiS_castSucc V c t, PhiS_zero V c _ _ hz, PhiA2_eq]
        iintro ⟨⟨⟨HS, HR⟩, Hg⟩, Ho, ⟨%d0, H0⟩, ⟨%d1, H1⟩, ⟨%d2, H2⟩⟩
        iapply (run2_A c (grid2.coords t) _ _ _ _ _ _ _ _ ((hcond2_0 t).mpr h0) (fun h => h1 ((hcond2_1 t).mp h)) (iblk2 V c 0 t) (iblk2 V c 1 t) _ Set.univ _)
        isplitl [H0]; · iexact H0
        isplitl [H1]; · iexact H1
        isplitl [H2]; · iexact H2
        isplitl [HS]; · iexact HS
        iintro ⟨H0, H1, H2, HS⟩
        isplitl [HS HR Hg]
        · isplitl [HS HR]
          · isplitl [HS]; · iexact HS
            iexact HR
          iexact Hg
        isplitl [Ho]; · iexact Ho
        isplitl [H0]; · iexact H0
        isplitl [H1]; · iexact H1
        iexists _; iexact H2
      · rw [PhiS_castSucc V c t, PhiS_pos V c _ _ hz]
        iintro ⟨⟨⟨HS, HR⟩, Hg⟩, Ho, ⟨%d0, H0⟩, ⟨%d1, H1⟩, ⟨%d2, H2⟩⟩
        iapply (run2_A c (grid2.coords t) _ _ _ _ _ _ _ _ ((hcond2_0 t).mpr h0) (fun h => h1 ((hcond2_1 t).mp h)) (iblk2 V c 0 t) (iblk2 V c 1 t) _ Set.univ _)
        isplitl [H0]; · iexact H0
        isplitl [H1]; · iexact H1
        isplitl [H2]; · iexact H2
        isplitl [HS]; · iexists _; iexact HS
        iintro ⟨H0, H1, H2, HS⟩
        isplitl [HS HR Hg]
        · isplitl [HS HR]
          · isplitl [HS]; · iexact HS
            iexact HR
          iexact Hg
        isplitl [Ho]; · iexact Ho
        isplitl [H0]; · iexact H0
        isplitl [H1]; · iexact H1
        iexists _; iexact H2
    · have hz : t.val ≠ 0 := fun h => h0 (by rw [h])
      rw [accAt_next V c t h0]
      rw [PhiS_castSucc V c t, PhiS_pos V c _ _ hz]
      iintro ⟨⟨⟨HS, HR⟩, Hg⟩, Ho, ⟨%d0, H0⟩, ⟨%d1, H1⟩, ⟨%d2, H2⟩⟩
      iapply (run2_B c (grid2.coords t) _ _ _ _ _ _ _ _ (fun h => h0 ((hcond2_0 t).mp h)) (fun h => h1 ((hcond2_1 t).mp h)) (iblk2 V c 0 t) (iblk2 V c 1 t) _ _ Set.univ _)
      isplitl [H0]; · iexact H0
      isplitl [H1]; · iexact H1
      isplitl [H2]; · iexact H2
      isplitl [HS]; · iexact HS
      iintro ⟨H0, H1, H2, HS⟩
      isplitl [HS HR Hg]
      · isplitl [HS HR]
        · isplitl [HS]; · iexact HS
          iexact HR
        iexact Hg
      isplitl [Ho]; · iexact Ho
      isplitl [H0]; · iexact H0
      isplitl [H1]; · iexact H1
      iexists _; iexact H2

/-- The library's body obligation, at every point. -/
theorem body_obligation2 (c : Dev nD) : BodyObligation (dat2 (F := F) V c) (defs₀ (F := F)) Variants.none () Set.univ := fun t => by
  rw [bigSep_W2, bigSep_W2]
  exact sound_body2 V c t

/-- What the launch hands the region is the invariant before the first point. -/
theorem hin2 (c : Dev nD) : Pipeline.ΦA spec2 c ⊢ (dat2 V c).Φ 0 := by
  rw [show (dat2 V c).Φ 0 = PhiS V c 0 (Nat.zero_le _) from rfl, PhiS_zero V c 0 _ rfl]
  try exact Idealize.SL.BI.Entails.refl _

/-- After any point but the first the invariant gives the class invariant back: the accumulator's named contents
    are forgotten. -/
theorem Phi_out2 (c : Dev nD) (t : Fin (cfg2.N + 1)) (ht : t.val ≠ 0) : (dat2 V c).Φ t ⊢ Pipeline.ΦA spec2 c := by
  rw [show (dat2 V c).Φ t = PhiS V c t.val (Nat.le_of_lt_succ t.isLt) from rfl, PhiS_pos V c _ _ ht, PhiA2_eq]
  iintro ⟨⟨HS, HR⟩, Hg⟩
  isplitl [HS HR]
  · isplitl [HS]
    · iexists _; iexact HS
    iexact HR
  iexact Hg

/-- The same after the last point. -/
theorem hout2 (c : Dev nD) : (dat2 V c).Φ (Fin.last cfg2.N) ⊢ Pipeline.ΦA spec2 c :=
  Phi_out2 V c _ (by rw [Fin.val_last]; have : cfg2.N = 48 := N_2; omega)

end Region

end Cert.KernelIdeal.Hand

end
-- ==== Proof.KI.Run.lean ====
/-
  The three kernel launches in sequence, on one TensorCore: the projection writes the qkv array, the attention call
  reads it (three times over) and writes the context array, the output projection reads that and writes the result.
  This module follows the buffers' contents from launch to return — after each call its output array holds what the
  call's write-backs leave and every other buffer is as before — and concludes that every fair execution terminates
  with the result array at the third call's final contents and the three argument arrays as launched.
-/
import proofs.«105011_j8443905704227_2_alg».proof.Proof.KI.R0Body
import proofs.«105011_j8443905704227_2_alg».proof.Proof.KI.R1Glue
import proofs.«105011_j8443905704227_2_alg».proof.Proof.KI.R2Body

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents between the calls -/

/-- At launch. -/
abbrev W0 : Dev nD → Valuation τ sig (Elt F) := fun c b => m (c, b)
abbrev V0 : (c : Dev nD) → (b : Ref sig .tc) → Buf (Elt F) ((c : Thread nD τ).loc b) := fun c b => W0 m c b

/-- After the projection: its windows' arrays at what its write-backs leave (the two inputs unchanged, the qkv array
    written), every other buffer as launched. -/
def W1 (c : Dev nD) : Valuation τ sig (Elt F) :=
  Pipeline.withArrays spec0 c (W0 m c) fun w => (dat0 (V0 m) c).arrAt w cfg0.N
theorem W1_arr (c : Dev nD) (w : Fin cfg0.W) :
    W1 m c (Proc.devRef .tc (Pipeline.arrRef spec0 w)) = (dat0 (V0 m) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m c (Proc.devRef .tc b) = W0 m c (Proc.devRef .tc b) := by
  unfold W1; exact Pipeline.withArrays_of_ne spec0 c _ _ b hb
abbrev V1 : (c : Dev nD) → (b : Ref sig .tc) → Buf (Elt F) ((c : Thread nD τ).loc b) := fun c b => W1 m c b
theorem hF0 (c : Dev nD) (w : Fin cfg0.W) : (dat0 (V0 m) c).arrAt w cfg0.N = V1 m c (Pipeline.arrRef spec0 w) :=
  (W1_arr m c w).symm
theorem hrest0 (c : Dev nD) : ∀ b, b ∉ Finset.univ.image (Pipeline.arrRef spec0) → V1 m c b = V0 m c b :=
  fun b hb => W1_of_ne m c b fun w e => hb (Finset.mem_image.mpr ⟨w, Finset.mem_univ _, e⟩)

/-- After the attention call: the context array at what its write-backs leave, every other buffer as before. -/
def W2 (c : Dev nD) : Valuation τ sig (Elt F) :=
  Function.update (W1 m c) main_v1 ((dat1 (V1 m) c).arrAt 3 cfg1.N)
theorem W2_v1 (c : Dev nD) : W2 m c (Proc.devRef .tc main_v1) = (dat1 (V1 m) c).arrAt 3 cfg1.N :=
  Function.update_self ..
theorem W2_of_ne (c : Dev nD) (b : Ref sig .tc) (hb : b ≠ main_v1) :
    W2 m c (Proc.devRef .tc b) = W1 m c (Proc.devRef .tc b) :=
  Function.update_of_ne (StableHlo.devRef_ne_of_ne hb) ..
abbrev V2 : (c : Dev nD) → (b : Ref sig .tc) → Buf (Elt F) ((c : Thread nD τ).loc b) := fun c b => W2 m c b

/-- After the output projection. -/
def W3 (c : Dev nD) : Valuation τ sig (Elt F) :=
  Pipeline.withArrays spec2 c (W2 m c) fun w => (dat2 (V2 m) c).arrAt w cfg2.N
theorem W3_arr (c : Dev nD) (w : Fin cfg2.W) :
    W3 m c (Proc.devRef .tc (Pipeline.arrRef spec2 w)) = (dat2 (V2 m) c).arrAt w cfg2.N := by
  unfold W3; exact Pipeline.withArrays_arr spec2 launch2.win.arr_inj c _ _ w
theorem W3_of_ne (c : Dev nD) (b : Ref sig .tc) (hb : ∀ w, Pipeline.arrRef spec2 w ≠ b) :
    W3 m c (Proc.devRef .tc b) = W2 m c (Proc.devRef .tc b) := by
  unfold W3; exact Pipeline.withArrays_of_ne spec2 c _ _ b hb
abbrev V3 : (c : Dev nD) → (b : Ref sig .tc) → Buf (Elt F) ((c : Thread nD τ).loc b) := fun c b => W3 m c b
theorem hF2 (c : Dev nD) (w : Fin cfg2.W) : (dat2 (V2 m) c).arrAt w cfg2.N = V3 m c (Pipeline.arrRef spec2 w) :=
  (W3_arr m c w).symm
theorem hrest2 (c : Dev nD) : ∀ b, b ∉ Finset.univ.image (Pipeline.arrRef spec2) → V3 m c b = V2 m c b :=
  fun b hb => W3_of_ne m c b fun w e => hb (Finset.mem_image.mpr ⟨w, Finset.mem_univ _, e⟩)

/-! ### The arguments end as launched, the result at the third call's final contents -/

theorem W3_main_arg0 (c : Dev nD) : W3 m c (Proc.devRef .tc main_arg0) = m ((c : Thread nD τ).loc main_arg0) :=
  calc W3 m c (Proc.devRef .tc main_arg0)
    _ = W2 m c (Proc.devRef .tc main_arg0) := W3_of_ne m c main_arg0 (by decide)
    _ = W1 m c (Proc.devRef .tc main_arg0) := W2_of_ne m c main_arg0 (by decide)
    _ = W0 m c (Proc.devRef .tc main_arg0) := (W1_arr m c 0).trans (((dat0 (V0 m) c).arrAt_in 0 rfl _).trans (A_eq0 (V0 m) c 0))
    _ = m ((c : Thread nD τ).loc main_arg0) := rfl
theorem W3_main_arg1 (c : Dev nD) : W3 m c (Proc.devRef .tc main_arg1) = m ((c : Thread nD τ).loc main_arg1) :=
  calc W3 m c (Proc.devRef .tc main_arg1)
    _ = W2 m c (Proc.devRef .tc main_arg1) := W3_of_ne m c main_arg1 (by decide)
    _ = W1 m c (Proc.devRef .tc main_arg1) := W2_of_ne m c main_arg1 (by decide)
    _ = W0 m c (Proc.devRef .tc main_arg1) := (W1_arr m c 1).trans (((dat0 (V0 m) c).arrAt_in 1 rfl _).trans (A_eq0 (V0 m) c 1))
    _ = m ((c : Thread nD τ).loc main_arg1) := rfl
theorem W3_main_arg2 (c : Dev nD) : W3 m c (Proc.devRef .tc main_arg2) = m ((c : Thread nD τ).loc main_arg2) :=
  calc W3 m c (Proc.devRef .tc main_arg2)
    _ = W2 m c (Proc.devRef .tc main_arg2) := (W3_arr m c 1).trans (((dat2 (V2 m) c).arrAt_in 1 rfl _).trans (A_eq2 (V2 m) c 1))
    _ = W1 m c (Proc.devRef .tc main_arg2) := W2_of_ne m c main_arg2 (by decide)
    _ = W0 m c (Proc.devRef .tc main_arg2) := W1_of_ne m c main_arg2 (by decide)
    _ = m ((c : Thread nD τ).loc main_arg2) := rfl
theorem W3_main_v2 (c : Dev nD) : W3 m c (Proc.devRef .tc main_v2) = (dat2 (V2 m) c).arrAt 2 cfg2.N :=
  W3_arr m c 2

/-! ## The proof data of the three calls, and what rides beside the buffers -/

/-- No call has a prefetched table. -/
abbrev adm : (p : Fin 3) → (pcfgs (F := F) p).Adm := fun p => (cfgs p).toPCfg_adm
/-- Each call's proof data at the contents it is entered from. -/
def pdats : (p : Fin 3) → (c : Dev nD) → Dat τ (Elt F) Unit ℕ (UR sig nD τ) ℕ (Pipeline.pin (pcfgs (F := F)) adm p) c
  | ⟨0, _⟩ => fun c => dat0 (V0 m) c
  | ⟨1, _⟩ => fun c => dat1 (V1 m) c
  | ⟨2, _⟩ => fun c => dat2 (V2 m) c
abbrev 𝒱₀ : Variants := Variants.none
abbrev L : GSem nD τ sig → Finset Unit := fun _ => ∅
abbrev lv : GSem nD τ sig → Unit → ℕ := fun _ _ => 0
/-- Beside the buffers: the generator register at some state, and the core owing nothing. -/
abbrev R (c : Dev nD) : sProp 𝕄 := iprop((∃ r, prngReg c r) ∗ ∃ W, owes (c : Thread nD τ) (0 : CellTallies nD τ sig Unit) W)
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W3 m c) ∗ ∃ r, prngReg c r)

/-! ## The calls as segments of the program -/

set_option backward.isDefEq.respectTransparency.types false in
/-- The projection: entered from the launch contents, left at `W1`. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V0 m) c).loose
  hwaits := Pipeline.hwaits_of_owed_zero _ _ _ _ L lv 0 fun _ _ => rfl
  pre c := iprop(StableHlo.held (c : Thread nD τ) (Pipeline.ucRefs τ sig) (W0 m c) ∗ R c)
  post c := iprop(StableHlo.held (c : Thread nD τ) (Pipeline.ucRefs τ sig) (W1 m c) ∗ R c)
  X c := iprop(∃ r, prngReg c r)
  Y c := iprop(∃ r, prngReg c r)
  Z c := Pipeline.unscopedRest (Ix := Unit) (Name := ℕ) (U := UR sig nD τ) (Lvl := ℕ) spec0 c (V0 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V0 m c) (V1 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- Off the context array, the contents after the attention call are those before it. -/
theorem hrest1 (c : Dev nD) (b : Ref sig .tc) (hb : b ∉ Finset.univ.image (Pipeline.arrRef spec1)) : V2 m c b = V1 m c b :=
  W2_of_ne m c b fun e => hb (Finset.mem_image.mpr ⟨3, Finset.mem_univ _, e.symm⟩)

set_option backward.isDefEq.respectTransparency.types false in
/-- The attention call: entered from `W1`, left at `W2`.  Its three readers share the qkv array: the array's ownership
    is divided among them on entry and reassembled on exit. -/
def reg1 : Pipeline.RegionSeg (pcfgs (F := F)) adm (pdats m) () defs₀ 𝒱₀ L lv 1 where
  win := winFacts₀1
  block_pos := block_pos1
  stage_whole := stage_whole1
  K := PEmpty
  osem k := k.elim
  ho := Pipeline.OwnSemFacts.none _
  hbody c := (body_obligation1 (V1 m) c).loose
  hwaits := Pipeline.hwaits_of_owed_zero _ _ _ _ L lv 1 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec1 c (V1 m c)
  hentry c := by
    rw [Pipeline.ownSems0_none]
    have hsplit : (unscopedBufs c (V1 m c) : sProp 𝕄)
        ⊢ iprop((pdats m 1 c).arrays ((pdats m 1 c).arrAt · 0) ∗ Pipeline.unscopedRest spec1 c (V1 m c)) := by
      rw [Pipeline.unscopedBufs_split₀ (Pipeline.pin (pcfgs (F := F)) adm) 1 winFacts₀1.arr_unscoped c (V1 m c)]
      exact sep_mono (split1 (V1 m) c) .rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin : iprop((pdats m 1 c).arrays ((pdats m 1 c).arrAt · cfg1.N) ∗ Pipeline.unscopedRest spec1 c (V1 m c))
        ⊢ (unscopedBufs c (V2 m c) : sProp 𝕄) := by
      rw [Pipeline.unscopedBufs_split₀ (Pipeline.pin (pcfgs (F := F)) adm) 1 winFacts₀1.arr_unscoped c (V2 m c)]
      refine sep_mono (join1 (V1 m) c (V2 m c) (W2_of_ne m c main_v0 (by decide)) (W2_v1 m c)) (Entails.of_eq ?_)
      unfold Pipeline.unscopedRest
      exact bigSep_congr fun b hb => by rw [hrest1 m c b (Finset.mem_sdiff.mp hb).2]
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- Of three resources keep the first and the last, the last first. -/
theorem keep_outer (A B C : sProp 𝕄) : iprop(A ∗ B ∗ C) ⊢ iprop(C ∗ A) := by
  iintro ⟨HA, -, HC⟩
  isplitl [HC]; · iexact HC
  iexact HA
/-- Two resources swapped, nothing between them. -/
theorem swap_emp (A C : sProp 𝕄) : iprop(C ∗ A) ⊢ iprop(A ∗ BI.emp ∗ C) := by
  iintro ⟨HC, HA⟩
  isplitl [HA]; · iexact HA
  isplitr; · iempintro
  iexact HC

set_option backward.isDefEq.respectTransparency.types false in
/-- The output projection: entered from `W2`, left at `W3`.  Its invariant carries the accumulator across the grid;
    it starts from, and gives back, the untouched scoped rest and the generator register. -/
def reg2 : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V2 m) c).loose
  hwaits := Pipeline.hwaits_of_owed_zero _ _ _ _ L lv 2 fun _ _ => rfl
  pre c := iprop(StableHlo.held (c : Thread nD τ) (Pipeline.ucRefs τ sig) (W2 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec2 c (V2 m c)
  hentry c := by
    rw [Pipeline.ownSems0_none]
    have hsplit := Pipeline.arrays_of_unscopedBufs (p := 2) (pcfgs (F := F)) adm (pdats m) launch2.win launch2.arr_whole c
      ((pdats m 2 c).share_full fun _ => rfl) (V2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = (dat2 (V2 m) c).Φ 0 from rfl]
    exact (keep_outer _ _ _).trans (hin2 (V2 m) c)
  hout c := by
    rw [Pipeline.ownSems0_none, show (pdats m 2 c).Φ (Fin.last _) = (dat2 (V2 m) c).Φ (Fin.last cfg2.N) from rfl]
    exact (hout2 (V2 m) c).trans (swap_emp _ _)
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (V2 m c) (V3 m c) ((pdats m 2 c).arrAt · cfg2.N) (hF2 m c) (hrest2 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as its three calls, and the launch -/

abbrev segs : List (Pipeline.Seg (pcfgs (F := F)) adm (pdats m) () defs₀ 𝒱₀ L lv) :=
  [ .region (reg0 m), .region (reg1 m), .region (reg2 m) ]
/-- The program is the run of the three calls in order. -/
theorem main_run (c : Dev nD) : main (F := F) c = Pipeline.Seg.run (segs m) := (main_chain c).trans (by chain_rfl)

set_option backward.isDefEq.respectTransparency.types false in
/-- From any memory with zero counters every fair execution of the program terminates, nothing faulting; the result
    array ends at what the output projection's write-backs leave (`Dat.arrAt` at the last point, from the contents the
    two earlier calls left), and the three argument arrays end as launched. -/
theorem run_main : θ_run defs (onTc (τ := τ) (main (F := F))) ⟨m, fun _ => 0, ρ⟩ (fun r => ∀ c : Dev nD,
      r.2.mem ((c.tc : Thread nD τ).loc main_v2) = (dat2 (V2 m) c).arrAt 2 cfg2.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m c b)
    (hfin := fun c s' => by
      iintro ⟨⟨Hh, -⟩, HSI⟩
      unfold StableHlo.held
      imodintro
      iapply (pointsTo_read_all (Pipeline.ucRefs τ sig) (fun b => (((c : Thread nD τ)).1, b)) (W3 m c) s')
      isplitl [Hh] <;> iassumption)
    (hQ := fun s h c =>
      ⟨(h c _ (mem_uc main_v2 (by decide))).trans (W3_main_v2 m c),
       (h c _ (mem_uc main_arg0 (by decide))).trans (W3_main_arg0 m c),
       (h c _ (mem_uc main_arg1 (by decide))).trans (W3_main_arg1 m c),
       (h c _ (mem_uc main_arg2 (by decide))).trans (W3_main_arg2 m c)⟩)

end Cert.KernelIdeal.Hand

end
-- ==== Proof.KI.R0Value.lean ====
import proofs.«105011_j8443905704227_2_alg».proof.Proof.KI.R0Body
import Idealize.ShloMosaic.Lib.Pipeline.Value
import Idealize.ShloMosaic.Lib.ValueIdx
import Idealize.ShloMosaic.PureOps.Ideal.Laws

/-!
# The value of the first call: queries, keys and values as sums over the model dimension

On the extended reals the first call fills its result, a 3 × 4 × 2048 × 768 array, with

  result[s, b, n, f] = ∑ k < 768, x[b, n, k] · w[768·s + f, k]

of the activations x and the weight matrix w found at entry. First the body's stored value at an index
(the changes of format are the identity and the product accumulates from zero), then what a grid point
writes back, then the whole array since the twelve blocks tile it.
-/

set_option maxRecDepth 16384

noncomputable section

namespace Cert.KernelIdeal.Hand

open Cert.KernelIdeal Cert.KernelIdeal.Gen
open Idealize.ShloMosaic Idealize.ShloMosaic.TcCoe Idealize.SL.Sem
open Idealize.ShloMosaic.Pipeline (Dat)
open Idealize.ShloMosaic.ValueIdx
open scoped BigOperators

/-! ## The specification -/

/-- Entry (s, b, n, f) of the projection: row n of batch b of the activations against row 768·s + f of the weights. -/
def qkvAt (a0 : S4x2048x768.Idx → EReal) (a1 : S2304x768.Idx → EReal) (s : Fin 3) (b : Fin 4) (n : Fin 2048) (f : Fin 768) : EReal :=
  ∑ k : Fin 768, a0 (ix3 b n k) * a1 (ix2 (⟨s.val * 768 + f.val, by have := s.isLt; have := f.isLt; omega⟩ : Fin 2304) k)

theorem qkvAt_def (a0 : S4x2048x768.Idx → EReal) (a1 : S2304x768.Idx → EReal) (s : Fin 3) (b : Fin 4) (n : Fin 2048) (f : Fin 768) :
    qkvAt a0 a1 s b n f = ∑ k : Fin 768, a0 (ix3 b n k)
      * a1 (ix2 (⟨s.val * 768 + f.val, by have := s.isLt; have := f.isLt; omega⟩ : Fin 2304) k) := rfl

/-- The whole projection as an array. -/
def qkvArr (a0 : S4x2048x768.Idx → EReal) (a1 : S2304x768.Idx → EReal) : S3x4x2048x768.Idx → EReal :=
  fun i => qkvAt a0 a1 (i 0) (i 1) (i 2) (i 3)

/-! ## The body's stored value at an index -/

local notation "dotQ" => dot_S2048x768_S768x768_S2048x768_1_1_0_0_n_n

theorem dotQ_lhs0 (j : S2048x768.Idx) (q : dot_S2048x768_S768x768_S2048x768_1_1_0_0_n_n.contr.Idx) :
    (dot_S2048x768_S768x768_S2048x768_1_1_0_0_n_n.lhsIdx j q 0).val = (j 0).val := by
  unfold DotDims.lhsIdx
  rw [dif_neg (show ¬(0 : Fin S2048x768.rank) ∈ dot_S2048x768_S768x768_S2048x768_1_1_0_0_n_n.lhsBatch by decide), dif_pos (show (0 : Fin S2048x768.rank) ∈ dot_S2048x768_S768x768_S2048x768_1_1_0_0_n_n.lhsNonContracting by decide)]
  rfl
theorem dotQ_lhs1 (j : S2048x768.Idx) (q : dot_S2048x768_S768x768_S2048x768_1_1_0_0_n_n.contr.Idx) :
    (dot_S2048x768_S768x768_S2048x768_1_1_0_0_n_n.lhsIdx j q 1).val = (q ⟨0, by decide⟩).val :=
  dot_S2048x768_S768x768_S2048x768_1_1_0_0_n_n.lhsIdx_val_of_single rfl j q
theorem dotQ_rhs0 (j : S2048x768.Idx) (q : dot_S2048x768_S768x768_S2048x768_1_1_0_0_n_n.contr.Idx) :
    (dot_S2048x768_S768x768_S2048x768_1_1_0_0_n_n.rhsIdx j q 0).val = (j 1).val := by
  unfold DotDims.rhsIdx
  rw [dif_neg (show ¬(0 : Fin S768x768.rank) ∈ dot_S2048x768_S768x768_S2048x768_1_1_0_0_n_n.rhsBatch by decide), dif_pos (show (0 : Fin S768x768.rank) ∈ dot_S2048x768_S768x768_S2048x768_1_1_0_0_n_n.rhsNonContracting by decide)]
  rfl
theorem dotQ_rhs1 (j : S2048x768.Idx) (q : dot_S2048x768_S768x768_S2048x768_1_1_0_0_n_n.contr.Idx) :
    (dot_S2048x768_S768x768_S2048x768_1_1_0_0_n_n.rhsIdx j q 1).val = (q ⟨0, by decide⟩).val :=
  dot_S2048x768_S768x768_S2048x768_1_1_0_0_n_n.rhsIdx_val_of_single rfl j q

/-- The product into a zero accumulator at (n, f): the sum over the shared axis of row n of the left operand against
    row f of the right one. -/
theorem matmulQ_apply (l : FVec Ideal S2048x768 .bf16) (r : FVec Ideal S768x768 .bf16) (n : Fin 2048) (f : Fin 768) :
    matmul dot_S2048x768_S768x768_S2048x768_1_1_0_0_n_n none l r (constant (F := Ideal) S2048x768 .f32 0x00000000#32) (ix2 n f)
      = ∑ k : Fin 768, l (ix2 n k) * r (ix2 f k) := by
  show FloatOps.matmul (F := Ideal) dot_S2048x768_S768x768_S2048x768_1_1_0_0_n_n none l r (constant S2048x768 .f32 0x00000000#32) (ix2 n f) = _
  rw [Ideal.matmul_constant_zero_apply, ← Equiv.sum_comp (contrEquiv1 dot_S2048x768_S768x768_S2048x768_1_1_0_0_n_n 768 rfl rfl).symm]
  refine Finset.sum_congr rfl fun k _ => ?_
  have hk := contrEquiv1_symm_val dot_S2048x768_S768x768_S2048x768_1_1_0_0_n_n 768 rfl rfl k
  have el : dot_S2048x768_S768x768_S2048x768_1_1_0_0_n_n.lhsIdx (ix2 n f) ((contrEquiv1 dot_S2048x768_S768x768_S2048x768_1_1_0_0_n_n 768 rfl rfl).symm k) = ix2 n k := funext fun a => Fin.ext (by
    match a with
    | ⟨0, _⟩ => exact dotQ_lhs0 _ _
    | ⟨1, _⟩ => exact (dotQ_lhs1 _ _).trans hk)
  have er : dot_S2048x768_S768x768_S2048x768_1_1_0_0_n_n.rhsIdx (ix2 n f) ((contrEquiv1 dot_S2048x768_S768x768_S2048x768_1_1_0_0_n_n 768 rfl rfl).symm k) = ix2 f k := funext fun a => Fin.ext (by
    match a with
    | ⟨0, _⟩ => exact dotQ_rhs0 _ _
    | ⟨1, _⟩ => exact (dotQ_rhs1 _ _).trans hk)
  rw [el, er]

/-- The stored value at (0, 0, n, f): row n of the activations block against row f of the loaded weight rows. -/
theorem pay_apply (x0 : Vec Ideal S1x2048x768 .f32) (x6 : Vec Ideal S768x768 .f32) (u0 u1 : Fin 1) (n : Fin 2048) (f : Fin 768) :
    k0_pay1 (F := Ideal) x0 x6 (ix4 u0 u1 n f) = ∑ k : Fin 768, x0 (ix3 (0 : Fin 1) n k) * x6 (ix2 f k) := by
  unfold k0_pay1
  rw [shapeCast_apply _ shapeCasts_S2048x768_S1x1x2048x768 (ix4 u0 u1 n f) (ix2 n f)
    (by rw [Shape.rowMajor_val_two, Shape.rowMajor_val_four]; have h0 : u0.val = 0 := by omega
        have h1 : u1.val = 0 := by omega
        show n.val * 768 + f.val = ((u0.val * 1 + u1.val) * 2048 + n.val) * 768 + f.val; rw [h0, h1]; omega)]
  rw [truncf_apply, matmulQ_apply]
  refine Finset.sum_congr rfl fun k _ => ?_
  rw [truncf_apply, truncf_apply]
  rw [shapeCast_apply x0 shapeCasts_S1x2048x768_S2048x768 (ix2 n k) (ix3 (0 : Fin 1) n k)
    (by rw [Shape.rowMajor_val_two, Shape.rowMajor_val_three]; show ((0 : Fin 1).val * 2048 + n.val) * 768 + k.val = n.val * 768 + k.val; simp)]

/-! ## One grid point -/

/-- At a point whose weight rows start at row 768·s, over an activations block that is batch b of a0 and a weights
    buffer that is a1, the stored value at (·, ·, n, f) is entry (s, b, n, f) of the projection. -/
theorem point_eq (a0 : S4x2048x768.Idx → EReal) (a1 : S2304x768.Idx → EReal)
    (x0 : Vec Ideal S1x2048x768 .f32) (x1 : Vec Ideal S2304x768 .f32) (i : grid0.Coords) (s : Fin 3) (b : Fin 4)
    (h0 : ∀ (n : Fin 2048) (k : Fin 768), x0 (ix3 (0 : Fin 1) n k) = a0 (ix3 b n k))
    (h1 : ∀ y, x1 y = a1 y)
    (hoff0 : k0_off1 i (0 : Fin 2) = 768 * s.val) (hoff1 : k0_off1 i (1 : Fin 2) = 0)
    (u0 u1 : Fin 1) (n : Fin 2048) (f : Fin 768) :
    k0_pay1 (F := Ideal) x0 (View.ld x1 (r0_w i)) (ix4 u0 u1 n f) = qkvAt a0 a1 s b n f := by
  rw [pay_apply]
  unfold qkvAt
  refine Finset.sum_congr rfl fun k _ => ?_
  rw [h0]
  congr 1
  show x1 ((r0_w i).idx (ix2 f k)) = _
  rw [h1]
  congr 1
  funext a; apply Fin.ext
  match a with
  | ⟨0, _⟩ => show k0_off1 i (0 : Fin 2) + 1 * f.val = s.val * 768 + f.val; rw [hoff0]; omega
  | ⟨1, _⟩ => show k0_off1 i (1 : Fin 2) + 1 * k.val = k.val; rw [hoff1]; omega

/-- The same at any index of the result block. -/
theorem point_eq_idx (a0 : S4x2048x768.Idx → EReal) (a1 : S2304x768.Idx → EReal)
    (x0 : Vec Ideal S1x2048x768 .f32) (x1 : Vec Ideal S2304x768 .f32) (i : grid0.Coords) (s : Fin 3) (b : Fin 4)
    (h0 : ∀ (n : Fin 2048) (k : Fin 768), x0 (ix3 (0 : Fin 1) n k) = a0 (ix3 b n k))
    (h1 : ∀ y, x1 y = a1 y)
    (hoff0 : k0_off1 i (0 : Fin 2) = 768 * s.val) (hoff1 : k0_off1 i (1 : Fin 2) = 0)
    (j : S1x1x2048x768.Idx) :
    k0_pay1 (F := Ideal) x0 (View.ld x1 (r0_w i)) j = qkvAt a0 a1 s b (j 2) (j 3) := by
  obtain ⟨u0, u1, n, f, rfl⟩ : ∃ (u0 u1 : Fin 1) (n : Fin 2048) (f : Fin 768), j = ix4 u0 u1 n f :=
    ⟨j 0, j 1, j 2, j 3, eq_ix4 j⟩
  exact point_eq a0 a1 x0 x1 i s b h0 h1 hoff0 hoff1 u0 u1 n f

section Array

variable (V : (c : Dev nD) → (b : Ref sig .tc) → Buf (Elt Ideal) ((c : Thread nD τ).loc b))

theorem hz3 : (![0, 0, 0] : Fin 3 → Nat) = fun _ => 0 := funext fun a => by fin_cases a <;> rfl
theorem hz4 : (![0, 0, 0, 0] : Fin 4 → Nat) = fun _ => 0 := funext fun a => by fin_cases a <;> rfl

/-- The block indices over the grid: at the point (b, s) the activations' block is batch b, the weights' block is the
    whole matrix, the result's block is (s, b), and the weight rows read start at row 768·s. -/
theorem idx_facts0 : ∀ t : Fin cfg0.N,
    win0_0.index t (0 : Fin 3) = win0_2.index t (1 : Fin 4) ∧ win0_0.index t (1 : Fin 3) = 0 ∧ win0_0.index t (2 : Fin 3) = 0
    ∧ win0_1.index t (0 : Fin 2) = 0 ∧ win0_1.index t (1 : Fin 2) = 0
    ∧ win0_2.index t (2 : Fin 4) = 0 ∧ win0_2.index t (3 : Fin 4) = 0
    ∧ k0_off1 (grid0.coords t) (0 : Fin 2) = 768 * win0_2.index t (0 : Fin 4) ∧ k0_off1 (grid0.coords t) (1 : Fin 2) = 0
    ∧ win0_2.index t (0 : Fin 4) < 3 ∧ win0_2.index t (1 : Fin 4) < 4 :=
  (by decide +kernel : ∀ t : Fin grid0.N, _)

/-- Every block (s, b) of the result is some point's. -/
theorem idx_onto0 : ∀ (s : Fin 3) (b : Fin 4), ∃ t : Fin cfg0.N, win0_2.index t = ![s.val, b.val, 0, 0] :=
  (by decide +kernel : ∀ (s : Fin 3) (b : Fin 4), ∃ t : Fin grid0.N, win0_2.index t = ![s.val, b.val, 0, 0])

/-- What the point t writes back is block t of the projection of the entry arrays. -/
theorem flushed0_2_eq (c : Dev nD) (t : Fin cfg0.N) :
    (dat0 (F := Ideal) V c).flushed 2 t
      = ((cfg0.win 2).blk t).view.read (Elt Ideal) (qkvArr (V c main_arg0) (V c main_arg1)) := by
  show (cfg0.win 2).cut (grid0.coords t) ((dat0 V c).after 2 t) = _
  rw [after0_2]
  unfold out0_2
  rw [View.canon_unit_zero hz4]
  simp only [View.ld_unit_zero (S := S1x2048x768) hz3]
  obtain ⟨e0, e1, e2, e3, e4, e5, e6, e7, e8, e9, e10⟩ := idx_facts0 t
  funext j
  show k0_pay1 (F := Ideal) (iblk0 V c 0 t) (View.ld (iblk0 V c 1 t) (r0_w (grid0.coords t))) j
    = qkvArr (V c main_arg0) (V c main_arg1) (((cfg0.win 2).blk t).view.emb j)
  have h0 : ∀ (n : Fin 2048) (k : Fin 768), iblk0 V c 0 t (ix3 (0 : Fin 1) n k)
      = V c main_arg0 (ix3 (⟨win0_2.index t (1 : Fin 4), e10⟩ : Fin 4) n k) := by
    intro n k
    show V c main_arg0 (((cfg0.win 0).blk t).view.emb (ix3 (0 : Fin 1) n k)) = _
    congr 1
    funext a; apply Fin.ext
    match a with
    | ⟨0, _⟩ => show win0_0.index t (0 : Fin 3) * 1 + 1 * 0 = win0_2.index t (1 : Fin 4); omega
    | ⟨1, _⟩ => show win0_0.index t (1 : Fin 3) * 2048 + 1 * n.val = n.val; omega
    | ⟨2, _⟩ => show win0_0.index t (2 : Fin 3) * 768 + 1 * k.val = k.val; omega
  have h1 : ∀ y : S2304x768.Idx, iblk0 V c 1 t y = V c main_arg1 y := by
    intro y
    show V c main_arg1 (((cfg0.win 1).blk t).view.emb y) = _
    congr 1
    funext a; apply Fin.ext
    match a with
    | ⟨0, _⟩ => show win0_1.index t (0 : Fin 2) * 2304 + 1 * (y 0).val = (y 0).val; omega
    | ⟨1, _⟩ => show win0_1.index t (1 : Fin 2) * 768 + 1 * (y 1).val = (y 1).val; omega
  refine (point_eq_idx (V c main_arg0) (V c main_arg1) (iblk0 V c 0 t) (iblk0 V c 1 t) (grid0.coords t)
    ⟨win0_2.index t (0 : Fin 4), e9⟩ ⟨win0_2.index t (1 : Fin 4), e10⟩ h0 h1 e7 e8 j).trans ?_
  unfold qkvArr
  have hj0 : (j 0).val < 1 := (j 0).isLt
  have hj1 : (j 1).val < 1 := (j 1).isLt
  congr 1
  · apply Fin.ext
    show win0_2.index t (0 : Fin 4) = win0_2.index t (0 : Fin 4) * 1 + 1 * (j 0).val; omega
  · apply Fin.ext
    show win0_2.index t (1 : Fin 4) = win0_2.index t (1 : Fin 4) * 1 + 1 * (j 1).val; omega
  · apply Fin.ext
    show (j 2).val = win0_2.index t (2 : Fin 4) * 2048 + 1 * (j 2).val; omega
  · apply Fin.ext
    show (j 3).val = win0_2.index t (3 : Fin 4) * 768 + 1 * (j 3).val; omega

/-- An index of the result is in point t's block iff each coordinate is in the block's range on its axis. -/
theorem mem_blk0_2 (t : Fin cfg0.N) (i : S3x4x2048x768.Idx) :
    i ∈ ((cfg0.win 2).blk t).view.set ↔ ∀ a : Fin 4, win0_2.index t a * S1x1x2048x768.size a ≤ (i a).val
      ∧ (i a).val < win0_2.index t a * S1x1x2048x768.size a + S1x1x2048x768.size a := by
  show i ∈ ((View.whole main_v0).slice (win0_2.rect t)).set ↔ _
  rw [View.set_slice_whole, Rect.mem_set_unit]
  exact Iff.rfl

/-- The twelve blocks fill the result: the index (s, b, n, f) is in the block of the point with block index (s, b). -/
theorem cover0_2_arr (i : S3x4x2048x768.Idx) :
    ∃ t : Fin cfg0.N, (cfg0.win 2).flush t = true ∧ i ∈ ((cfg0.win 2).blk t).view.set := by
  have hi0 : (i 0).val < 3 := (i 0).isLt
  have hi1 : (i 1).val < 4 := (i 1).isLt
  have hi2 : (i 2).val < 2048 := (i 2).isLt
  have hi3 : (i 3).val < 768 := (i 3).isLt
  obtain ⟨t, ht⟩ := idx_onto0 ⟨(i 0).val, hi0⟩ ⟨(i 1).val, hi1⟩
  have q0 : win0_2.index t (0 : Fin 4) = (i 0).val := congrFun ht 0
  have q1 : win0_2.index t (1 : Fin 4) = (i 1).val := congrFun ht 1
  have q2 : win0_2.index t (2 : Fin 4) = 0 := congrFun ht 2
  have q3 : win0_2.index t (3 : Fin 4) = 0 := congrFun ht 3
  refine ⟨t, flush0_2 t, ?_⟩
  rw [mem_blk0_2]
  intro a
  match a with
  | ⟨0, _⟩ => show win0_2.index t (0 : Fin 4) * 1 ≤ (i 0).val ∧ (i 0).val < win0_2.index t (0 : Fin 4) * 1 + 1; omega
  | ⟨1, _⟩ => show win0_2.index t (1 : Fin 4) * 1 ≤ (i 1).val ∧ (i 1).val < win0_2.index t (1 : Fin 4) * 1 + 1; omega
  | ⟨2, _⟩ => show win0_2.index t (2 : Fin 4) * 2048 ≤ (i 2).val ∧ (i 2).val < win0_2.index t (2 : Fin 4) * 2048 + 2048; omega
  | ⟨3, _⟩ => show win0_2.index t (3 : Fin 4) * 768 ≤ (i 3).val ∧ (i 3).val < win0_2.index t (3 : Fin 4) * 768 + 768; omega

/-- The result array after the call is the projection of the entry arrays. -/
theorem arr0_2_eq (c : Dev nD) :
    (dat0 (F := Ideal) V c).arrAt 2 cfg0.N = qkvArr (V c main_arg0) (V c main_arg1) :=
  (dat0 (F := Ideal) V c).arrAt_eq_of_cover 2 (qkvArr (V c main_arg0) (V c main_arg1))
    (fun t _ => flushed0_2_eq V c t) cover0_2_arr

/-- Index by index: entry (s, b, n, f) of the result is ∑ k, x[b, n, k] · w[768·s + f, k] (the sum is qkvAt's). -/
theorem arr0_2_apply (c : Dev nD) (s : Fin 3) (b : Fin 4) (n : Fin 2048) (f : Fin 768) :
    (dat0 (F := Ideal) V c).arrAt 2 cfg0.N (ix4 s b n f) = qkvAt (V c main_arg0) (V c main_arg1) s b n f := by
  rw [arr0_2_eq]
  rfl

end Array

end Cert.KernelIdeal.Hand

end
-- ==== Proof.KI.R1BlocksB.lean ====
import proofs.«105011_j8443905704227_2_alg».proof.Proof.KI.R1Body
import Idealize.ShloMosaic.Lib.Pipeline.Value
import Idealize.ShloMosaic.Lib.ValueIdx
import Idealize.ShloMosaic.PureOps.Ideal.Laws

/-!
# The attention call: from the 48 blocks to the context array

Grid point (b, h) of the attention call holds the slabs qkv[0, b], qkv[1, b], qkv[2, b] of the projected array
and writes block (b, h) of the context array ctx : 4 × 12 × 2048 × 64. The geometry is proved once for an
ARBITRARY per-point function "G" of the point's coordinates and the three slabs: if the output's buffer after
point t holds G of the point's slabs, then, since the 48 blocks tile the array,

  ctx[b, h, n, d] = G (b, h) qkv[0, b] qkv[1, b] qkv[2, b] at (0, 0, n, d).

It is then read with G the body's stored value.
-/

set_option maxRecDepth 16384

noncomputable section

namespace Cert.KernelIdeal.HandB

open Cert.KernelIdeal Cert.KernelIdeal.Gen Cert.KernelIdeal.Hand
open Idealize.ShloMosaic Idealize.ShloMosaic.TcCoe Idealize.SL.Sem
open Idealize.ShloMosaic.Pipeline (Dat)
open Idealize.ShloMosaic.ValueIdx
open scoped BigOperators

/-- Slab (s, b) of the projected array, as a block with two leading unit axes. -/
def slab (QKV : S3x4x2048x768.Idx → EReal) (s : Fin 3) (b : Fin 4) : S1x1x2048x768.Idx → EReal :=
  fun y => QKV (ix4 s b (y 2) (y 3))

/-- The grid point of batch b and head h. -/
def pt1 (b : Fin 4) (h : Fin 12) : grid1.Coords := fun a => match a with | ⟨0, _⟩ => b | ⟨1, _⟩ => h

section Geometry

variable (G : grid1.Coords → Vec Ideal S1x1x2048x768 .bf16 → Vec Ideal S1x1x2048x768 .bf16 → Vec Ideal S1x1x2048x768 .bf16 → FVec Ideal S1x1x2048x64 .f32)

/-- The output's buffer after a point whose stored value is G of its slabs. -/
def outG (i : grid1.Coords) (xq xk xv : Vec Ideal S1x1x2048x768 .bf16) : Vec Ideal S1x1x2048x64 .f32 :=
  View.canon [⟨rCtx, G i xq xk xv⟩]

/-- Entry (b, h, n, d) of the array the blocks give. -/
def atG (QKV : S3x4x2048x768.Idx → EReal) (b : Fin 4) (h : Fin 12) (n : Fin 2048) (d : Fin 64) : EReal :=
  G (pt1 b h) (slab QKV 0 b) (slab QKV 1 b) (slab QKV 2 b) (ix4 (0 : Fin 1) (0 : Fin 1) n d)

/-- The array the blocks give. -/
def arrG (QKV : S3x4x2048x768.Idx → EReal) : S4x12x2048x64.Idx → EReal :=
  fun i => atG G QKV (i 0) (i 1) (i 2) (i 3)

theorem atG_of_block (QKV : S3x4x2048x768.Idx → EReal) (b : Fin 4) (h : Fin 12) (j : S1x1x2048x64.Idx) :
    G (pt1 b h) (slab QKV 0 b) (slab QKV 1 b) (slab QKV 2 b) j = atG G QKV b h (j 2) (j 3) := by
  have hj : j = ix4 (0 : Fin 1) (0 : Fin 1) (j 2) (j 3) := by
    funext a; apply Fin.ext
    have hj0 : (j 0).val < 1 := (j 0).isLt
    have hj1 : (j 1).val < 1 := (j 1).isLt
    match a with
    | ⟨0, _⟩ => show (j 0).val = 0; omega
    | ⟨1, _⟩ => show (j 1).val = 0; omega
    | ⟨2, _⟩ => rfl
    | ⟨3, _⟩ => rfl
  unfold atG
  exact congrArg (G (pt1 b h) (slab QKV 0 b) (slab QKV 1 b) (slab QKV 2 b)) hj

variable (V : (c : Dev nD) → (b : Ref sig .tc) → Buf (Elt Ideal) ((c : Thread nD τ).loc b))

theorem zero_offsets : (![0, 0, 0, 0] : Fin 4 → Nat) = fun _ => 0 := funext fun a => by fin_cases a <;> rfl

/-- The input windows' block indices over the grid: at the point (b, h) they are (0, b, 0, 0), (1, b, 0, 0) and
    (2, b, 0, 0), where (b, h, 0, 0) is the output's. -/
theorem idx_in : ∀ t : Fin cfg1.N,
    win1_0.index t (0 : Fin 4) = 0 ∧ win1_0.index t (1 : Fin 4) = win1_3.index t (0 : Fin 4)
    ∧ win1_0.index t (2 : Fin 4) = 0 ∧ win1_0.index t (3 : Fin 4) = 0
    ∧ win1_1.index t (0 : Fin 4) = 1 ∧ win1_1.index t (1 : Fin 4) = win1_3.index t (0 : Fin 4)
    ∧ win1_1.index t (2 : Fin 4) = 0 ∧ win1_1.index t (3 : Fin 4) = 0
    ∧ win1_2.index t (0 : Fin 4) = 2 ∧ win1_2.index t (1 : Fin 4) = win1_3.index t (0 : Fin 4)
    ∧ win1_2.index t (2 : Fin 4) = 0 ∧ win1_2.index t (3 : Fin 4) = 0 :=
  (by decide +kernel : ∀ t : Fin grid1.N, _)

/-- The output window's block index at the point t = 12 b + h is (b, h, 0, 0), and (b, h) are the point's coordinates. -/
theorem idx_out : ∀ t : Fin cfg1.N,
    win1_3.index t (2 : Fin 4) = 0 ∧ win1_3.index t (3 : Fin 4) = 0
    ∧ win1_3.index t (0 : Fin 4) < 4 ∧ win1_3.index t (1 : Fin 4) < 12
    ∧ ((grid1.coords t) (0 : Fin 2)).val = win1_3.index t (0 : Fin 4)
    ∧ ((grid1.coords t) (1 : Fin 2)).val = win1_3.index t (1 : Fin 4)
    ∧ win1_3.index t (0 : Fin 4) = t.val / 12 ∧ win1_3.index t (1 : Fin 4) = t.val % 12 :=
  (by decide +kernel : ∀ t : Fin grid1.N, _)

/-- What the point t writes back is block t of the array the blocks give. -/
theorem flushedG (c : Dev nD) (dat : Dat τ (Elt Ideal) Unit ℕ (UR sig nD τ) ℕ cfg1 c)
    (hafter : ∀ t, dat.after 3 t = outG G (grid1.coords t) (iblk1 V c 0 t) (iblk1 V c 1 t) (iblk1 V c 2 t))
    (t : Fin cfg1.N) :
    dat.flushed 3 t = ((cfg1.win 3).blk t).view.read (Elt Ideal) (arrG G (V c main_v0)) := by
  show (cfg1.win 3).cut (grid1.coords t) (dat.after 3 t) = _
  rw [hafter]
  unfold outG
  rw [View.canon_unit_zero zero_offsets]
  obtain ⟨a0, a1, a2, a3, b0, b1, b2, b3, c0, c1, c2, c3⟩ := idx_in t
  obtain ⟨o2, o3, ob, oh, g0, g1, -, -⟩ := idx_out t
  have h0 : iblk1 V c 0 t = slab (V c main_v0) 0 (⟨win1_3.index t (0 : Fin 4), ob⟩ : Fin 4) := by
    funext y
    show V c main_v0 (((cfg1.win 0).blk t).view.emb y) = _
    unfold slab
    congr 1
    funext a; apply Fin.ext
    have hy0 : (y 0).val < 1 := (y 0).isLt
    have hy1 : (y 1).val < 1 := (y 1).isLt
    match a with
    | ⟨0, _⟩ => show win1_0.index t (0 : Fin 4) * 1 + 1 * (y 0).val = 0; omega
    | ⟨1, _⟩ => show win1_0.index t (1 : Fin 4) * 1 + 1 * (y 1).val = win1_3.index t (0 : Fin 4); omega
    | ⟨2, _⟩ => show win1_0.index t (2 : Fin 4) * 2048 + 1 * (y 2).val = (y 2).val; omega
    | ⟨3, _⟩ => show win1_0.index t (3 : Fin 4) * 768 + 1 * (y 3).val = (y 3).val; omega
  have h1 : iblk1 V c 1 t = slab (V c main_v0) 1 (⟨win1_3.index t (0 : Fin 4), ob⟩ : Fin 4) := by
    funext y
    show V c main_v0 (((cfg1.win 1).blk t).view.emb y) = _
    unfold slab
    congr 1
    funext a; apply Fin.ext
    have hy0 : (y 0).val < 1 := (y 0).isLt
    have hy1 : (y 1).val < 1 := (y 1).isLt
    match a with
    | ⟨0, _⟩ => show win1_1.index t (0 : Fin 4) * 1 + 1 * (y 0).val = 1; omega
    | ⟨1, _⟩ => show win1_1.index t (1 : Fin 4) * 1 + 1 * (y 1).val = win1_3.index t (0 : Fin 4); omega
    | ⟨2, _⟩ => show win1_1.index t (2 : Fin 4) * 2048 + 1 * (y 2).val = (y 2).val; omega
    | ⟨3, _⟩ => show win1_1.index t (3 : Fin 4) * 768 + 1 * (y 3).val = (y 3).val; omega
  have h2 : iblk1 V c 2 t = slab (V c main_v0) 2 (⟨win1_3.index t (0 : Fin 4), ob⟩ : Fin 4) := by
    funext y
    show V c main_v0 (((cfg1.win 2).blk t).view.emb y) = _
    unfold slab
    congr 1
    funext a; apply Fin.ext
    have hy0 : (y 0).val < 1 := (y 0).isLt
    have hy1 : (y 1).val < 1 := (y 1).isLt
    match a with
    | ⟨0, _⟩ => show win1_2.index t (0 : Fin 4) * 1 + 1 * (y 0).val = 2; omega
    | ⟨1, _⟩ => show win1_2.index t (1 : Fin 4) * 1 + 1 * (y 1).val = win1_3.index t (0 : Fin 4); omega
    | ⟨2, _⟩ => show win1_2.index t (2 : Fin 4) * 2048 + 1 * (y 2).val = (y 2).val; omega
    | ⟨3, _⟩ => show win1_2.index t (3 : Fin 4) * 768 + 1 * (y 3).val = (y 3).val; omega
  have hpt : grid1.coords t = pt1 (⟨win1_3.index t (0 : Fin 4), ob⟩ : Fin 4) (⟨win1_3.index t (1 : Fin 4), oh⟩ : Fin 12) := by
    funext a; apply Fin.ext
    match a with
    | ⟨0, _⟩ => exact g0
    | ⟨1, _⟩ => exact g1
  rw [h0, h1, h2, hpt]
  funext j
  have hj0 : (j 0).val < 1 := (j 0).isLt
  have hj1 : (j 1).val < 1 := (j 1).isLt
  have e0 : (⟨win1_3.index t (0 : Fin 4), ob⟩ : Fin 4) = ((cfg1.win 3).blk t).view.emb j 0 :=
    Fin.ext (show win1_3.index t (0 : Fin 4) = win1_3.index t (0 : Fin 4) * 1 + 1 * (j 0).val by omega)
  have e1 : (⟨win1_3.index t (1 : Fin 4), oh⟩ : Fin 12) = ((cfg1.win 3).blk t).view.emb j 1 :=
    Fin.ext (show win1_3.index t (1 : Fin 4) = win1_3.index t (1 : Fin 4) * 1 + 1 * (j 1).val by omega)
  have e2 : (j 2 : Fin 2048) = ((cfg1.win 3).blk t).view.emb j 2 :=
    Fin.ext (show (j 2).val = win1_3.index t (2 : Fin 4) * 2048 + 1 * (j 2).val by omega)
  have e3 : (j 3 : Fin 64) = ((cfg1.win 3).blk t).view.emb j 3 :=
    Fin.ext (show (j 3).val = win1_3.index t (3 : Fin 4) * 64 + 1 * (j 3).val by omega)
  exact (atG_of_block G (V c main_v0) _ _ j).trans
    (congr (congr (congr (congrArg (atG G (V c main_v0)) e0) e1) e2) e3)

/-- An index of the context array is in point t's block iff each coordinate is in the block's range on its axis. -/
theorem mem_blk (t : Fin cfg1.N) (i : S4x12x2048x64.Idx) :
    i ∈ ((cfg1.win 3).blk t).view.set ↔ ∀ a : Fin 4, win1_3.index t a * S1x1x2048x64.size a ≤ (i a).val
      ∧ (i a).val < win1_3.index t a * S1x1x2048x64.size a + S1x1x2048x64.size a := by
  show i ∈ ((View.whole main_v1).slice (win1_3.rect t)).set ↔ _
  rw [View.set_slice_whole, Rect.mem_set_unit]
  exact Iff.rfl

/-- The 48 blocks fill the context array: (b, h, n, d) is in the block of the point 12 b + h. -/
theorem cover_arr (i : S4x12x2048x64.Idx) :
    ∃ t : Fin cfg1.N, (cfg1.win 3).flush t = true ∧ i ∈ ((cfg1.win 3).blk t).view.set := by
  have hi0 : (i 0).val < 4 := (i 0).isLt
  have hi1 : (i 1).val < 12 := (i 1).isLt
  have hi2 : (i 2).val < 2048 := (i 2).isLt
  have hi3 : (i 3).val < 64 := (i 3).isLt
  have hN : (i 0).val * 12 + (i 1).val < grid1.N := by rw [N_1]; omega
  obtain ⟨q2, q3, -, -, -, -, d0, d1⟩ := idx_out ⟨(i 0).val * 12 + (i 1).val, hN⟩
  have q0 : win1_3.index ⟨(i 0).val * 12 + (i 1).val, hN⟩ (0 : Fin 4) = (i 0).val := by
    rw [d0]; show ((i 0).val * 12 + (i 1).val) / 12 = (i 0).val; omega
  have q1 : win1_3.index ⟨(i 0).val * 12 + (i 1).val, hN⟩ (1 : Fin 4) = (i 1).val := by
    rw [d1]; show ((i 0).val * 12 + (i 1).val) % 12 = (i 1).val; omega
  generalize (⟨(i 0).val * 12 + (i 1).val, hN⟩ : Fin cfg1.N) = t at q0 q1 q2 q3
  refine ⟨t, flush1_3 t, ?_⟩
  rw [mem_blk]
  intro a
  match a with
  | ⟨0, _⟩ => show win1_3.index t (0 : Fin 4) * 1 ≤ (i 0).val ∧ (i 0).val < win1_3.index t (0 : Fin 4) * 1 + 1; omega
  | ⟨1, _⟩ => show win1_3.index t (1 : Fin 4) * 1 ≤ (i 1).val ∧ (i 1).val < win1_3.index t (1 : Fin 4) * 1 + 1; omega
  | ⟨2, _⟩ => show win1_3.index t (2 : Fin 4) * 2048 ≤ (i 2).val ∧ (i 2).val < win1_3.index t (2 : Fin 4) * 2048 + 2048; omega
  | ⟨3, _⟩ => show win1_3.index t (3 : Fin 4) * 64 ≤ (i 3).val ∧ (i 3).val < win1_3.index t (3 : Fin 4) * 64 + 64; omega

/-- The array after the call, for proof data whose output buffer holds G of the point's slabs. -/
theorem arrAtG (c : Dev nD) (dat : Dat τ (Elt Ideal) Unit ℕ (UR sig nD τ) ℕ cfg1 c)
    (hafter : ∀ t, dat.after 3 t = outG G (grid1.coords t) (iblk1 V c 0 t) (iblk1 V c 1 t) (iblk1 V c 2 t)) :
    dat.arrAt 3 cfg1.N = arrG G (V c main_v0) :=
  dat.arrAt_eq_of_cover 3 (arrG G (V c main_v0)) (fun t _ => flushedG G V c dat hafter t) cover_arr

end Geometry

/-! ## With the body's stored value -/

section Array

variable (V : (c : Dev nD) → (b : Ref sig .tc) → Buf (Elt Ideal) ((c : Thread nD τ).loc b))

/-- Entry (b, h, n, d) of the context array: the point (b, h)'s stored value of batch b's three slabs, at (0, 0, n, d). -/
def ctxAt (QKV : S3x4x2048x768.Idx → EReal) (b : Fin 4) (h : Fin 12) (n : Fin 2048) (d : Fin 64) : EReal :=
  atG (ctxBlock (F := Ideal)) QKV b h n d

/-- The whole context array. -/
def ctxArrOf (QKV : S3x4x2048x768.Idx → EReal) : S4x12x2048x64.Idx → EReal :=
  arrG (ctxBlock (F := Ideal)) QKV

theorem after_eq (c : Dev nD) (t : Fin cfg1.N) :
    (dat1 (F := Ideal) V c).after 3 t
      = outG (ctxBlock (F := Ideal)) (grid1.coords t) (iblk1 V c 0 t) (iblk1 V c 1 t) (iblk1 V c 2 t) :=
  after1_3 V c t

/-- The context array after the call, as a function of the projected array found at entry. -/
theorem arr1_3_eq (c : Dev nD) : (dat1 (F := Ideal) V c).arrAt 3 cfg1.N = ctxArrOf (V c main_v0) :=
  arrAtG (ctxBlock (F := Ideal)) V c (dat1 (F := Ideal) V c) (after_eq V c)

/-- Index by index. -/
theorem arr1_3_apply (c : Dev nD) (b : Fin 4) (h : Fin 12) (n : Fin 2048) (d : Fin 64) :
    (dat1 (F := Ideal) V c).arrAt 3 cfg1.N (ix4 b h n d)
      = ctxBlock (F := Ideal) (pt1 b h) (slab (V c main_v0) 0 b) (slab (V c main_v0) 1 b) (slab (V c main_v0) 2 b)
          (ix4 (0 : Fin 1) (0 : Fin 1) n d) :=
  congrFun (arr1_3_eq V c) (ix4 b h n d)

end Array

end Cert.KernelIdeal.HandB

end
-- ==== Proof.KI.R2Value.lean ====
import proofs.«105011_j8443905704227_2_alg».proof.Proof.KI.R2Body
import Idealize.ShloMosaic.Lib.ValueIdx
import Idealize.ShloMosaic.PureOps.Ideal.Laws
import Idealize.ShloMosaic.Lib.Pipeline.FrameBody
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.ValueIdx
open scoped BigOperators

/-! # The output projection's value, at the ideal instance

What the third call leaves in its result array, element by element, over the extended reals: the sum over
the heads of the sum over the head's sixty-four columns of context times projection weight. -/

/-- The zero block the reset stores reads zero everywhere. -/
theorem k2_pay1_apply (j : S2048x768.Idx) : k2_pay1 (F := Ideal) j = 0 := by
  unfold k2_pay1
  rw [shapeCast_self]
  show Ideal.ofBits .f32 0x00000000#32 = 0
  exact Ideal.ofBits_zero_f32

/-- One head's step at an element: the accumulator's element plus the sum, over the head's sixty-four columns,
    of context times weight. -/
theorem step2_apply (i : grid2.Coords) (x0 : Vec Ideal S1x1x2048x64 .f32) (x1 : Vec Ideal S768x768 .f32)
    (xs : Vec Ideal S2048x768 .f32) (n : Fin 2048) (o : Fin 768) (hb : ∀ d : Fin 64, 64 * (i 1).val + d.val < 768) :
    step2 i x0 x1 xs (ix2 n o)
      = xs (ix2 n o) + ∑ d : Fin 64, x0 (ix4 (0 : Fin 1) (0 : Fin 1) n d) * x1 (ix2 o ⟨64 * (i 1).val + d.val, hb d⟩) := by
  unfold step2 k2_pay2
  rw [shapeCast_self]
  rw [addf_apply]
  show _ + FloatOps.matmul (F := Ideal) _ _ _ _ _ (ix2 n o) = _
  rw [Ideal.matmul_constant_zero_apply,
    ← Equiv.sum_comp (contrEquiv1 dot_S2048x64_S768x64_S2048x768_1_1_0_0_n_n 64 rfl rfl).symm]
  congr 1
  refine Finset.sum_congr rfl fun d _ => ?_
  have cv := contrEquiv1_symm_val dot_S2048x64_S768x64_S2048x768_1_1_0_0_n_n 64 rfl rfl d
  have l : dot_S2048x64_S768x64_S2048x768_1_1_0_0_n_n.lhsIdx (ix2 n o)
      ((contrEquiv1 dot_S2048x64_S768x64_S2048x768_1_1_0_0_n_n 64 rfl rfl).symm d) = ix2 n d := by
    funext ax; apply Fin.ext
    match ax with
    | ⟨0, _⟩ => simp [DotDims.lhsIdx, dot_S2048x64_S768x64_S2048x768_1_1_0_0_n_n]; rfl
    | ⟨1, _⟩ => simp [DotDims.lhsIdx, dot_S2048x64_S768x64_S2048x768_1_1_0_0_n_n]; exact cv
  have r : dot_S2048x64_S768x64_S2048x768_1_1_0_0_n_n.rhsIdx (ix2 n o)
      ((contrEquiv1 dot_S2048x64_S768x64_S2048x768_1_1_0_0_n_n 64 rfl rfl).symm d) = ix2 o d := by
    funext ax; apply Fin.ext
    match ax with
    | ⟨0, _⟩ => simp [DotDims.rhsIdx, dot_S2048x64_S768x64_S2048x768_1_1_0_0_n_n]; rfl
    | ⟨1, _⟩ => simp [DotDims.rhsIdx, dot_S2048x64_S768x64_S2048x768_1_1_0_0_n_n]; exact cv
  rw [l, r, truncf_apply, truncf_apply]
  congr 1
  · refine shapeCast_apply _ _ _ (ix4 (0 : Fin 1) (0 : Fin 1) n d) ?_
    rw [Shape.rowMajor_val_two, Shape.rowMajor_val_four]
    show (((0 : ℕ) * 1 + 0) * 2048 + n.val) * 64 + d.val = n.val * 64 + d.val
    omega
  · show x1 ((Rect.unit (s := S768x768) (k2_off1 i) S768x64.size (k2_off1_inb i)).idx (ix2 o d)) = _
    congr 1
    funext ax; apply Fin.ext
    match ax with
    | ⟨0, _⟩ => show k2_off1 i 0 + 1 * o.val = o.val; rw [k2_off1_eq]; show 0 + 1 * o.val = o.val; omega
    | ⟨1, _⟩ => show k2_off1 i 1 + 1 * d.val = 64 * (i 1).val + d.val; rw [k2_off1_eq]; show 64 * (i 1).val + 1 * d.val = _; omega

/-! ## Where the blocks sit in their arrays -/

/-- The context window's block index at a point: batch row, head, then zeros. -/
theorem idx2_0 : ∀ t : Fin cfg2.N, win2_0.index t 0 = t.val / 12 ∧ win2_0.index t 1 = t.val % 12 ∧ win2_0.index t 2 = 0 ∧ win2_0.index t 3 = 0 :=
  (by decide +kernel : ∀ t : Fin grid2.N, win2_0.index t 0 = t.val / 12 ∧ win2_0.index t 1 = t.val % 12 ∧ win2_0.index t 2 = 0 ∧ win2_0.index t 3 = 0)
/-- The weight window's block is the whole array. -/
theorem idx2_1 : ∀ t : Fin cfg2.N, win2_1.index t 0 = 0 ∧ win2_1.index t 1 = 0 :=
  (by decide +kernel : ∀ t : Fin grid2.N, win2_1.index t 0 = 0 ∧ win2_1.index t 1 = 0)
/-- The result window's block index at a point: the batch row, then zeros. -/
theorem idx2_2 : ∀ t : Fin cfg2.N, win2_2.index t 0 = t.val / 12 ∧ win2_2.index t 1 = 0 ∧ win2_2.index t 2 = 0 :=
  (by decide +kernel : ∀ t : Fin grid2.N, win2_2.index t 0 = t.val / 12 ∧ win2_2.index t 1 = 0 ∧ win2_2.index t 2 = 0)
/-- The head coordinate of a point. -/
theorem coord2_1 : ∀ t : Fin cfg2.N, (grid2.coords t 1).val = t.val % 12 :=
  (by decide +kernel : ∀ t : Fin grid2.N, (grid2.coords t 1).val = t.val % 12)

/-- Two points that both write the result block back write different blocks. -/
theorem idx_inj2 : ∀ t t' : Fin cfg2.N, (cfg2.win 2).flush t = true → (cfg2.win 2).flush t' = true →
    win2_2.index t = win2_2.index t' → t = t' :=
  (by decide +kernel : ∀ t t' : Fin grid2.N, win2_2.flush t = true → win2_2.flush t' = true →
    win2_2.index t = win2_2.index t' → t = t')

theorem disjoint2 : ∀ t t' : Fin cfg2.N, (cfg2.win 2).flush t = true → (cfg2.win 2).flush t' = true → t ≠ t' →
    Disjoint ((cfg2.win 2).blk t).view.set ((cfg2.win 2).blk t').view.set :=
  fun t t' hf hf' hne => (cfg2.win 2).disjoint_blk fun h => hne (idx_inj2 t t' hf hf' h)

section Region
variable (V : (c : Dev nD) → (b : Ref sig .tc) → Buf (Elt Ideal) ((c : Thread nD τ).loc b))

/-- The context block at a point, the weight block, and the two arrays they are read off, at the types their
    elements are multiplied at. -/
abbrev ctxB (c : Dev nD) (t : Fin cfg2.N) : Vec Ideal S1x1x2048x64 .f32 := iblk2 V c 0 t
abbrev wgtB (c : Dev nD) (t : Fin cfg2.N) : Vec Ideal S768x768 .f32 := iblk2 V c 1 t
abbrev ctxA (c : Dev nD) : S4x12x2048x64.Idx → EReal := V c main_v1
abbrev wgtA (c : Dev nD) : S768x768.Idx → EReal := V c main_arg2

/-- The context block at point `12 b + h` reads the context array at batch row `b`, head `h`. -/
theorem iblk2_0_apply (c : Dev nD) (t : Fin cfg2.N) (b : Fin 4) (h : Fin 12) (ht : t.val = 12 * b.val + h.val)
    (n : Fin 2048) (d : Fin 64) :
    ctxB V c t (ix4 (0 : Fin 1) (0 : Fin 1) n d) = ctxA V c (ix4 b h n d) := by
  unfold ctxB ctxA iblk2
  rw [View.read_apply]
  show V c main_v1 _ = V c main_v1 _
  congr 1
  funext a; apply Fin.ext
  match a with
  | ⟨0, _⟩ => show win2_0.index t 0 * 1 + 1 * 0 = b.val; rw [(idx2_0 t).1, ht]; have := h.isLt; omega
  | ⟨1, _⟩ => show win2_0.index t 1 * 1 + 1 * 0 = h.val; rw [(idx2_0 t).2.1, ht]; have := h.isLt; omega
  | ⟨2, _⟩ => show win2_0.index t 2 * 2048 + 1 * n.val = n.val; rw [(idx2_0 t).2.2.1]; omega
  | ⟨3, _⟩ => show win2_0.index t 3 * 64 + 1 * d.val = d.val; rw [(idx2_0 t).2.2.2]; omega

/-- The weight block at any point reads the weight array. -/
theorem iblk2_1_apply (c : Dev nD) (t : Fin cfg2.N) (o : Fin 768) (k : Fin 768) :
    wgtB V c t (ix2 o k) = wgtA V c (ix2 o k) := by
  unfold wgtB wgtA iblk2
  rw [View.read_apply]
  show V c main_arg2 _ = V c main_arg2 _
  congr 1
  funext a; apply Fin.ext
  match a with
  | ⟨0, _⟩ => show win2_1.index t 0 * 768 + 1 * o.val = o.val; rw [(idx2_1 t).1]; omega
  | ⟨1, _⟩ => show win2_1.index t 1 * 768 + 1 * k.val = k.val; rw [(idx2_1 t).2]; omega

/-- Head `h`'s contribution to element `(b, n, o)` of the result: the sum over the head's sixty-four columns of
    context times projection weight. -/
def headTerm (c : Dev nD) (b : Fin 4) (n : Fin 2048) (o : Fin 768) (h : Fin 12) : EReal :=
  ∑ d : Fin 64, ctxA V c (ix4 b h n d) * wgtA V c (ix2 o ⟨h.val * 64 + d.val, by have := h.isLt; have := d.isLt; omega⟩)

/-- The step's sum at point `12 b + h` is head `h`'s contribution. -/
theorem term_eq (c : Dev nD) (t : Fin cfg2.N) (b : Fin 4) (h : Fin 12) (ht : t.val = 12 * b.val + h.val)
    (n : Fin 2048) (o : Fin 768) (hb : ∀ d : Fin 64, 64 * (grid2.coords t 1).val + d.val < 768) :
    ∑ d : Fin 64, ctxB V c t (ix4 (0 : Fin 1) (0 : Fin 1) n d)
        * wgtB V c t (ix2 o ⟨64 * (grid2.coords t 1).val + d.val, hb d⟩)
      = headTerm V c b n o h := by
  unfold headTerm
  refine Finset.sum_congr rfl fun d _ => ?_
  have hc : (grid2.coords t 1).val = h.val := by rw [coord2_1, ht]; have := h.isLt; omega
  have e : (⟨64 * (grid2.coords t 1).val + d.val, hb d⟩ : Fin 768)
      = ⟨h.val * 64 + d.val, by have := h.isLt; have := d.isLt; omega⟩ := Fin.ext (by show 64 * (grid2.coords t 1).val + d.val = h.val * 64 + d.val; rw [hc]; omega)
  rw [iblk2_0_apply V c t b h ht, iblk2_1_apply, e]

/-- The accumulator after head `j` of batch row `b`, at an element: the contributions of heads `0 … j`. -/
theorem accAt_fold (c : Dev nD) (b : Fin 4) (n : Fin 2048) (o : Fin 768) :
    ∀ (j : ℕ) (hj : j < 12) (h : 12 * b.val + j < cfg2.N),
      accAt V c (12 * b.val + j) h (ix2 n o) = ∑ s : Fin (j + 1), headTerm V c b n o ⟨s.val, by have := s.isLt; omega⟩
  | 0, hj, h => by
    have hb : ∀ d : Fin 64, 64 * (grid2.coords (⟨12 * b.val + 0, h⟩ : Fin cfg2.N) 1).val + d.val < 768 := fun d => by
      rw [coord2_1]; have := d.isLt; show 64 * ((12 * b.val + 0) % 12) + d.val < 768; omega
    rw [accAt_first V c ⟨12 * b.val + 0, h⟩ (by show (12 * b.val + 0) % 12 = 0; omega), step2_apply _ _ _ _ n o hb,
      k2_pay1_apply, zero_add, term_eq V c ⟨12 * b.val + 0, h⟩ b ⟨0, hj⟩ rfl n o hb, Fin.sum_univ_one]
    rfl
  | j + 1, hj, h => by
    have hb : ∀ d : Fin 64, 64 * (grid2.coords (⟨12 * b.val + (j + 1), h⟩ : Fin cfg2.N) 1).val + d.val < 768 := fun d => by
      rw [coord2_1]; have := d.isLt; show 64 * ((12 * b.val + (j + 1)) % 12) + d.val < 768; omega
    rw [accAt_next V c ⟨12 * b.val + (j + 1), h⟩ (by show ¬(12 * b.val + (j + 1)) % 12 = 0; omega), step2_apply _ _ _ _ n o hb,
      term_eq V c ⟨12 * b.val + (j + 1), h⟩ b ⟨j + 1, hj⟩ rfl n o hb]
    have ih := accAt_fold c b n o j (Nat.lt_of_succ_lt hj) (Nat.lt_of_succ_lt h)
    rw [Fin.sum_univ_castSucc]
    show accAt V c (12 * b.val + j) _ (ix2 n o) + _ = _
    rw [ih]
    rfl

/-- The result array after the region, at the type its elements are summed at. -/
abbrev resA (c : Dev nD) : S4x2048x768.Idx → EReal := (dat2 (F := Ideal) V c).arrAt 2 cfg2.N

/-- THE VALUE of the third call: element `(b, n, o)` of the result array ends at the sum over the heads, and over
    each head's sixty-four columns, of context times projection weight. -/
theorem value2 (c : Dev nD) (b : Fin 4) (n : Fin 2048) (o : Fin 768) :
    resA V c (ix3 b n o)
      = ∑ h : Fin 12, ∑ d : Fin 64, ctxA V c (ix4 b h n d)
          * wgtA V c (ix2 o ⟨h.val * 64 + d.val, by have := h.isLt; have := d.isLt; omega⟩) := by
  have hN : cfg2.N = 48 := N_2
  have hlt : 12 * b.val + 11 < cfg2.N := by have := b.isLt; omega
  have hf : (cfg2.win 2).flush ⟨12 * b.val + 11, hlt⟩ = true :=
    (flush2_2 ⟨12 * b.val + 11, hlt⟩).mpr (by show (12 * b.val + 11) % 12 = 11; omega)
  have e : (ix3 b n o : S4x2048x768.Idx) = ((cfg2.win 2).blk ⟨12 * b.val + 11, hlt⟩).view.emb (ix3 (0 : Fin 1) n o) := by
    funext a; apply Fin.ext
    match a with
    | ⟨0, _⟩ => show b.val = win2_2.index ⟨12 * b.val + 11, hlt⟩ 0 * 1 + 1 * 0; rw [(idx2_2 _).1]; show b.val = (12 * b.val + 11) / 12 * 1 + 1 * 0; omega
    | ⟨1, _⟩ => show n.val = win2_2.index ⟨12 * b.val + 11, hlt⟩ 1 * 2048 + 1 * n.val; rw [(idx2_2 _).2.1]; omega
    | ⟨2, _⟩ => show o.val = win2_2.index ⟨12 * b.val + 11, hlt⟩ 2 * 768 + 1 * o.val; rw [(idx2_2 _).2.2]; omega
  show (dat2 (F := Ideal) V c).arrAt 2 cfg2.N (ix3 b n o : S4x2048x768.Idx) = _
  rw [e, (dat2 V c).arrAt_emb_eq_flushed 2 disjoint2 ⟨12 * b.val + 11, hlt⟩ hf]
  show (dat2 V c).after 2 ⟨12 * b.val + 11, hlt⟩ (ix3 (0 : Fin 1) n o) = _
  rw [after2_2]
  unfold k2_pay3
  rw [shapeCast_apply _ _ _ (ix2 n o) (by
    rw [Shape.rowMajor_val_two, Shape.rowMajor_val_three]
    show n.val * 768 + o.val = ((0 : ℕ) * 2048 + n.val) * 768 + o.val
    omega)]
  show accAt V c (12 * b.val + 11) hlt (ix2 n o) = _
  rw [accAt_fold V c b n o 11 (by omega) hlt]
  rfl

end Region

end Cert.KernelIdeal.Hand

end
-- ==== Proof.KI.Spec.lean ====
import Idealize.ShloMosaic.PureOps.Ideal
import Idealize.ShloMosaic.PureOps.Ideal.Laws
import Idealize.ShloMosaic.Lib.ValueIdx

/-!
# Multi-head attention as one function of its three argument arrays

The activations "X" are a 4 × 2048 × 768 array (batch, position, feature), the fused projection weights
"Wq" a 2304 × 768 matrix whose rows 768·s … 768·s + 767 project onto queries (s = 0), keys (s = 1) and
values (s = 2), and "Wp" the 768 × 768 output projection. A feature index splits as 64·h + d into one of
12 heads and one of 64 coordinates of the head. Over the extended reals:

* qkvS s b n f   = ∑ k, X[b, n, k] · Wq[768·s + f, k];
* scoreS b h i j = (∑ d, qkvS 0 b i (64·h + d) · qkvS 1 b j (64·h + d)) · (1 / √64);
* rowMaxS b h i  = the supremum over j of scoreS b h i j;
* expS b h i j   = exp (scoreS b h i j − rowMaxS b h i);
* rowSumS b h i  = ∑ j, expS b h i j;
* attnS b h i j  = expS b h i j / rowSumS b h i;
* ctxS b h i d   = ∑ j, attnS b h i j · qkvS 2 b j (64·h + d);
* outS b n o     = ∑ c, ctxS b (c / 64) n (c mod 64) · Wp[o, c].

The scale is kept as the quotient of the word of 1.0 by the square root of the word of 64.0, and is shown
to be the real number 1/8, which is also what the word 0x3E000000 denotes.
-/

noncomputable section

namespace Cert.Spec

open Idealize.ShloMosaic Idealize.ShloMosaic.ValueIdx
open scoped BigOperators

/-- The shape of the activations and of the result: batch × position × feature. -/
abbrev SX : Shape := ⟨3, ![4, 2048, 768]⟩
/-- The shape of the fused query/key/value weights. -/
abbrev SWq : Shape := ⟨2, ![2304, 768]⟩
/-- The shape of the output projection's weights. -/
abbrev SWp : Shape := ⟨2, ![768, 768]⟩

/-- Row 768·s + f of the fused weights: feature f of the s-th projection. -/
def qkvRow (s : Fin 3) (f : Fin 768) : Fin 2304 := ⟨s.val * 768 + f.val, by have := s.isLt; have := f.isLt; omega⟩
/-- Feature 64·h + d: coordinate d of head h. -/
def headCol (h : Fin 12) (d : Fin 64) : Fin 768 := ⟨h.val * 64 + d.val, by have := h.isLt; have := d.isLt; omega⟩
/-- The head of a feature. -/
def headOf (c : Fin 768) : Fin 12 := ⟨c.val / 64, by have := c.isLt; omega⟩
/-- The coordinate of a feature inside its head. -/
def coordOf (c : Fin 768) : Fin 64 := ⟨c.val % 64, by omega⟩

@[simp] theorem qkvRow_val (s : Fin 3) (f : Fin 768) : (qkvRow s f).val = s.val * 768 + f.val := rfl
@[simp] theorem headCol_val (h : Fin 12) (d : Fin 64) : (headCol h d).val = h.val * 64 + d.val := rfl
@[simp] theorem headOf_val (c : Fin 768) : (headOf c).val = c.val / 64 := rfl
@[simp] theorem coordOf_val (c : Fin 768) : (coordOf c).val = c.val % 64 := rfl

theorem headCol_headOf_coordOf (c : Fin 768) : headCol (headOf c) (coordOf c) = c :=
  Fin.ext (by simp only [headCol_val, headOf_val, coordOf_val]; omega)
theorem headOf_headCol (h : Fin 12) (d : Fin 64) : headOf (headCol h d) = h :=
  Fin.ext (by have := d.isLt; simp only [headCol_val, headOf_val]; omega)
theorem coordOf_headCol (h : Fin 12) (d : Fin 64) : coordOf (headCol h d) = d :=
  Fin.ext (by have := d.isLt; simp only [headCol_val, coordOf_val]; omega)

variable (X : SX.Idx → EReal) (Wq : SWq.Idx → EReal) (Wp : SWp.Idx → EReal)

/-- The s-th projection (0 queries, 1 keys, 2 values) of position n of batch b, at feature f. -/
def qkvS (s : Fin 3) (b : Fin 4) (n : Fin 2048) (f : Fin 768) : EReal :=
  ∑ k : Fin 768, X (ix3 b n k) * Wq (ix2 (qkvRow s f) k)

/-- The softmax scale as the reference spells it: the word of 1.0 divided by the square root of the word of 64.0. -/
def scale : EReal := Ideal.div (Ideal.ofBits .f32 0x3F800000#32) (Ideal.sqrt (Ideal.ofBits .f32 0x42800000#32))

/-- The scaled score of query position i against key position j in head h of batch b. -/
def scoreS (b : Fin 4) (h : Fin 12) (i j : Fin 2048) : EReal :=
  (∑ d : Fin 64, qkvS X Wq 0 b i (headCol h d) * qkvS X Wq 1 b j (headCol h d)) * scale

/-- The largest score of a row (the supremum over the key positions; −∞ is the bottom). -/
def rowMaxS (b : Fin 4) (h : Fin 12) (i : Fin 2048) : EReal :=
  Finset.univ.sup fun j : Fin 2048 => scoreS X Wq b h i j

/-- The exponential of a score less its row's maximum. -/
def expS (b : Fin 4) (h : Fin 12) (i j : Fin 2048) : EReal :=
  Ideal.exp (scoreS X Wq b h i j - rowMaxS X Wq b h i)

/-- The sum of a row's exponentials. -/
def rowSumS (b : Fin 4) (h : Fin 12) (i : Fin 2048) : EReal :=
  ∑ j : Fin 2048, expS X Wq b h i j

/-- The attention weight: a row's exponential divided by the row's sum. -/
def attnS (b : Fin 4) (h : Fin 12) (i j : Fin 2048) : EReal :=
  Ideal.div (expS X Wq b h i j) (rowSumS X Wq b h i)

/-- The context: the attention-weighted sum of the values of head h. -/
def ctxS (b : Fin 4) (h : Fin 12) (i : Fin 2048) (d : Fin 64) : EReal :=
  ∑ j : Fin 2048, attnS X Wq b h i j * qkvS X Wq 2 b j (headCol h d)

/-- The result: the contexts of the 12 heads, side by side as 768 features, projected by "Wp". -/
def outS (b : Fin 4) (n : Fin 2048) (o : Fin 768) : EReal :=
  ∑ c : Fin 768, ctxS X Wq b (headOf c) n (coordOf c) * Wp (ix2 o c)

/-- The result as an array. -/
def outArr : SX.Idx → EReal := fun i => outS X Wq Wp (i 0) (i 1) (i 2)

/-! ## The literals -/

/-- The word of −∞ denotes the bottom. -/
theorem ofBits_neg_inf : Ideal.ofBits .f32 0xFF800000#32 = (⊥ : EReal) := by
  simp [Ideal.ofBits, Ideal.ieee]

/-- The word of 1.0 denotes 1. -/
theorem ofBits_one : Ideal.ofBits .f32 0x3F800000#32 = ((1 : ℝ) : EReal) := by
  simp [Ideal.ofBits, Ideal.ieee, -EReal.coe_mul]; norm_num

/-- The word of 64.0 denotes 64. -/
theorem ofBits_64 : Ideal.ofBits .f32 0x42800000#32 = ((64 : ℝ) : EReal) := by
  simp [Ideal.ofBits, Ideal.ieee, -EReal.coe_mul]; norm_num

/-- The word 0x3E000000 denotes 1/8. -/
theorem ofBits_eighth : Ideal.ofBits .f32 0x3E000000#32 = ((1 / 8 : ℝ) : EReal) := by
  simp [Ideal.ofBits, Ideal.ieee, -EReal.coe_mul]; norm_num

/-- The reference's scale is 1/8: √64 = 8. -/
theorem sqrt_64 : Real.sqrt 64 = 8 := by
  rw [show (64 : ℝ) = 8 ^ 2 by norm_num, Real.sqrt_sq (by norm_num)]

theorem scale_eq : scale = ((1 / 8 : ℝ) : EReal) := by
  unfold scale
  rw [ofBits_one, ofBits_64, Ideal.sqrt_coe, if_neg (by norm_num), sqrt_64,
    Ideal.div_coe (by norm_num : (8 : ℝ) ≠ 0), ← EReal.coe_mul, one_mul]

/-- The row maximum as the fold of "max" from −∞. -/
theorem rowMaxS_eq_fold (b : Fin 4) (h : Fin 12) (i : Fin 2048) :
    rowMaxS X Wq b h i = Finset.univ.fold max (⊥ : EReal) fun j : Fin 2048 => scoreS X Wq b h i j := rfl

theorem scale_eq_ofBits : scale = Ideal.ofBits .f32 0x3E000000#32 := scale_eq.trans ofBits_eighth.symm

end Cert.Spec

end
-- ==== Proof.KI.Softmax.lean ====
import Mathlib.Tactic
import Mathlib.Data.Finset.Fold
import Mathlib.Algebra.BigOperators.Fin
import Mathlib.Logic.Equiv.Fin.Basic
import Idealize.ShloMosaic.PureOps.Ideal
import Idealize.ShloMosaic.PureOps.Ideal.Laws

/-!
# The online softmax on the extended reals

One query row of an attention head: real scores and real values, split into chunks of keys.
The running form keeps a running maximum m (starting at -∞), a running denominator l and a
running numerator acc (both starting at 0); each chunk rescales both by exp (m - m') where m' is
the new maximum. Its final quotient acc / l equals the textbook softmax-weighted sum
∑ (exp (s - M) / ∑ exp (s - M)) · v, for ANY real shift M: a softmax does not change when a
constant is subtracted from every score, so neither side's choice of maximum matters, only that
it is a real number (the maximum of finitely many reals) once a first chunk has been seen.
-/

noncomputable section

namespace Cert.Softmax

open Idealize.ShloMosaic
open scoped BigOperators

/-! ## Finite real sums, products and quotients inside the extended reals -/

/-- The coercion of a finite real sum is the sum of the coercions. -/
theorem coe_sum {α : Type*} (t : Finset α) (f : α → ℝ) :
    ((∑ i ∈ t, f i : ℝ) : EReal) = ∑ i ∈ t, (f i : EReal) := by
  classical
  induction t using Finset.induction_on with
  | empty => simp
  | insert a t ha ih => rw [Finset.sum_insert ha, Finset.sum_insert ha, EReal.coe_add, ih]

/-- A finite sum of products of coerced reals is the coercion of the real sum of products. -/
theorem sum_coe_mul_coe {α : Type*} (t : Finset α) (f g : α → ℝ) :
    ∑ i ∈ t, (f i : EReal) * (g i : EReal) = ((∑ i ∈ t, f i * g i : ℝ) : EReal) := by
  rw [coe_sum]; exact Finset.sum_congr rfl fun i _ => (EReal.coe_mul _ _).symm

/-- The quotient of a real by a nonzero real, taken in the extended reals, is the real quotient. -/
theorem div_coe_coe (a : ℝ) {b : ℝ} (hb : b ≠ 0) :
    Ideal.div (a : EReal) (b : EReal) = ((a / b : ℝ) : EReal) := by
  rw [Ideal.div_coe hb, ← EReal.coe_mul]; congr 1; ring

/-- A real times the reciprocal of a nonzero real. -/
theorem mul_coe_inv (a : ℝ) {b : ℝ} (hb : b ≠ 0) :
    (a : EReal) * ((1 / b : ℝ) : EReal) = ((a / b : ℝ) : EReal) := by
  rw [← EReal.coe_mul]; congr 1; ring

/-- The exponential of a difference of two reals. -/
theorem exp_coe_sub_coe (a b : ℝ) :
    Ideal.exp ((a : EReal) - (b : EReal)) = ((Real.exp (a - b) : ℝ) : EReal) := by
  rw [← EReal.coe_sub, Ideal.exp_coe]

/-- The exponential of -∞ minus a real is zero. -/
theorem exp_bot_sub_coe (b : ℝ) : Ideal.exp ((⊥ : EReal) - (b : EReal)) = 0 := by
  rw [sub_eq_add_neg, EReal.bot_add, Ideal.exp_bot]

/-! ## The head dimension's scale -/

theorem real_sqrt_64 : Real.sqrt 64 = 8 := by
  rw [show (64 : ℝ) = 8 ^ 2 by norm_num]; exact Real.sqrt_sq (by norm_num)

theorem ideal_sqrt_64 : Ideal.sqrt ((64 : ℝ) : EReal) = ((8 : ℝ) : EReal) := by
  rw [Ideal.sqrt_coe, if_neg (by norm_num), real_sqrt_64]

/-- 1 / √64 is exactly 0.125. -/
theorem ideal_one_div_sqrt_64 :
    Ideal.div ((1 : ℝ) : EReal) (Ideal.sqrt ((64 : ℝ) : EReal)) = ((0.125 : ℝ) : EReal) := by
  rw [ideal_sqrt_64, div_coe_coe 1 (by norm_num : (8 : ℝ) ≠ 0)]; congr 1; norm_num

/-! ## The maximum of finitely many reals, folded from -∞, is a real -/

theorem fold_max_coe_real {ι : Type*} (t : Finset ι) (ht : t.Nonempty) (f : ι → ℝ) :
    ∃ C : ℝ, t.fold max (⊥ : EReal) (fun j => (f j : EReal)) = (C : EReal) := by
  obtain ⟨a, ha⟩ := ht
  refine ⟨(t.fold max (⊥ : EReal) fun j => (f j : EReal)).toReal, (EReal.coe_toReal ?_ ?_).symm⟩
  · exact ne_of_lt ((Finset.fold_max_lt _).mpr ⟨bot_lt_top, fun x _ => EReal.coe_lt_top _⟩)
  · exact ne_of_gt ((Finset.lt_fold_max _).mpr (Or.inr ⟨a, ha, EReal.bot_lt_coe _⟩))

/-- The same with the outer maximum against -∞ that a reference writes around it. -/
theorem max_bot_fold_max_coe_real {ι : Type*} (t : Finset ι) (ht : t.Nonempty) (f : ι → ℝ) :
    ∃ C : ℝ, max (⊥ : EReal) (t.fold max (⊥ : EReal) (fun j => (f j : EReal))) = (C : EReal) := by
  obtain ⟨C, hC⟩ := fold_max_coe_real t ht f
  exact ⟨C, by rw [hC]; exact max_eq_right bot_le⟩

/-! ## The real core -/

/-- Changing the shift rescales every term by the same factor. -/
theorem real_rescale {α : Type*} (t : Finset α) (f g : α → ℝ) (M M' : ℝ) :
    Real.exp (M - M') * ∑ i ∈ t, Real.exp (f i - M) * g i = ∑ i ∈ t, Real.exp (f i - M') * g i := by
  rw [Finset.mul_sum]
  refine Finset.sum_congr rfl fun i _ => ?_
  rw [← mul_assoc, ← Real.exp_add]; congr 2; ring

theorem real_rescale_one {α : Type*} (t : Finset α) (f : α → ℝ) (M M' : ℝ) :
    Real.exp (M - M') * ∑ i ∈ t, Real.exp (f i - M) = ∑ i ∈ t, Real.exp (f i - M') := by
  simpa using real_rescale t f (fun _ => 1) M M'

/-- Shift invariance: the quotient of the weighted sum by the total weight, at one shift, is the
    sum of the normalised weights times the values, at any other shift. -/
theorem real_softmax_shift {κ : Type*} [Fintype κ] [Nonempty κ] (σ ν : κ → ℝ) (M M' : ℝ) :
    (∑ k, Real.exp (σ k - M) * ν k) / (∑ k, Real.exp (σ k - M))
      = ∑ k, (Real.exp (σ k - M') / ∑ k', Real.exp (σ k' - M')) * ν k := by
  have hS' : 0 < ∑ k', Real.exp (σ k' - M') :=
    Finset.sum_pos (fun _ _ => Real.exp_pos _) Finset.univ_nonempty
  rw [← real_rescale Finset.univ σ ν M' M, ← real_rescale_one Finset.univ σ M' M,
    mul_div_mul_left _ _ (Real.exp_pos _).ne', Finset.sum_div]
  refine Finset.sum_congr rfl fun k _ => ?_
  ring

/-! ## The running form -/

section Running

variable {ι : Type*} [Fintype ι]

/-- One chunk of the running form, on a state (m, l, acc): the chunk's scores t and values w;
    the new maximum m' = max m (the chunk's maximum, folded from -∞); then
    l' = exp (m - m') · l + ∑ exp (t - m') and acc' = exp (m - m') · acc + ∑ exp (t - m') · w. -/
def step (t w : ι → EReal) (σ : EReal × EReal × EReal) : EReal × EReal × EReal :=
  (max σ.1 (Finset.univ.fold max ⊥ t),
   Ideal.exp (σ.1 - max σ.1 (Finset.univ.fold max ⊥ t)) * σ.2.1
     + ∑ j, Ideal.exp (t j - max σ.1 (Finset.univ.fold max ⊥ t)),
   Ideal.exp (σ.1 - max σ.1 (Finset.univ.fold max ⊥ t)) * σ.2.2
     + ∑ j, Ideal.exp (t j - max σ.1 (Finset.univ.fold max ⊥ t)) * w j)

/-- The state after the first k chunks, from (-∞, 0, 0). -/
def run (S V : ℕ → ι → ℝ) : ℕ → EReal × EReal × EReal
  | 0 => (⊥, 0, 0)
  | k + 1 => step (fun j => (S k j : EReal)) (fun j => (V k j : EReal)) (run S V k)

@[simp] theorem run_zero (S V : ℕ → ι → ℝ) : run S V 0 = (⊥, 0, 0) := rfl
@[simp] theorem run_succ (S V : ℕ → ι → ℝ) (k : ℕ) :
    run S V (k + 1) = step (fun j => (S k j : EReal)) (fun j => (V k j : EReal)) (run S V k) := rfl

/-- The first chunk, from the start state: the -∞ start is killed by exp (-∞ - real) = 0. -/
theorem step_first [Nonempty ι] (t w : ι → ℝ) :
    ∃ M : ℝ, step (fun j => (t j : EReal)) (fun j => (w j : EReal)) (⊥, 0, 0) =
      ((M : EReal), ((∑ j, Real.exp (t j - M) : ℝ) : EReal),
        ((∑ j, Real.exp (t j - M) * w j : ℝ) : EReal)) := by
  obtain ⟨C, hC⟩ := fold_max_coe_real Finset.univ Finset.univ_nonempty t
  refine ⟨C, ?_⟩
  have hm : max (⊥ : EReal) (C : EReal) = (C : EReal) := max_eq_right bot_le
  simp only [step, hC, hm, exp_bot_sub_coe, exp_coe_sub_coe, mul_zero, zero_add, ← EReal.coe_mul,
    ← coe_sum]

/-- A later chunk, from a state that is real: the new state is real, at the new maximum. -/
theorem step_next [Nonempty ι] (t w : ι → ℝ) (M L A : ℝ) :
    ∃ M' : ℝ, step (fun j => (t j : EReal)) (fun j => (w j : EReal)) ((M : EReal), (L : EReal), (A : EReal)) =
      ((M' : EReal), ((Real.exp (M - M') * L + ∑ j, Real.exp (t j - M') : ℝ) : EReal),
        ((Real.exp (M - M') * A + ∑ j, Real.exp (t j - M') * w j : ℝ) : EReal)) := by
  obtain ⟨C, hC⟩ := fold_max_coe_real Finset.univ Finset.univ_nonempty t
  refine ⟨max M C, ?_⟩
  have hm : max (M : EReal) (C : EReal) = ((max M C : ℝ) : EReal) := (EReal.coe_strictMono.monotone.map_max (a := M) (b := C)).symm
  simp only [step, hC, hm, exp_coe_sub_coe, ← EReal.coe_mul, ← coe_sum, ← EReal.coe_add]

/-- The invariant: after k + 1 chunks the state is real, at some shift M: l is the total weight
    ∑ exp (s - M) over the keys seen, acc the weighted sum ∑ exp (s - M) · v over them. -/
theorem run_inv [Nonempty ι] (S V : ℕ → ι → ℝ) (k : ℕ) :
    ∃ M : ℝ, run S V (k + 1) =
      ((M : EReal),
       ((∑ r ∈ Finset.range (k + 1), ∑ j, Real.exp (S r j - M) : ℝ) : EReal),
       ((∑ r ∈ Finset.range (k + 1), ∑ j, Real.exp (S r j - M) * V r j : ℝ) : EReal)) := by
  induction k with
  | zero =>
    obtain ⟨M, hM⟩ := step_first (S 0) (V 0)
    exact ⟨M, by rw [run_succ, run_zero, hM]; simp⟩
  | succ k ih =>
    obtain ⟨M, hM⟩ := ih
    obtain ⟨M', hM'⟩ := step_next (S (k + 1)) (V (k + 1)) M
      (∑ r ∈ Finset.range (k + 1), ∑ j, Real.exp (S r j - M))
      (∑ r ∈ Finset.range (k + 1), ∑ j, Real.exp (S r j - M) * V r j)
    refine ⟨M', ?_⟩
    have h1 : Real.exp (M - M') * ∑ r ∈ Finset.range (k + 1), ∑ j, Real.exp (S r j - M)
        = ∑ r ∈ Finset.range (k + 1), ∑ j, Real.exp (S r j - M') := by
      rw [Finset.mul_sum]; exact Finset.sum_congr rfl fun r _ => real_rescale_one _ _ _ _
    have h2 : Real.exp (M - M') * ∑ r ∈ Finset.range (k + 1), ∑ j, Real.exp (S r j - M) * V r j
        = ∑ r ∈ Finset.range (k + 1), ∑ j, Real.exp (S r j - M') * V r j := by
      rw [Finset.mul_sum]; exact Finset.sum_congr rfl fun r _ => real_rescale _ _ _ _ _
    rw [run_succ, hM, hM', h1, h2, Finset.sum_range_succ _ (k + 1), Finset.sum_range_succ _ (k + 1)]

end Running

/-! ## The two answers -/

section Answers

variable {ι : Type*} [Fintype ι]

/-- The nested sum over the first n chunks as one sum over (chunk, key) pairs. -/
theorem sum_range_sum_eq (n : ℕ) (G : ℕ → ι → ℝ) :
    ∑ r ∈ Finset.range n, ∑ j, G r j = ∑ p : Fin n × ι, G p.1 p.2 := by
  rw [Finset.sum_range, Fintype.sum_prod_type]

/-- The running form's quotient acc / l after k + 1 chunks, as a real: the normalised weighted
    sum over all (chunk, key) pairs, at any shift M'. -/
theorem run_answer_real [Nonempty ι] (S V : ℕ → ι → ℝ) (k : ℕ) (M' : ℝ) :
    Ideal.div (run S V (k + 1)).2.2 (run S V (k + 1)).2.1
      = ((∑ p : Fin (k + 1) × ι,
            (Real.exp (S p.1 p.2 - M') / ∑ p' : Fin (k + 1) × ι, Real.exp (S p'.1 p'.2 - M'))
              * V p.1 p.2 : ℝ) : EReal) := by
  obtain ⟨M, hM⟩ := run_inv S V k
  have hL : 0 < ∑ p : Fin (k + 1) × ι, Real.exp (S p.1 p.2 - M) :=
    Finset.sum_pos (fun _ _ => Real.exp_pos _) Finset.univ_nonempty
  rw [hM]
  show Ideal.div ((_ : ℝ) : EReal) ((_ : ℝ) : EReal) = _
  rw [sum_range_sum_eq (k + 1) (fun r j => Real.exp (S r j - M)),
    sum_range_sum_eq (k + 1) (fun r j => Real.exp (S r j - M) * V r j),
    div_coe_coe _ hL.ne',
    real_softmax_shift (fun p : Fin (k + 1) × ι => S p.1 p.2) (fun p => V p.1 p.2) M M']

/-- The textbook form, in the extended reals' operations: each weight exp (σ - M') divided by the
    total weight, times its value, summed; a real number, for real scores, values and shift. -/
theorem softmax_ref_real {κ : Type*} [Fintype κ] [Nonempty κ] (σ ν : κ → ℝ) (M' : ℝ) :
    ∑ k, Ideal.div (Ideal.exp ((σ k : EReal) - (M' : EReal)))
          (∑ k', Ideal.exp ((σ k' : EReal) - (M' : EReal))) * (ν k : EReal)
      = ((∑ k, (Real.exp (σ k - M') / ∑ k', Real.exp (σ k' - M')) * ν k : ℝ) : EReal) := by
  have hS : 0 < ∑ k', Real.exp (σ k' - M') :=
    Finset.sum_pos (fun _ _ => Real.exp_pos _) Finset.univ_nonempty
  simp only [exp_coe_sub_coe, ← coe_sum, div_coe_coe _ hS.ne', ← EReal.coe_mul]

/-- THE THEOREM, for any number n + 1 of chunks: the running form's final quotient is the textbook
    softmax-weighted sum over the keys κ, where e names each key's chunk and place in it, and
    M' is any real shift (the reference's own maximum, a real). -/
theorem online_eq_softmax [Nonempty ι] {κ : Type*} [Fintype κ] (S V : ℕ → ι → ℝ) (n : ℕ)
    (e : κ ≃ Fin (n + 1) × ι) (M' : ℝ) :
    Ideal.div (run S V (n + 1)).2.2 (run S V (n + 1)).2.1
      = ∑ k, Ideal.div (Ideal.exp ((S (e k).1 (e k).2 : EReal) - (M' : EReal)))
              (∑ k', Ideal.exp ((S (e k').1 (e k').2 : EReal) - (M' : EReal)))
            * (V (e k).1 (e k).2 : EReal) := by
  haveI : Nonempty κ := e.nonempty
  rw [run_answer_real S V n M',
    softmax_ref_real (fun k => S (e k).1 (e k).2) (fun k => V (e k).1 (e k).2) M']
  have hin : ∑ k', Real.exp (S (e k').1 (e k').2 - M')
      = ∑ p' : Fin (n + 1) × ι, Real.exp (S p'.1 p'.2 - M') :=
    Fintype.sum_equiv e _ _ (fun _ => rfl)
  rw [hin]
  exact congrArg _ (Fintype.sum_equiv e _ _ (fun _ => rfl)).symm

end Answers

/-! ## Four chunks, written out -/

section Four

variable {ι : Type*} [Fintype ι]

/-- Four chunk functions as a sequence of chunks (chunk 0 again past the fourth; never read). -/
def ext4 (s : Fin 4 → ι → ℝ) (r : ℕ) : ι → ℝ := if h : r < 4 then s ⟨r, h⟩ else s 0

theorem ext4_coe (s : Fin 4 → ι → ℝ) (r : Fin 4) : ext4 s (r : ℕ) = s r := by
  simp [ext4, r.isLt]

/-- The four-chunk instance of the theorem, the state written as four nested steps. -/
theorem online4_eq_softmax [Nonempty ι] {κ : Type*} [Fintype κ] (s v : Fin 4 → ι → ℝ)
    (e : κ ≃ Fin 4 × ι) (M' : ℝ) :
    Ideal.div
        (step (fun j => (s 3 j : EReal)) (fun j => (v 3 j : EReal))
          (step (fun j => (s 2 j : EReal)) (fun j => (v 2 j : EReal))
            (step (fun j => (s 1 j : EReal)) (fun j => (v 1 j : EReal))
              (step (fun j => (s 0 j : EReal)) (fun j => (v 0 j : EReal)) (⊥, 0, 0))))).2.2
        (step (fun j => (s 3 j : EReal)) (fun j => (v 3 j : EReal))
          (step (fun j => (s 2 j : EReal)) (fun j => (v 2 j : EReal))
            (step (fun j => (s 1 j : EReal)) (fun j => (v 1 j : EReal))
              (step (fun j => (s 0 j : EReal)) (fun j => (v 0 j : EReal)) (⊥, 0, 0))))).2.1
      = ∑ k, Ideal.div (Ideal.exp ((s (e k).1 (e k).2 : EReal) - (M' : EReal)))
              (∑ k', Ideal.exp ((s (e k').1 (e k').2 : EReal) - (M' : EReal)))
            * (v (e k).1 (e k).2 : EReal) := by
  have h := online_eq_softmax (ext4 s) (ext4 v) 3 e M'
  simp only [ext4_coe] at h
  exact h

end Four

/-! ## Keys as (chunk, place in the chunk) -/

/-- Key c · r + j of n · c keys is place j of chunk r. -/
def chunkSplit (n c : ℕ) : Fin (n * c) ≃ Fin n × Fin c := finProdFinEquiv.symm

theorem chunkSplit_fst_val (n c : ℕ) (k : Fin (n * c)) : ((chunkSplit n c k).1 : ℕ) = k / c := rfl
theorem chunkSplit_snd_val (n c : ℕ) (k : Fin (n * c)) : ((chunkSplit n c k).2 : ℕ) = k % c := rfl
theorem chunkSplit_symm_val (n c : ℕ) (r : Fin n) (j : Fin c) :
    (((chunkSplit n c).symm (r, j) : Fin (n * c)) : ℕ) = j + c * r := rfl

/-- The 2048 keys as 4 chunks of 512. -/
def keySplit : Fin 2048 ≃ Fin 4 × Fin 512 := chunkSplit 4 512

theorem keySplit_fst_val (k : Fin 2048) : ((keySplit k).1 : ℕ) = k / 512 := rfl
theorem keySplit_snd_val (k : Fin 2048) : ((keySplit k).2 : ℕ) = k % 512 := rfl
theorem keySplit_symm_val (r : Fin 4) (j : Fin 512) : ((keySplit.symm (r, j) : Fin 2048) : ℕ) = j + 512 * r := rfl

/-! ## Extended reals that are real numbers -/

/-- An extended real that is a real number (neither infinity). -/
def IsReal (x : EReal) : Prop := ∃ r : ℝ, x = (r : EReal)

theorem isReal_coe (r : ℝ) : IsReal (r : EReal) := ⟨r, rfl⟩
theorem isReal_zero : IsReal 0 := ⟨0, rfl⟩
theorem isReal_one : IsReal 1 := ⟨1, rfl⟩

theorem isReal_iff (x : EReal) : IsReal x ↔ x ≠ ⊥ ∧ x ≠ ⊤ := by
  constructor
  · rintro ⟨r, rfl⟩; exact ⟨EReal.coe_ne_bot r, EReal.coe_ne_top r⟩
  · rintro ⟨hb, ht⟩; exact ⟨x.toReal, (EReal.coe_toReal ht hb).symm⟩

theorem IsReal.add {x y : EReal} (hx : IsReal x) (hy : IsReal y) : IsReal (x + y) := by
  obtain ⟨a, rfl⟩ := hx; obtain ⟨b, rfl⟩ := hy; exact ⟨a + b, (EReal.coe_add a b).symm⟩
theorem IsReal.sub {x y : EReal} (hx : IsReal x) (hy : IsReal y) : IsReal (x - y) := by
  obtain ⟨a, rfl⟩ := hx; obtain ⟨b, rfl⟩ := hy; exact ⟨a - b, (EReal.coe_sub a b).symm⟩
theorem IsReal.mul {x y : EReal} (hx : IsReal x) (hy : IsReal y) : IsReal (x * y) := by
  obtain ⟨a, rfl⟩ := hx; obtain ⟨b, rfl⟩ := hy; exact ⟨a * b, (EReal.coe_mul a b).symm⟩
theorem IsReal.neg {x : EReal} (hx : IsReal x) : IsReal (-x) := by
  obtain ⟨a, rfl⟩ := hx; exact ⟨-a, (EReal.coe_neg a).symm⟩
theorem IsReal.max {x y : EReal} (hx : IsReal x) (hy : IsReal y) : IsReal (max x y) := by
  obtain ⟨a, rfl⟩ := hx; obtain ⟨b, rfl⟩ := hy
  exact ⟨Max.max a b, (EReal.coe_strictMono.monotone.map_max (a := a) (b := b)).symm⟩
theorem IsReal.exp {x : EReal} (hx : IsReal x) : IsReal (Ideal.exp x) := by
  obtain ⟨a, rfl⟩ := hx; exact ⟨Real.exp a, Ideal.exp_coe a⟩
theorem IsReal.div {x y : EReal} (hx : IsReal x) (hy : IsReal y) (h0 : y ≠ 0) : IsReal (Ideal.div x y) := by
  obtain ⟨a, rfl⟩ := hx; obtain ⟨b, rfl⟩ := hy
  exact ⟨a / b, div_coe_coe a (by rintro rfl; exact h0 rfl)⟩

/-- A finite sum of real numbers is a real number. -/
theorem isReal_sum {α : Type*} (t : Finset α) (f : α → EReal) (h : ∀ i ∈ t, IsReal (f i)) :
    IsReal (∑ i ∈ t, f i) := by
  classical
  induction t using Finset.induction_on with
  | empty => simpa using isReal_zero
  | insert a t ha ih =>
    rw [Finset.sum_insert ha]
    exact (h a (Finset.mem_insert_self a t)).add (ih fun i hi => h i (Finset.mem_insert_of_mem hi))

/-- A finite sum of products of real numbers is a real number. -/
theorem isReal_sum_mul {α : Type*} (t : Finset α) (f g : α → EReal) (hf : ∀ i ∈ t, IsReal (f i))
    (hg : ∀ i ∈ t, IsReal (g i)) : IsReal (∑ i ∈ t, f i * g i) :=
  isReal_sum t _ fun i hi => (hf i hi).mul (hg i hi)

/-- The maximum of finitely many real numbers, folded from -∞, is a real number. -/
theorem isReal_fold_max {α : Type*} (t : Finset α) (ht : t.Nonempty) (f : α → EReal)
    (h : ∀ i, IsReal (f i)) : IsReal (t.fold max (⊥ : EReal) f) := by
  choose g hg using h
  obtain rfl : f = fun i => (g i : EReal) := funext hg
  exact fold_max_coe_real t ht g

/-! ## The theorem for extended-real scores and values known to be real -/

section OfIsReal

variable {ι : Type*} [Fintype ι]

/-- The four-chunk theorem for scores t, values w and a reference shift that are extended reals known
    to be real numbers. -/
theorem online4_eq_softmax_of_isReal [Nonempty ι] {κ : Type*} [Fintype κ] (t w : Fin 4 → ι → EReal)
    (ht : ∀ r j, IsReal (t r j)) (hw : ∀ r j, IsReal (w r j)) (e : κ ≃ Fin 4 × ι)
    (Mref : EReal) (hM : IsReal Mref) :
    Ideal.div (step (t 3) (w 3) (step (t 2) (w 2) (step (t 1) (w 1) (step (t 0) (w 0) (⊥, 0, 0))))).2.2
        (step (t 3) (w 3) (step (t 2) (w 2) (step (t 1) (w 1) (step (t 0) (w 0) (⊥, 0, 0))))).2.1
      = ∑ k, Ideal.div (Ideal.exp (t (e k).1 (e k).2 - Mref))
              (∑ k', Ideal.exp (t (e k').1 (e k').2 - Mref)) * w (e k).1 (e k).2 := by
  choose s hs using ht
  choose v hv using hw
  obtain ⟨M', rfl⟩ := hM
  obtain rfl : t = fun r j => (s r j : EReal) := funext fun r => funext fun j => hs r j
  obtain rfl : w = fun r j => (v r j : EReal) := funext fun r => funext fun j => hv r j
  exact online4_eq_softmax s v e M'

/-- … and that common value is a real number. -/
theorem online4_isReal [Nonempty ι] (t w : Fin 4 → ι → EReal)
    (ht : ∀ r j, IsReal (t r j)) (hw : ∀ r j, IsReal (w r j)) :
    IsReal (Ideal.div
        (step (t 3) (w 3) (step (t 2) (w 2) (step (t 1) (w 1) (step (t 0) (w 0) (⊥, 0, 0))))).2.2
        (step (t 3) (w 3) (step (t 2) (w 2) (step (t 1) (w 1) (step (t 0) (w 0) (⊥, 0, 0))))).2.1) := by
  choose s hs using ht
  choose v hv using hw
  obtain rfl : t = fun r j => (s r j : EReal) := funext fun r => funext fun j => hs r j
  obtain rfl : w = fun r j => (v r j : EReal) := funext fun r => funext fun j => hv r j
  have h := run_answer_real (ext4 s) (ext4 v) 3 0
  simp only [ext4_coe] at h
  exact ⟨_, h⟩

end OfIsReal

end Cert.Softmax
-- ==== Proof.KI.Heads.lean ====
import proofs.«105011_j8443905704227_2_alg».proof.Proof.KI.Spec
import proofs.«105011_j8443905704227_2_alg».proof.Proof.KI.Softmax
import Mathlib.Tactic

/-!
# Features as (head, coordinate), and the projected arrays as real arrays

A feature index 64·h + d is a head h and a coordinate d of it, so a sum over the 768 features is a
sum over the 12 heads of the sums over their 64 coordinates. For real activations and weights every
projected entry is a finite sum of products of reals: a real; so are the scaled scores.
-/

noncomputable section

namespace Cert.Heads

open Idealize.ShloMosaic Idealize.ShloMosaic.ValueIdx
open Cert.Spec Cert.Softmax
open scoped BigOperators

/-- A feature as its head and its coordinate in the head. -/
def featSplit : Fin 768 ≃ Fin 12 × Fin 64 where
  toFun c := (headOf c, coordOf c)
  invFun p := headCol p.1 p.2
  left_inv c := headCol_headOf_coordOf c
  right_inv p := Prod.ext (headOf_headCol p.1 p.2) (coordOf_headCol p.1 p.2)

@[simp] theorem featSplit_apply (c : Fin 768) : featSplit c = (headOf c, coordOf c) := rfl
@[simp] theorem featSplit_symm_apply (h : Fin 12) (d : Fin 64) : featSplit.symm (h, d) = headCol h d := rfl

/-- A sum over the features is the sum over the heads of the sums over their coordinates. -/
theorem sum_features {M : Type*} [AddCommMonoid M] (f : Fin 768 → M) :
    ∑ c : Fin 768, f c = ∑ h : Fin 12, ∑ d : Fin 64, f (headCol h d) :=
  calc ∑ c : Fin 768, f c
      = ∑ p : Fin 12 × Fin 64, f (headCol p.1 p.2) :=
        Fintype.sum_equiv featSplit _ _ (fun c => congrArg f (headCol_headOf_coordOf c).symm)
    _ = ∑ h : Fin 12, ∑ d : Fin 64, f (headCol h d) := Fintype.sum_prod_type _

/-- The same for a summand written with the feature's head and coordinate. -/
theorem sum_features' {M : Type*} [AddCommMonoid M] (g : Fin 12 → Fin 64 → Fin 768 → M) :
    ∑ c : Fin 768, g (headOf c) (coordOf c) c = ∑ h : Fin 12, ∑ d : Fin 64, g h d (headCol h d) := by
  rw [sum_features]
  exact Finset.sum_congr rfl fun h _ => Finset.sum_congr rfl fun d _ => by
    rw [headOf_headCol, coordOf_headCol]

/-! ## The projected arrays and the scores are real -/

variable (X : SX.Idx → ℝ) (Wq : SWq.Idx → ℝ)

/-- The s-th projection as a real number. -/
def qkvR (s : Fin 3) (b : Fin 4) (n : Fin 2048) (f : Fin 768) : ℝ :=
  ∑ k : Fin 768, X (ix3 b n k) * Wq (ix2 (qkvRow s f) k)

theorem qkvS_coe (s : Fin 3) (b : Fin 4) (n : Fin 2048) (f : Fin 768) :
    qkvS (fun i => (X i : EReal)) (fun i => (Wq i : EReal)) s b n f = ((qkvR X Wq s b n f : ℝ) : EReal) := by
  unfold qkvS qkvR
  exact sum_coe_mul_coe _ (fun k => X (ix3 b n k)) (fun k => Wq (ix2 (qkvRow s f) k))

/-- The projected array 3 × 4 × 2048 × 768 is a real array. -/
theorem exists_real_qkv :
    ∃ Q : (⟨4, ![3, 4, 2048, 768]⟩ : Shape).Idx → ℝ, ∀ i : (⟨4, ![3, 4, 2048, 768]⟩ : Shape).Idx,
      qkvS (fun i => (X i : EReal)) (fun i => (Wq i : EReal)) (i 0) (i 1) (i 2) (i 3) = (Q i : EReal) :=
  ⟨fun i => qkvR X Wq (i 0) (i 1) (i 2) (i 3), fun i => qkvS_coe X Wq (i 0) (i 1) (i 2) (i 3)⟩

/-- The scaled score as a real number. -/
def scoreR (b : Fin 4) (h : Fin 12) (i j : Fin 2048) : ℝ :=
  (∑ d : Fin 64, qkvR X Wq 0 b i (headCol h d) * qkvR X Wq 1 b j (headCol h d)) * (1 / 8)

theorem scoreS_coe (b : Fin 4) (h : Fin 12) (i j : Fin 2048) :
    scoreS (fun i => (X i : EReal)) (fun i => (Wq i : EReal)) b h i j = ((scoreR X Wq b h i j : ℝ) : EReal) := by
  unfold scoreS scoreR
  simp only [qkvS_coe, scale_eq]
  rw [sum_coe_mul_coe, ← EReal.coe_mul]

/-- A row's maximum score is a real number. -/
theorem isReal_rowMaxS (b : Fin 4) (h : Fin 12) (i : Fin 2048) :
    IsReal (rowMaxS (fun i => (X i : EReal)) (fun i => (Wq i : EReal)) b h i) := by
  rw [rowMaxS_eq_fold]
  exact isReal_fold_max _ Finset.univ_nonempty _ fun j => ⟨_, scoreS_coe X Wq b h i j⟩

/-- Every context entry is a real number: a softmax-weighted sum of real values. -/
theorem isReal_ctxS (b : Fin 4) (h : Fin 12) (i : Fin 2048) (d : Fin 64) :
    IsReal (ctxS (fun i => (X i : EReal)) (fun i => (Wq i : EReal)) b h i d) := by
  obtain ⟨C, hC⟩ := isReal_rowMaxS X Wq b h i
  unfold ctxS attnS rowSumS expS
  simp only [hC, scoreS_coe, qkvS_coe]
  exact ⟨_, softmax_ref_real (fun j => scoreR X Wq b h i j) (fun j => qkvR X Wq 2 b j (headCol h d)) C⟩

/-- Every result entry is a real number, for real output weights. -/
theorem isReal_outS (Wp : SWp.Idx → ℝ) (b : Fin 4) (n : Fin 2048) (o : Fin 768) :
    IsReal (outS (fun i => (X i : EReal)) (fun i => (Wq i : EReal)) (fun i => (Wp i : EReal)) b n o) := by
  unfold outS
  exact isReal_sum_mul _ _ _ (fun c _ => isReal_ctxS X Wq b (headOf c) n (coordOf c)) (fun c _ => isReal_coe _)

end Cert.Heads
-- ==== Proof.KI.Bridge.lean ====
/-
  The result of the three calls is the specification's function of the inputs.

  The output projection leaves, at (b, n, o), the sum over the twelve heads and each head's sixty-four columns of
  context times projection weight.  The context array it reads is what the attention call left: at (b, h, n, d) the
  online-softmax quotient of batch b's three slabs of the projected array.  The projected array is what the first
  call left: x · wᵀ, slab by slab.  Given that the quotient over the projected array is the softmax-weighted sum the
  specification writes, a sum over 768 features regrouped as 12 heads of 64 closes the chain.
-/
import proofs.«105011_j8443905704227_2_alg».proof.Proof.KI.Run
import proofs.«105011_j8443905704227_2_alg».proof.Proof.KI.R0Value
import proofs.«105011_j8443905704227_2_alg».proof.Proof.KI.R1BlocksB
import proofs.«105011_j8443905704227_2_alg».proof.Proof.KI.R2Value
import proofs.«105011_j8443905704227_2_alg».proof.Proof.KI.Spec
import proofs.«105011_j8443905704227_2_alg».proof.Proof.KI.Heads

set_option maxRecDepth 16384

noncomputable section

namespace Cert.KernelIdeal.Hand

open Cert.KernelIdeal Cert.KernelIdeal.Gen Cert.KernelIdeal.HandB
open Idealize.ShloMosaic Idealize.ShloMosaic.TcCoe Idealize.ShloMosaic.ValueIdx
open Idealize.ShloMosaic.Pipeline (Dat)
open Cert.Spec Cert.Heads
open scoped BigOperators

variable (m : (ℓ : Loc nD τ sig) → Buf (Elt Ideal) ℓ)

/-- What the attention call finds in the projected array: the first call's x · wᵀ. -/
theorem entry1_qkv (c : Dev nD) :
    V1 m c main_v0 = qkvArr (m ((c.tc : Thread nD τ).loc main_arg0)) (m ((c.tc : Thread nD τ).loc main_arg1)) :=
  (W1_arr m c 2).trans (arr0_2_eq (V0 m) c)

/-- What the output projection finds in the context array: the attention call's quotient over that. -/
theorem entry2_ctx (c : Dev nD) : V2 m c main_v1 = ctxArrOf (V1 m c main_v0) :=
  (W2_v1 m c).trans (arr1_3_eq (V1 m) c)

/-- And in the projection weight: the third argument, untouched. -/
theorem entry2_wp (c : Dev nD) : V2 m c main_arg2 = m ((c.tc : Thread nD τ).loc main_arg2) :=
  (W2_of_ne m c main_arg2 (by decide)).trans (W1_of_ne m c main_arg2 (by decide))

/-- The sum over heads and their columns, with the context and the weight given as plain arrays. -/
def outOf (ctx : S4x12x2048x64.Idx → EReal) (wp : S768x768.Idx → EReal) (b : Fin 4) (n : Fin 2048) (o : Fin 768) : EReal :=
  ∑ h : Fin 12, ∑ d : Fin 64, ctx (ix4 b h n d) * wp (ix2 o (headCol h d))

/-- Regrouping: given that the attention quotient over the projected array is the specification's context, the sum
    over heads and their columns is the specification's sum over the 768 merged features. -/
theorem outOf_eq_outS (x : S4x2048x768.Idx → EReal) (wq : S2304x768.Idx → EReal) (wp : S768x768.Idx → EReal)
    (hctx : ∀ (b : Fin 4) (h : Fin 12) (n : Fin 2048) (d : Fin 64), ctxAt (qkvArr x wq) b h n d = ctxS x wq b h n d)
    (b : Fin 4) (n : Fin 2048) (o : Fin 768) :
    outOf (ctxArrOf (qkvArr x wq)) wp b n o = outS x wq wp b n o := by
  unfold outOf outS
  rw [sum_features' (fun h d c' => ctxS x wq b h n d * wp (ix2 o c'))]
  refine Finset.sum_congr rfl fun h _ => Finset.sum_congr rfl fun d _ => ?_
  show ctxAt (qkvArr x wq) b h n d * _ = _
  rw [hctx]

/-- The result array after the three calls, element by element. -/
theorem result_apply (c : Dev nD) (b : Fin 4) (n : Fin 2048) (o : Fin 768) :
    (dat2 (F := Ideal) (V2 m) c).arrAt 2 cfg2.N (ix3 b n o)
      = outOf (ctxArrOf (qkvArr (m ((c.tc : Thread nD τ).loc main_arg0)) (m ((c.tc : Thread nD τ).loc main_arg1))))
          (m ((c.tc : Thread nD τ).loc main_arg2)) b n o := by
  refine (value2 (V2 m) c b n o).trans ?_
  have e1 : ctxA (V2 m) c = ctxArrOf (qkvArr (m ((c.tc : Thread nD τ).loc main_arg0)) (m ((c.tc : Thread nD τ).loc main_arg1))) :=
    (entry2_ctx m c).trans (congrArg ctxArrOf (entry1_qkv m c))
  have e2 : wgtA (V2 m) c = m ((c.tc : Thread nD τ).loc main_arg2) := entry2_wp m c
  rw [e1, e2]
  rfl

/-- THE RESULT IS THE SPECIFICATION, given that the attention quotient over the projected array is the
    specification's context (`hctx`). -/
theorem result_is_spec (c : Dev nD)
    (hctx : ∀ (b : Fin 4) (h : Fin 12) (n : Fin 2048) (d : Fin 64),
      ctxAt (qkvArr (m ((c.tc : Thread nD τ).loc main_arg0)) (m ((c.tc : Thread nD τ).loc main_arg1))) b h n d
        = ctxS (m ((c.tc : Thread nD τ).loc main_arg0)) (m ((c.tc : Thread nD τ).loc main_arg1)) b h n d) :
    (dat2 (F := Ideal) (V2 m) c).arrAt 2 cfg2.N
      = outArr (m ((c.tc : Thread nD τ).loc main_arg0)) (m ((c.tc : Thread nD τ).loc main_arg1)) (m ((c.tc : Thread nD τ).loc main_arg2)) := by
  funext i
  obtain ⟨b, n, o, rfl⟩ : ∃ (b : Fin 4) (n : Fin 2048) (o : Fin 768), i = ix3 b n o := ⟨i 0, i 1, i 2, eq_ix3 i⟩
  rw [result_apply]
  exact outOf_eq_outS _ _ _ hctx b n o

end Cert.KernelIdeal.Hand

end
-- ==== Proof.KI.CtxOnline.lean ====
import proofs.«105011_j8443905704227_2_alg».proof.Proof.KI.Spec
import proofs.«105011_j8443905704227_2_alg».proof.Proof.KI.Softmax
import proofs.«105011_j8443905704227_2_alg».proof.Proof.KI.Heads

/-!
# The context entry as the running form over four chunks of keys

For real activations and weights, the softmax-weighted sum that defines a context entry is the final
quotient of the running form over the keys taken in four chunks of 512: key 512·r + j is place j of
chunk r.
-/

noncomputable section

namespace Cert.Softmax

variable {ι : Type*} [Fintype ι]

/-- The running form's state after four chunks, from (-∞, 0, 0). -/
def nest4 (t w : Fin 4 → ι → EReal) : EReal × EReal × EReal :=
  step (t 3) (w 3) (step (t 2) (w 2) (step (t 1) (w 1) (step (t 0) (w 0) (⊥, 0, 0))))

theorem nest4_def (t w : Fin 4 → ι → EReal) :
    nest4 t w = step (t 3) (w 3) (step (t 2) (w 2) (step (t 1) (w 1) (step (t 0) (w 0) (⊥, 0, 0)))) := rfl

/-- The four-chunk theorem, for the named state. -/
theorem nest4_eq_softmax_of_isReal [Nonempty ι] {κ : Type*} [Fintype κ] (t w : Fin 4 → ι → EReal)
    (ht : ∀ r j, IsReal (t r j)) (hw : ∀ r j, IsReal (w r j)) (e : κ ≃ Fin 4 × ι)
    (Mref : EReal) (hM : IsReal Mref) :
    Idealize.ShloMosaic.Ideal.div (nest4 t w).2.2 (nest4 t w).2.1
      = ∑ k, Idealize.ShloMosaic.Ideal.div (Idealize.ShloMosaic.Ideal.exp (t (e k).1 (e k).2 - Mref))
              (∑ k', Idealize.ShloMosaic.Ideal.exp (t (e k').1 (e k').2 - Mref)) * w (e k).1 (e k).2 :=
  online4_eq_softmax_of_isReal t w ht hw e Mref hM

theorem nest4_isReal [Nonempty ι] (t w : Fin 4 → ι → EReal)
    (ht : ∀ r j, IsReal (t r j)) (hw : ∀ r j, IsReal (w r j)) :
    IsReal (Idealize.ShloMosaic.Ideal.div (nest4 t w).2.2 (nest4 t w).2.1) :=
  online4_isReal t w ht hw

end Cert.Softmax

namespace Cert.Heads

open Idealize.ShloMosaic Idealize.ShloMosaic.ValueIdx
open Cert.Spec Cert.Softmax
open scoped BigOperators

/-- The context entry is the running form's final quotient over the four chunks of keys, for arrays
    of extended reals whose entries are real numbers. -/
theorem ctxS_eq_online4_of_isReal (x : SX.Idx → EReal) (wq : SWq.Idx → EReal)
    (hx : ∀ i, IsReal (x i)) (hwq : ∀ i, IsReal (wq i))
    (b : Fin 4) (h : Fin 12) (i : Fin 2048) (d : Fin 64) :
    ctxS x wq b h i d
      = Ideal.div
          (nest4 (fun (r : Fin 4) (j : Fin 512) => scoreS x wq b h i (keySplit.symm (r, j)))
            (fun (r : Fin 4) (j : Fin 512) => qkvS x wq 2 b (keySplit.symm (r, j)) (headCol h d))).2.2
          (nest4 (fun (r : Fin 4) (j : Fin 512) => scoreS x wq b h i (keySplit.symm (r, j)))
            (fun (r : Fin 4) (j : Fin 512) => qkvS x wq 2 b (keySplit.symm (r, j)) (headCol h d))).2.1 := by
  choose X hX using hx
  choose Wq hWq using hwq
  obtain rfl : x = fun i => (X i : EReal) := funext hX
  obtain rfl : wq = fun i => (Wq i : EReal) := funext hWq
  rw [nest4_eq_softmax_of_isReal _ _ (fun r j => ⟨_, scoreS_coe X Wq b h i _⟩)
    (fun r j => ⟨_, qkvS_coe X Wq 2 b _ _⟩) keySplit
    (rowMaxS (fun i => (X i : EReal)) (fun i => (Wq i : EReal)) b h i) (isReal_rowMaxS X Wq b h i)]
  simp only [Prod.mk.eta, Equiv.symm_apply_apply]
  rfl

/-- The same for real arrays, coerced. -/
theorem ctxS_eq_online4 (X : SX.Idx → ℝ) (Wq : SWq.Idx → ℝ)
    (b : Fin 4) (h : Fin 12) (i : Fin 2048) (d : Fin 64) :
    ctxS (fun i => (X i : EReal)) (fun i => (Wq i : EReal)) b h i d
      = Ideal.div
          (nest4 (fun (r : Fin 4) (j : Fin 512) =>
              scoreS (fun i => (X i : EReal)) (fun i => (Wq i : EReal)) b h i (keySplit.symm (r, j)))
            (fun (r : Fin 4) (j : Fin 512) =>
              qkvS (fun i => (X i : EReal)) (fun i => (Wq i : EReal)) 2 b (keySplit.symm (r, j)) (headCol h d))).2.2
          (nest4 (fun (r : Fin 4) (j : Fin 512) =>
              scoreS (fun i => (X i : EReal)) (fun i => (Wq i : EReal)) b h i (keySplit.symm (r, j)))
            (fun (r : Fin 4) (j : Fin 512) =>
              qkvS (fun i => (X i : EReal)) (fun i => (Wq i : EReal)) 2 b (keySplit.symm (r, j)) (headCol h d))).2.1 :=
  ctxS_eq_online4_of_isReal _ _ (fun i => isReal_coe (X i)) (fun i => isReal_coe (Wq i)) b h i d

end Cert.Heads
-- ==== Proof.KI.R1Payload.lean ====
import proofs.«105011_j8443905704227_2_alg».proof.Proof.KI.R1Body
import proofs.«105011_j8443905704227_2_alg».proof.Proof.KI.Spec
import proofs.«105011_j8443905704227_2_alg».proof.Proof.KI.Softmax
import proofs.«105011_j8443905704227_2_alg».proof.Proof.KI.CtxOnline
import Idealize.ShloMosaic.Lib.Pipeline.Value
import Idealize.ShloMosaic.Lib.ValueIdx
import Idealize.ShloMosaic.Lib.ValueLayout
import Idealize.ShloMosaic.PureOps.Ideal.Laws

/-!
# The attention call at one grid point, on the extended reals

At grid point (b, h) the body holds the query, key and value slabs of batch b (each 2048 × 768) and uses
the 64 lanes of head h. It computes, for every query row n, the softmax-weighted sum of the value rows in
the running form: four chunks of 512 keys, each updating a running maximum m, a running denominator l and
a running numerator acc by m' = max m (chunk maximum), l' = exp (m − m') · l + ∑ exp (s − m'),
acc' = exp (m − m') · acc + ∑ exp (s − m') · v, and finally stores acc / l. Here: each array operation of
the body read at an index, one chunk's update as the scalar step on (m, l, acc), the four chunks composed,
and, for slabs whose entries are real numbers, the stored value as the softmax-weighted sum over all 2048
keys.
-/

set_option maxRecDepth 16384

noncomputable section

namespace Cert.KernelIdeal.Hand

open Cert.KernelIdeal Cert.KernelIdeal.Gen
open Idealize.ShloMosaic Idealize.ShloMosaic.ValueIdx
open scoped BigOperators

/-! ## The array operations of the body read at an index -/

/-- Dropping the two leading unit axes of a 1 × 1 × 2048 × 64 vector. -/
theorem cast_q_apply (v : Vec Ideal S1x1x2048x64 .bf16) (n : Fin 2048) (e : Fin 64) :
    shapeCast S2048x64 v shapeCasts_S1x1x2048x64_S2048x64 (ix2 n e) = v (ix4 (0 : Fin 1) (0 : Fin 1) n e) :=
  shapeCast_apply v shapeCasts_S1x1x2048x64_S2048x64 (ix2 n e) (ix4 (0 : Fin 1) (0 : Fin 1) n e)
    (by rw [Shape.rowMajor_val_four, Shape.rowMajor_val_two]
        show (((0 : Fin 1).val * 1 + (0 : Fin 1).val) * 2048 + n.val) * 64 + e.val = n.val * 64 + e.val; simp)

/-- Dropping the two leading unit axes of a 1 × 1 × 512 × 64 vector. -/
theorem cast_kv_apply (v : Vec Ideal S1x1x512x64 .bf16) (j : Fin 512) (e : Fin 64) :
    shapeCast S512x64 v shapeCasts_S1x1x512x64_S512x64 (ix2 j e) = v (ix4 (0 : Fin 1) (0 : Fin 1) j e) :=
  shapeCast_apply v shapeCasts_S1x1x512x64_S512x64 (ix2 j e) (ix4 (0 : Fin 1) (0 : Fin 1) j e)
    (by rw [Shape.rowMajor_val_four, Shape.rowMajor_val_two]
        show (((0 : Fin 1).val * 1 + (0 : Fin 1).val) * 512 + j.val) * 64 + e.val = j.val * 64 + e.val; simp)

/-- Adding the two leading unit axes back to a 2048 × 64 vector. -/
theorem cast_out_apply (x : FVec Ideal S2048x64 .f32) (u0 u1 : Fin 1) (n : Fin 2048) (d : Fin 64) :
    shapeCast S1x1x2048x64 x shapeCasts_S2048x64_S1x1x2048x64 (ix4 u0 u1 n d) = x (ix2 n d) :=
  shapeCast_apply x shapeCasts_S2048x64_S1x1x2048x64 (ix4 u0 u1 n d) (ix2 n d)
    (by rw [Shape.rowMajor_val_two, Shape.rowMajor_val_four]
        have h0 : u0.val = 0 := by omega
        have h1 : u1.val = 0 := by omega
        show n.val * 64 + d.val = ((u0.val * 1 + u1.val) * 2048 + n.val) * 64 + d.val; rw [h0, h1]; omega)

/-- A column of 2048 entries as a 2048 × 1 vector. -/
theorem cast_col_apply (x : FVec Ideal S2048 .f32) (n : Fin 2048) (u : Fin 1) :
    shapeCast S2048x1 x shapeCasts_S2048_S2048x1 (ix2 n u) = x (ix1 n) :=
  shapeCast_apply x shapeCasts_S2048_S2048x1 (ix2 n u) (ix1 n)
    (by rw [Shape.rowMajor_val_one, Shape.rowMajor_val_two]
        have h0 : u.val = 0 := by omega
        show n.val = n.val * 1 + u.val; rw [h0]; omega)

/-- A 2048 × 1 column broadcast along 512 lanes. -/
theorem bcast512_apply (m : FVec Ideal S2048x1 .f32) (n : Fin 2048) (j : Fin 512) :
    broadcastTo S2048x512 m broadcasts_S2048x1_S2048x512 (ix2 n j) = m (ix2 n (0 : Fin 1)) := by
  refine broadcastTo_apply m broadcasts_S2048x1_S2048x512 (ix2 n j) (ix2 n (0 : Fin 1)) fun ax => ?_
  match ax with
  | ⟨0, _⟩ => rfl
  | ⟨1, _⟩ => rfl

/-- A 2048 × 1 column broadcast along 64 lanes. -/
theorem bcast64_apply (m : FVec Ideal S2048x1 .f32) (n : Fin 2048) (d : Fin 64) :
    broadcastTo S2048x64 m broadcasts_S2048x1_S2048x64 (ix2 n d) = m (ix2 n (0 : Fin 1)) := by
  refine broadcastTo_apply m broadcasts_S2048x1_S2048x64 (ix2 n d) (ix2 n (0 : Fin 1)) fun ax => ?_
  match ax with
  | ⟨0, _⟩ => rfl
  | ⟨1, _⟩ => rfl

theorem dotQK_lhs0 (j : S2048x512.Idx) (q : dot_S2048x64_S512x64_S2048x512_1_1_0_0_n_n.contr.Idx) : (dot_S2048x64_S512x64_S2048x512_1_1_0_0_n_n.lhsIdx j q 0).val = (j 0).val := by
  unfold DotDims.lhsIdx
  rw [dif_neg (show ¬(0 : Fin S2048x64.rank) ∈ dot_S2048x64_S512x64_S2048x512_1_1_0_0_n_n.lhsBatch by decide), dif_pos (show (0 : Fin S2048x64.rank) ∈ dot_S2048x64_S512x64_S2048x512_1_1_0_0_n_n.lhsNonContracting by decide)]
  rfl
theorem dotQK_lhs1 (j : S2048x512.Idx) (q : dot_S2048x64_S512x64_S2048x512_1_1_0_0_n_n.contr.Idx) : (dot_S2048x64_S512x64_S2048x512_1_1_0_0_n_n.lhsIdx j q 1).val = (q ⟨0, by decide⟩).val :=
  dot_S2048x64_S512x64_S2048x512_1_1_0_0_n_n.lhsIdx_val_of_single rfl j q
theorem dotQK_rhs0 (j : S2048x512.Idx) (q : dot_S2048x64_S512x64_S2048x512_1_1_0_0_n_n.contr.Idx) : (dot_S2048x64_S512x64_S2048x512_1_1_0_0_n_n.rhsIdx j q 0).val = (j 1).val := by
  unfold DotDims.rhsIdx
  rw [dif_neg (show ¬(0 : Fin S512x64.rank) ∈ dot_S2048x64_S512x64_S2048x512_1_1_0_0_n_n.rhsBatch by decide), dif_pos (show (0 : Fin S512x64.rank) ∈ dot_S2048x64_S512x64_S2048x512_1_1_0_0_n_n.rhsNonContracting by decide)]
  rfl
theorem dotQK_rhs1 (j : S2048x512.Idx) (q : dot_S2048x64_S512x64_S2048x512_1_1_0_0_n_n.contr.Idx) : (dot_S2048x64_S512x64_S2048x512_1_1_0_0_n_n.rhsIdx j q 1).val = (q ⟨0, by decide⟩).val :=
  dot_S2048x64_S512x64_S2048x512_1_1_0_0_n_n.rhsIdx_val_of_single rfl j q

/-- The product of the queries with a chunk of keys, from zero, at (n, j): the sum over the head's 64 coordinates. -/
theorem matmulQK_apply (l : FVec Ideal S2048x64 .bf16) (r : FVec Ideal S512x64 .bf16) (n : Fin 2048) (j : Fin 512) :
    matmul dot_S2048x64_S512x64_S2048x512_1_1_0_0_n_n none l r (constant (F := Ideal) S2048x512 .f32 0x00000000#32) (ix2 n j)
      = ∑ e : Fin 64, l (ix2 n e) * r (ix2 j e) := by
  show FloatOps.matmul (F := Ideal) dot_S2048x64_S512x64_S2048x512_1_1_0_0_n_n none l r (constant S2048x512 .f32 0x00000000#32) (ix2 n j) = _
  rw [Ideal.matmul_constant_zero_apply, ← Equiv.sum_comp (contrEquiv1 dot_S2048x64_S512x64_S2048x512_1_1_0_0_n_n 64 rfl rfl).symm]
  refine Finset.sum_congr rfl fun k _ => ?_
  have hk := contrEquiv1_symm_val dot_S2048x64_S512x64_S2048x512_1_1_0_0_n_n 64 rfl rfl k
  have el : dot_S2048x64_S512x64_S2048x512_1_1_0_0_n_n.lhsIdx (ix2 n j) ((contrEquiv1 dot_S2048x64_S512x64_S2048x512_1_1_0_0_n_n 64 rfl rfl).symm k) = ix2 n k := funext fun a => Fin.ext (by
    match a with
    | ⟨0, _⟩ => exact dotQK_lhs0 _ _
    | ⟨1, _⟩ => exact (dotQK_lhs1 _ _).trans hk)
  have er : dot_S2048x64_S512x64_S2048x512_1_1_0_0_n_n.rhsIdx (ix2 n j) ((contrEquiv1 dot_S2048x64_S512x64_S2048x512_1_1_0_0_n_n 64 rfl rfl).symm k) = ix2 j k := funext fun a => Fin.ext (by
    match a with
    | ⟨0, _⟩ => exact dotQK_rhs0 _ _
    | ⟨1, _⟩ => exact (dotQK_rhs1 _ _).trans hk)
  rw [el, er]

theorem dotPV_lhs0 (j : S2048x64.Idx) (q : dot_S2048x512_S512x64_S2048x64_1_0_0_1_n_n.contr.Idx) : (dot_S2048x512_S512x64_S2048x64_1_0_0_1_n_n.lhsIdx j q 0).val = (j 0).val := by
  unfold DotDims.lhsIdx
  rw [dif_neg (show ¬(0 : Fin S2048x512.rank) ∈ dot_S2048x512_S512x64_S2048x64_1_0_0_1_n_n.lhsBatch by decide), dif_pos (show (0 : Fin S2048x512.rank) ∈ dot_S2048x512_S512x64_S2048x64_1_0_0_1_n_n.lhsNonContracting by decide)]
  rfl
theorem dotPV_lhs1 (j : S2048x64.Idx) (q : dot_S2048x512_S512x64_S2048x64_1_0_0_1_n_n.contr.Idx) : (dot_S2048x512_S512x64_S2048x64_1_0_0_1_n_n.lhsIdx j q 1).val = (q ⟨0, by decide⟩).val :=
  dot_S2048x512_S512x64_S2048x64_1_0_0_1_n_n.lhsIdx_val_of_single rfl j q
theorem dotPV_rhs0 (j : S2048x64.Idx) (q : dot_S2048x512_S512x64_S2048x64_1_0_0_1_n_n.contr.Idx) : (dot_S2048x512_S512x64_S2048x64_1_0_0_1_n_n.rhsIdx j q 0).val = (q ⟨0, by decide⟩).val :=
  dot_S2048x512_S512x64_S2048x64_1_0_0_1_n_n.rhsIdx_val_of_single rfl j q
theorem dotPV_rhs1 (j : S2048x64.Idx) (q : dot_S2048x512_S512x64_S2048x64_1_0_0_1_n_n.contr.Idx) : (dot_S2048x512_S512x64_S2048x64_1_0_0_1_n_n.rhsIdx j q 1).val = (j 1).val := by
  unfold DotDims.rhsIdx
  rw [dif_neg (show ¬(1 : Fin S512x64.rank) ∈ dot_S2048x512_S512x64_S2048x64_1_0_0_1_n_n.rhsBatch by decide), dif_pos (show (1 : Fin S512x64.rank) ∈ dot_S2048x512_S512x64_S2048x64_1_0_0_1_n_n.rhsNonContracting by decide)]
  rfl

/-- The product of a chunk's weights with the chunk's values, from zero, at (n, d): the sum over the 512 keys. -/
theorem matmulPV_apply (l : FVec Ideal S2048x512 .bf16) (r : FVec Ideal S512x64 .bf16) (n : Fin 2048) (d : Fin 64) :
    matmul dot_S2048x512_S512x64_S2048x64_1_0_0_1_n_n none l r (constant (F := Ideal) S2048x64 .f32 0x00000000#32) (ix2 n d)
      = ∑ j : Fin 512, l (ix2 n j) * r (ix2 j d) := by
  show FloatOps.matmul (F := Ideal) dot_S2048x512_S512x64_S2048x64_1_0_0_1_n_n none l r (constant S2048x64 .f32 0x00000000#32) (ix2 n d) = _
  rw [Ideal.matmul_constant_zero_apply, ← Equiv.sum_comp (contrEquiv1 dot_S2048x512_S512x64_S2048x64_1_0_0_1_n_n 512 rfl rfl).symm]
  refine Finset.sum_congr rfl fun k _ => ?_
  have hk := contrEquiv1_symm_val dot_S2048x512_S512x64_S2048x64_1_0_0_1_n_n 512 rfl rfl k
  have el : dot_S2048x512_S512x64_S2048x64_1_0_0_1_n_n.lhsIdx (ix2 n d) ((contrEquiv1 dot_S2048x512_S512x64_S2048x64_1_0_0_1_n_n 512 rfl rfl).symm k) = ix2 n k := funext fun a => Fin.ext (by
    match a with
    | ⟨0, _⟩ => exact dotPV_lhs0 _ _
    | ⟨1, _⟩ => exact (dotPV_lhs1 _ _).trans hk)
  have er : dot_S2048x512_S512x64_S2048x64_1_0_0_1_n_n.rhsIdx (ix2 n d) ((contrEquiv1 dot_S2048x512_S512x64_S2048x64_1_0_0_1_n_n 512 rfl rfl).symm k) = ix2 k d := funext fun a => Fin.ext (by
    match a with
    | ⟨0, _⟩ => exact (dotPV_rhs0 _ _).trans hk
    | ⟨1, _⟩ => exact dotPV_rhs1 _ _)
  rw [el, er]

/-- The key (n, j) put back on the lane axis of a reduced row index. -/
theorem lift_row_ix (hR : S2048x512.Reduces [1] S2048) (n : Fin 2048) (k : Fin (S2048x512.size 1)) :
    hR.lift (ix1 n) k = ix2 n (⟨k.val, k.isLt⟩ : Fin 512) := by
  funext c; apply Fin.ext
  fin_cases c <;> rfl

/-- A row's maximum over its 512 lanes, from −∞. -/
theorem rowmax_apply (T : FVec Ideal S2048x512 .f32) (n : Fin 2048) :
    multiReduction (F := Ideal) .maximumf [1] S2048 T 0xFF800000#32 reduces_S2048x512_S2048 (.inl rfl) rfl (ix1 n)
      = Finset.univ.fold max (⊥ : EReal) fun j : Fin 512 => T (ix2 n j) := by
  refine (Ideal.multiReduction_maximumf_single T 0xFF800000#32 reduces_S2048x512_S2048 (.inl rfl) rfl (ix1 n)).trans ?_
  have hf : (T ∘ reduces_S2048x512_S2048.lift (ix1 n)) = fun j : Fin 512 => T (ix2 n j) :=
    funext fun k => congrArg T (lift_row_ix reduces_S2048x512_S2048 n k)
  have hb : FloatOps.ofBits (F := Ideal) .f32 0xFF800000#32 = (⊥ : EReal) := Cert.Spec.ofBits_neg_inf
  rw [hb]
  exact congrArg (fun f => Finset.fold max (⊥ : EReal) f (Finset.univ : Finset (Fin 512))) hf

/-- A row's sum over its 512 lanes. -/
theorem rowsum_apply (P : FVec Ideal S2048x512 .f32) (n : Fin 2048) :
    multiReduction (F := Ideal) .add [1] S2048 P 0x00000000#32 reduces_S2048x512_S2048 (.inl rfl) rfl (ix1 n)
      = ∑ j : Fin 512, P (ix2 n j) := by
  refine (Ideal.multiReduction_add_single P 0x00000000#32 reduces_S2048x512_S2048 (.inl rfl) rfl (ix1 n)).trans ?_
  exact Finset.sum_congr rfl fun k _ => congrArg P (lift_row_ix reduces_S2048x512_S2048 n k)

/-! ## One chunk of the running form -/

/-- The scaled scores of the queries against one chunk of keys. -/
def scoreMat (q : FVec Ideal S2048x64 .bf16) (kk : FVec Ideal S512x64 .bf16) : FVec Ideal S2048x512 .f32 :=
  mulf (matmul dot_S2048x64_S512x64_S2048x512_1_1_0_0_n_n none q kk (constant (F := Ideal) S2048x512 .f32 0x00000000#32))
    (broadcast S2048x512 (Scalar.ofBits (F := Ideal) .f32 0x3E000000#32))

theorem scoreMat_apply (q : FVec Ideal S2048x64 .bf16) (kk : FVec Ideal S512x64 .bf16) (n : Fin 2048) (j : Fin 512) :
    scoreMat q kk (ix2 n j) = (∑ e : Fin 64, q (ix2 n e) * kk (ix2 j e)) * Ideal.ofBits .f32 0x3E000000#32 := by
  unfold scoreMat
  rw [mulf_apply, matmulQK_apply]
  rfl

/-- The new running maximum: the old one against the chunk's row maxima. -/
def mNew (m : FVec Ideal S2048x1 .f32) (S : FVec Ideal S2048x512 .f32) : FVec Ideal S2048x1 .f32 :=
  maximumf m (shapeCast S2048x1 (multiReduction (F := Ideal) .maximumf [1] S2048 S 0xFF800000#32 reduces_S2048x512_S2048 (.inl rfl) rfl) shapeCasts_S2048_S2048x1)

/-- The factor exp (m − m') that rescales the running sums. -/
def alphaOf (m : FVec Ideal S2048x1 .f32) (S : FVec Ideal S2048x512 .f32) : FVec Ideal S2048x1 .f32 :=
  exp (subf m (mNew m S))

/-- The chunk's exponentials exp (s − m'). -/
def pMat (m : FVec Ideal S2048x1 .f32) (S : FVec Ideal S2048x512 .f32) : FVec Ideal S2048x512 .f32 :=
  exp (subf S (broadcastTo S2048x512 (mNew m S) broadcasts_S2048x1_S2048x512))

/-- The new running denominator. -/
def lNew (m l : FVec Ideal S2048x1 .f32) (S : FVec Ideal S2048x512 .f32) : FVec Ideal S2048x1 .f32 :=
  addf (mulf (alphaOf m S) l)
    (shapeCast S2048x1 (multiReduction (F := Ideal) .add [1] S2048 (pMat m S) 0x00000000#32 reduces_S2048x512_S2048 (.inl rfl) rfl) shapeCasts_S2048_S2048x1)

/-- The new running numerator. -/
def aNew (m : FVec Ideal S2048x1 .f32) (a : FVec Ideal S2048x64 .f32) (S : FVec Ideal S2048x512 .f32) (vv : FVec Ideal S512x64 .bf16) :
    FVec Ideal S2048x64 .f32 :=
  addf (mulf (broadcastTo S2048x64 (alphaOf m S) broadcasts_S2048x1_S2048x64) a)
    (matmul dot_S2048x512_S512x64_S2048x64_1_0_0_1_n_n none (truncf .bf16 (pMat m S) bitsLt_bf16_f32) vv (constant (F := Ideal) S2048x64 .f32 0x00000000#32))

theorem mNew_apply (m : FVec Ideal S2048x1 .f32) (S : FVec Ideal S2048x512 .f32) (n : Fin 2048) (u : Fin 1) :
    mNew m S (ix2 n u) = max (m (ix2 n u)) (Finset.univ.fold max (⊥ : EReal) fun j : Fin 512 => S (ix2 n j)) := by
  unfold mNew
  rw [maximumf_apply, cast_col_apply, rowmax_apply]

theorem alphaOf_apply (m : FVec Ideal S2048x1 .f32) (S : FVec Ideal S2048x512 .f32) (n : Fin 2048) (u : Fin 1) :
    alphaOf m S (ix2 n u) = Ideal.exp (m (ix2 n u) - mNew m S (ix2 n u)) := rfl

theorem pMat_apply (m : FVec Ideal S2048x1 .f32) (S : FVec Ideal S2048x512 .f32) (n : Fin 2048) (j : Fin 512) :
    pMat m S (ix2 n j) = Ideal.exp (S (ix2 n j) - mNew m S (ix2 n (0 : Fin 1))) := by
  unfold pMat
  show Ideal.exp (S (ix2 n j) - broadcastTo S2048x512 (mNew m S) broadcasts_S2048x1_S2048x512 (ix2 n j)) = _
  rw [bcast512_apply]

theorem lNew_apply (m l : FVec Ideal S2048x1 .f32) (S : FVec Ideal S2048x512 .f32) (n : Fin 2048) (u : Fin 1) :
    lNew m l S (ix2 n u) = alphaOf m S (ix2 n u) * l (ix2 n u) + ∑ j : Fin 512, pMat m S (ix2 n j) := by
  unfold lNew
  rw [addf_apply, mulf_apply, cast_col_apply, rowsum_apply]

theorem aNew_apply (m : FVec Ideal S2048x1 .f32) (a : FVec Ideal S2048x64 .f32) (S : FVec Ideal S2048x512 .f32)
    (vv : FVec Ideal S512x64 .bf16) (n : Fin 2048) (d : Fin 64) :
    aNew m a S vv (ix2 n d)
      = alphaOf m S (ix2 n (0 : Fin 1)) * a (ix2 n d) + ∑ j : Fin 512, pMat m S (ix2 n j) * vv (ix2 j d) := by
  unfold aNew
  rw [addf_apply, mulf_apply, bcast64_apply, matmulPV_apply]
  rfl

/-- One chunk, read at row n and column d, is the scalar step on (m, l, acc) with the row's scores and the
    column's values. -/
theorem chunk_step (m l : FVec Ideal S2048x1 .f32) (a : FVec Ideal S2048x64 .f32) (S : FVec Ideal S2048x512 .f32)
    (vv : FVec Ideal S512x64 .bf16) (n : Fin 2048) (d : Fin 64) :
    (mNew m S (ix2 n (0 : Fin 1)), lNew m l S (ix2 n (0 : Fin 1)), aNew m a S vv (ix2 n d))
      = Cert.Softmax.step (fun j : Fin 512 => S (ix2 n j)) (fun j : Fin 512 => vv (ix2 j d))
          (m (ix2 n (0 : Fin 1)), l (ix2 n (0 : Fin 1)), a (ix2 n d)) := by
  unfold Cert.Softmax.step
  simp only [lNew_apply, aNew_apply, alphaOf_apply, pMat_apply, mNew_apply]

/-! ## The body's payloads are the chunk operations -/

/-- A loaded 1 × 1 × 512 × 64 chunk as a 512 × 64 matrix. -/
abbrev castKV (v : Vec Ideal S1x1x512x64 .bf16) : FVec Ideal S512x64 .bf16 :=
  shapeCast S512x64 v shapeCasts_S1x1x512x64_S512x64
/-- The zero column the running denominator starts from. -/
abbrev zeroCol : FVec Ideal S2048x1 .f32 := broadcast S2048x1 (Scalar.ofBits (F := Ideal) .f32 0x00000000#32)
/-- The zero matrix the running numerator starts from. -/
abbrev zeroAcc : FVec Ideal S2048x64 .f32 := broadcast S2048x64 (Scalar.ofBits (F := Ideal) .f32 0x00000000#32)

theorem pay2_apply (q3 : Vec Ideal S1x1x2048x64 .bf16) (n : Fin 2048) (e : Fin 64) :
    k1_pay2 (F := Ideal) q3 (ix2 n e) = q3 (ix4 (0 : Fin 1) (0 : Fin 1) n e) := cast_q_apply q3 n e

theorem pay5_eq (q3 : Vec Ideal S1x1x2048x64 .bf16) (k0 : Vec Ideal S1x1x512x64 .bf16) :
    k1_pay5 (F := Ideal) q3 k0 = mNew k1_pay3 (scoreMat (k1_pay2 q3) (castKV k0)) := rfl
theorem pay8_eq (q3 : Vec Ideal S1x1x2048x64 .bf16) (k0 : Vec Ideal S1x1x512x64 .bf16) :
    k1_pay8 (F := Ideal) q3 k0 = lNew k1_pay3 zeroCol (scoreMat (k1_pay2 q3) (castKV k0)) := rfl
theorem pay9_eq (q3 : Vec Ideal S1x1x2048x64 .bf16) (k0 v0 : Vec Ideal S1x1x512x64 .bf16) :
    k1_pay9 (F := Ideal) q3 k0 v0 = aNew k1_pay3 zeroAcc (scoreMat (k1_pay2 q3) (castKV k0)) (castKV v0) := rfl
theorem pay10_eq (k1 : Vec Ideal S1x1x512x64 .bf16) : k1_pay10 (F := Ideal) k1 = castKV k1 := rfl
theorem pay16_eq (v2 : Vec Ideal S1x1x512x64 .bf16) : k1_pay16 (F := Ideal) v2 = castKV v2 := rfl
theorem pay15_eq (q : FVec Ideal S2048x64 .bf16) (m : FVec Ideal S2048x1 .f32) (a : FVec Ideal S2048x64 .f32)
    (kk : FVec Ideal S512x64 .bf16) (v : Vec Ideal S1x1x512x64 .bf16) :
    k1_pay15 (F := Ideal) q m a kk v = aNew m a (scoreMat q kk) (castKV v) := rfl
theorem pay18_eq (q : FVec Ideal S2048x64 .bf16) (m : FVec Ideal S2048x1 .f32) (kk : FVec Ideal S512x64 .bf16)
    (k : Vec Ideal S1x1x512x64 .bf16) :
    k1_pay18 (F := Ideal) q m kk k = mNew (mNew m (scoreMat q kk)) (scoreMat q (castKV k)) := rfl
theorem pay19_eq (q : FVec Ideal S2048x64 .bf16) (m : FVec Ideal S2048x1 .f32) (kk : FVec Ideal S512x64 .bf16)
    (k : Vec Ideal S1x1x512x64 .bf16) :
    k1_pay19 (F := Ideal) q m kk k = alphaOf (mNew m (scoreMat q kk)) (scoreMat q (castKV k)) := rfl
theorem pay20_eq (q : FVec Ideal S2048x64 .bf16) (m : FVec Ideal S2048x1 .f32) (kk : FVec Ideal S512x64 .bf16)
    (k : Vec Ideal S1x1x512x64 .bf16) :
    k1_pay20 (F := Ideal) q m kk k = pMat (mNew m (scoreMat q kk)) (scoreMat q (castKV k)) := rfl
theorem pay21_eq (q : FVec Ideal S2048x64 .bf16) (m l : FVec Ideal S2048x1 .f32) (kk : FVec Ideal S512x64 .bf16)
    (k : Vec Ideal S1x1x512x64 .bf16) :
    k1_pay21 (F := Ideal) q m l kk k
      = mulf (alphaOf (mNew m (scoreMat q kk)) (scoreMat q (castKV k))) (lNew m l (scoreMat q kk)) := rfl
theorem pay22_eq (q : FVec Ideal S2048x64 .bf16) (m : FVec Ideal S2048x1 .f32) (kk : FVec Ideal S512x64 .bf16)
    (k : Vec Ideal S1x1x512x64 .bf16) :
    k1_pay22 (F := Ideal) q m kk k
      = multiReduction (F := Ideal) .add [1] S2048 (pMat (mNew m (scoreMat q kk)) (scoreMat q (castKV k))) 0x00000000#32 reduces_S2048x512_S2048 (.inl rfl) rfl := rfl

/-- The last payload: chunk 2's sums completed, chunk 3, and the final quotient. -/
theorem pay1_eq (q : FVec Ideal S2048x64 .bf16) (a1 : FVec Ideal S2048x64 .f32) (vv2 : FVec Ideal S512x64 .bf16)
    (m1 l1 : FVec Ideal S2048x1 .f32) (S2 : FVec Ideal S2048x512 .f32) (k3 v3 : Vec Ideal S1x1x512x64 .bf16) :
    k1_pay1 (F := Ideal) q a1 vv2 (mNew m1 S2) (alphaOf m1 S2) (pMat m1 S2) (mulf (alphaOf m1 S2) l1)
        (multiReduction (F := Ideal) .add [1] S2048 (pMat m1 S2) 0x00000000#32 reduces_S2048x512_S2048 (.inl rfl) rfl) k3 v3
      = shapeCast S1x1x2048x64
          (divf (aNew (mNew m1 S2) (aNew m1 a1 S2 vv2) (scoreMat q (castKV k3)) (castKV v3))
            (broadcastTo S2048x64 (lNew (mNew m1 S2) (lNew m1 l1 S2) (scoreMat q (castKV k3))) broadcasts_S2048x1_S2048x64))
          shapeCasts_S2048x64_S1x1x2048x64 := rfl

/-! ## The four chunks composed -/

/-- The scaled scores of query row n against the 512 keys of a loaded chunk. -/
def tOf (q3 : Vec Ideal S1x1x2048x64 .bf16) (k : Vec Ideal S1x1x512x64 .bf16) (n : Fin 2048) : Fin 512 → EReal :=
  fun j => (∑ e : Fin 64, q3 (ix4 (0 : Fin 1) (0 : Fin 1) n e) * k (ix4 (0 : Fin 1) (0 : Fin 1) j e))
    * Ideal.ofBits .f32 0x3E000000#32

/-- Column d of a loaded chunk of values. -/
def wOf (v : Vec Ideal S1x1x512x64 .bf16) (d : Fin 64) : Fin 512 → EReal :=
  fun j => v (ix4 (0 : Fin 1) (0 : Fin 1) j d)

theorem castKV_apply (v : Vec Ideal S1x1x512x64 .bf16) (j : Fin 512) (e : Fin 64) :
    castKV v (ix2 j e) = v (ix4 (0 : Fin 1) (0 : Fin 1) j e) := cast_kv_apply v j e

theorem score_row (q3 : Vec Ideal S1x1x2048x64 .bf16) (k : Vec Ideal S1x1x512x64 .bf16) (n : Fin 2048) :
    (fun j : Fin 512 => scoreMat (k1_pay2 q3) (castKV k) (ix2 n j)) = tOf q3 k n := by
  funext j
  rw [scoreMat_apply]
  unfold tOf
  simp only [pay2_apply, castKV_apply]

theorem value_col (v : Vec Ideal S1x1x512x64 .bf16) (d : Fin 64) :
    (fun j : Fin 512 => castKV v (ix2 j d)) = wOf v d := by
  funext j
  exact cast_kv_apply v j d

/-- Before the first chunk the running maximum is −∞ and the two running sums are 0. -/
theorem init_triple (n : Fin 2048) (d : Fin 64) :
    ((k1_pay3 (F := Ideal)) (ix2 n (0 : Fin 1)), zeroCol (ix2 n (0 : Fin 1)), zeroAcc (ix2 n d))
      = ((⊥ : EReal), (0 : EReal), (0 : EReal)) := by
  show (Ideal.ofBits .f32 0xFF800000#32, Ideal.ofBits .f32 0x00000000#32, Ideal.ofBits .f32 0x00000000#32) = _
  rw [Cert.Spec.ofBits_neg_inf, Ideal.ofBits_zero_f32]

/-- The final quotient after a chunk, through the scalar step. -/
theorem div_chunk (m l : FVec Ideal S2048x1 .f32) (a : FVec Ideal S2048x64 .f32) (S : FVec Ideal S2048x512 .f32)
    (vv : FVec Ideal S512x64 .bf16) (n : Fin 2048) (d : Fin 64) :
    Ideal.div (aNew m a S vv (ix2 n d)) (lNew m l S (ix2 n (0 : Fin 1)))
      = Ideal.div (Cert.Softmax.step (fun j : Fin 512 => S (ix2 n j)) (fun j : Fin 512 => vv (ix2 j d))
            (m (ix2 n (0 : Fin 1)), l (ix2 n (0 : Fin 1)), a (ix2 n d))).2.2
          (Cert.Softmax.step (fun j : Fin 512 => S (ix2 n j)) (fun j : Fin 512 => vv (ix2 j d))
            (m (ix2 n (0 : Fin 1)), l (ix2 n (0 : Fin 1)), a (ix2 n d))).2.1 :=
  congrArg (fun p : EReal × EReal × EReal => Ideal.div p.2.2 p.2.1) (chunk_step m l a S vv n d)

/-- The body's stored value, from the loaded query block and the four loaded chunks of keys and values. -/
def bodyOut (q3 : Vec Ideal S1x1x2048x64 .bf16) (k0 v0 k1 v1 k2 v2 k3 v3 : Vec Ideal S1x1x512x64 .bf16) :
    FVec Ideal S1x1x2048x64 .f32 :=
  k1_pay1 (k1_pay2 q3) (k1_pay15 (k1_pay2 q3) (k1_pay5 q3 k0) (k1_pay9 q3 k0 v0) (k1_pay10 k1) v1) (k1_pay16 v2)
    (k1_pay18 (k1_pay2 q3) (k1_pay5 q3 k0) (k1_pay10 k1) k2) (k1_pay19 (k1_pay2 q3) (k1_pay5 q3 k0) (k1_pay10 k1) k2)
    (k1_pay20 (k1_pay2 q3) (k1_pay5 q3 k0) (k1_pay10 k1) k2)
    (k1_pay21 (k1_pay2 q3) (k1_pay5 q3 k0) (k1_pay8 q3 k0) (k1_pay10 k1) k2)
    (k1_pay22 (k1_pay2 q3) (k1_pay5 q3 k0) (k1_pay10 k1) k2) k3 v3

/-- The stored value at (0, 0, n, d): the quotient of the numerator by the denominator after the four steps. -/
theorem bodyOut_apply (q3 : Vec Ideal S1x1x2048x64 .bf16) (k0 v0 k1 v1 k2 v2 k3 v3 : Vec Ideal S1x1x512x64 .bf16)
    (u0 u1 : Fin 1) (n : Fin 2048) (d : Fin 64) :
    bodyOut q3 k0 v0 k1 v1 k2 v2 k3 v3 (ix4 u0 u1 n d)
      = Ideal.div (Cert.Softmax.step (tOf q3 k3 n) (wOf v3 d) (Cert.Softmax.step (tOf q3 k2 n) (wOf v2 d) (Cert.Softmax.step (tOf q3 k1 n) (wOf v1 d)
          (Cert.Softmax.step (tOf q3 k0 n) (wOf v0 d) ((⊥ : EReal), (0 : EReal), (0 : EReal)))))).2.2
          (Cert.Softmax.step (tOf q3 k3 n) (wOf v3 d) (Cert.Softmax.step (tOf q3 k2 n) (wOf v2 d) (Cert.Softmax.step (tOf q3 k1 n) (wOf v1 d)
          (Cert.Softmax.step (tOf q3 k0 n) (wOf v0 d) ((⊥ : EReal), (0 : EReal), (0 : EReal)))))).2.1 := by
  unfold bodyOut
  rw [pay5_eq, pay8_eq, pay9_eq, pay10_eq, pay16_eq, pay15_eq, pay18_eq, pay19_eq, pay20_eq, pay21_eq, pay22_eq, pay1_eq,
    cast_out_apply, divf_apply, bcast64_apply, div_chunk, chunk_step, chunk_step, chunk_step, init_triple]
  simp only [score_row, value_col]

/-! ## From the slabs -/

/-- The body's stored value is the composition above of the nine loads. -/
theorem ctxBlock_eq (i : grid1.Coords) (xq xk xv : Vec Ideal S1x1x2048x768 .bf16) :
    ctxBlock (F := Ideal) i xq xk xv
      = bodyOut (View.ld xq (rHead i)) (View.ld xk (rChunk0 i)) (View.ld xv (rChunk0 i)) (View.ld xk (rChunk1 i))
          (View.ld xv (rChunk1 i)) (View.ld xk (rChunk2 i)) (View.ld xv (rChunk2 i)) (View.ld xk (rChunk3 i))
          (View.ld xv (rChunk3 i)) := rfl

/-- The load of head h's lanes of all rows reads the slab at lane 64·h + e. -/
theorem ld_head (x : Vec Ideal S1x1x2048x768 .bf16) (i : grid1.Coords) (h : Fin 12) (hh : (i 1).val = h.val)
    (n : Fin 2048) (e : Fin 64) :
    View.ld x (rHead i) (ix4 (0 : Fin 1) (0 : Fin 1) n e) = x (ix4 (0 : Fin 1) (0 : Fin 1) n (Cert.Spec.headCol h e)) := by
  show x ((rHead i).idx (ix4 (0 : Fin 1) (0 : Fin 1) n e)) = _
  congr 1
  have eo := k1_off1_eq i
  funext a; apply Fin.ext
  match a with
  | ⟨0, _⟩ => show k1_off1 i (0 : Fin 4) + 1 * (0 : Fin 1).val = (0 : Fin 1).val; rw [eo]; rfl
  | ⟨1, _⟩ => show k1_off1 i (1 : Fin 4) + 1 * (0 : Fin 1).val = (0 : Fin 1).val; rw [eo]; rfl
  | ⟨2, _⟩ => show k1_off1 i (2 : Fin 4) + 1 * n.val = n.val; rw [eo]; show 0 + 1 * n.val = n.val; omega
  | ⟨3, _⟩ => show k1_off1 i (3 : Fin 4) + 1 * e.val = h.val * 64 + e.val; rw [eo]; show 64 * (i 1).val + 1 * e.val = h.val * 64 + e.val; omega

/-- The load of head h's lanes of the rows of chunk r reads the slab at row 512·r + j, lane 64·h + e. -/
theorem ld_chunk (x : Vec Ideal S1x1x2048x768 .bf16) (off : Fin 4 → ℕ)
    (inb : ∀ a, off a + S1x1x512x64.size a ≤ S1x1x2048x768.size a) (r : Fin 4) (h : Fin 12)
    (h0 : off (0 : Fin 4) = 0) (h1 : off (1 : Fin 4) = 0) (h2 : off (2 : Fin 4) = 512 * r.val) (h3 : off (3 : Fin 4) = 64 * h.val)
    (j : Fin 512) (e : Fin 64) :
    View.ld x (Rect.unit (s := S1x1x2048x768) off S1x1x512x64.size inb) (ix4 (0 : Fin 1) (0 : Fin 1) j e)
      = x (ix4 (0 : Fin 1) (0 : Fin 1) (Cert.Softmax.keySplit.symm (r, j)) (Cert.Spec.headCol h e)) := by
  show x ((Rect.unit (s := S1x1x2048x768) off S1x1x512x64.size inb).idx (ix4 (0 : Fin 1) (0 : Fin 1) j e)) = _
  congr 1
  funext a; apply Fin.ext
  match a with
  | ⟨0, _⟩ => show off (0 : Fin 4) + 1 * (0 : Fin 1).val = (0 : Fin 1).val; rw [h0]; rfl
  | ⟨1, _⟩ => show off (1 : Fin 4) + 1 * (0 : Fin 1).val = (0 : Fin 1).val; rw [h1]; rfl
  | ⟨2, _⟩ => show off (2 : Fin 4) + 1 * j.val = j.val + 512 * r.val; rw [h2]; omega
  | ⟨3, _⟩ => show off (3 : Fin 4) + 1 * e.val = h.val * 64 + e.val; rw [h3]; omega

/-- The scaled score of query row n against key 512·r + j in head h, from the query and key slabs. -/
def tSlab (xq xk : Vec Ideal S1x1x2048x768 .bf16) (h : Fin 12) (n : Fin 2048) (r : Fin 4) (j : Fin 512) : EReal :=
  (∑ e : Fin 64, xq (ix4 (0 : Fin 1) (0 : Fin 1) n (Cert.Spec.headCol h e))
      * xk (ix4 (0 : Fin 1) (0 : Fin 1) (Cert.Softmax.keySplit.symm (r, j)) (Cert.Spec.headCol h e)))
    * Ideal.ofBits .f32 0x3E000000#32

/-- Coordinate d of head h of value row 512·r + j, from the value slab. -/
def wSlab (xv : Vec Ideal S1x1x2048x768 .bf16) (h : Fin 12) (d : Fin 64) (r : Fin 4) (j : Fin 512) : EReal :=
  xv (ix4 (0 : Fin 1) (0 : Fin 1) (Cert.Softmax.keySplit.symm (r, j)) (Cert.Spec.headCol h d))

theorem chunk_offsets (i : grid1.Coords) (h : Fin 12) (hh : (i 1).val = h.val) :
    (k1_off2 i (0 : Fin 4) = 0 ∧ k1_off2 i (1 : Fin 4) = 0 ∧ k1_off2 i (2 : Fin 4) = 512 * (0 : Fin 4).val ∧ k1_off2 i (3 : Fin 4) = 64 * h.val)
    ∧ (k1_off3 i (0 : Fin 4) = 0 ∧ k1_off3 i (1 : Fin 4) = 0 ∧ k1_off3 i (2 : Fin 4) = 512 * (1 : Fin 4).val ∧ k1_off3 i (3 : Fin 4) = 64 * h.val)
    ∧ (k1_off4 i (0 : Fin 4) = 0 ∧ k1_off4 i (1 : Fin 4) = 0 ∧ k1_off4 i (2 : Fin 4) = 512 * (2 : Fin 4).val ∧ k1_off4 i (3 : Fin 4) = 64 * h.val)
    ∧ (k1_off5 i (0 : Fin 4) = 0 ∧ k1_off5 i (1 : Fin 4) = 0 ∧ k1_off5 i (2 : Fin 4) = 512 * (3 : Fin 4).val ∧ k1_off5 i (3 : Fin 4) = 64 * h.val) := by
  rw [k1_off2_eq, k1_off3_eq, k1_off4_eq, k1_off5_eq, ← hh]
  exact ⟨⟨rfl, rfl, rfl, rfl⟩, ⟨rfl, rfl, rfl, rfl⟩, ⟨rfl, rfl, rfl, rfl⟩, ⟨rfl, rfl, rfl, rfl⟩⟩

theorem tOf_slab (xq xk : Vec Ideal S1x1x2048x768 .bf16) (i : grid1.Coords) (h : Fin 12) (hh : (i 1).val = h.val)
    (off : Fin 4 → ℕ) (inb : ∀ a, off a + S1x1x512x64.size a ≤ S1x1x2048x768.size a) (r : Fin 4)
    (ho : off (0 : Fin 4) = 0 ∧ off (1 : Fin 4) = 0 ∧ off (2 : Fin 4) = 512 * r.val ∧ off (3 : Fin 4) = 64 * h.val) (n : Fin 2048) :
    tOf (View.ld xq (rHead i)) (View.ld xk (Rect.unit (s := S1x1x2048x768) off S1x1x512x64.size inb)) n = tSlab xq xk h n r := by
  funext j
  unfold tOf tSlab
  simp only [ld_head xq i h hh, ld_chunk xk off inb r h ho.1 ho.2.1 ho.2.2.1 ho.2.2.2]

theorem wOf_slab (xv : Vec Ideal S1x1x2048x768 .bf16) (h : Fin 12)
    (off : Fin 4 → ℕ) (inb : ∀ a, off a + S1x1x512x64.size a ≤ S1x1x2048x768.size a) (r : Fin 4)
    (ho : off (0 : Fin 4) = 0 ∧ off (1 : Fin 4) = 0 ∧ off (2 : Fin 4) = 512 * r.val ∧ off (3 : Fin 4) = 64 * h.val) (d : Fin 64) :
    wOf (View.ld xv (Rect.unit (s := S1x1x2048x768) off S1x1x512x64.size inb)) d = wSlab xv h d r := by
  funext j
  exact ld_chunk xv off inb r h ho.1 ho.2.1 ho.2.2.1 ho.2.2.2 j d

/-- At grid point i, whose head is h, the stored value at (0, 0, n, d) is the quotient of the running numerator by the
    running denominator after the four chunk steps from (−∞, 0, 0), on the scores of query row n against the keys
    512·r + j of head h and on coordinate d of the values of head h. -/
theorem ctxBlock_apply (i : grid1.Coords) (h : Fin 12) (hh : (i 1).val = h.val) (xq xk xv : Vec Ideal S1x1x2048x768 .bf16)
    (u0 u1 : Fin 1) (n : Fin 2048) (d : Fin 64) :
    ctxBlock (F := Ideal) i xq xk xv (ix4 u0 u1 n d)
      = Ideal.div
          (Cert.Softmax.step (tSlab xq xk h n 3) (wSlab xv h d 3) (Cert.Softmax.step (tSlab xq xk h n 2) (wSlab xv h d 2)
            (Cert.Softmax.step (tSlab xq xk h n 1) (wSlab xv h d 1) (Cert.Softmax.step (tSlab xq xk h n 0) (wSlab xv h d 0)
              ((⊥ : EReal), (0 : EReal), (0 : EReal)))))).2.2
          (Cert.Softmax.step (tSlab xq xk h n 3) (wSlab xv h d 3) (Cert.Softmax.step (tSlab xq xk h n 2) (wSlab xv h d 2)
            (Cert.Softmax.step (tSlab xq xk h n 1) (wSlab xv h d 1) (Cert.Softmax.step (tSlab xq xk h n 0) (wSlab xv h d 0)
              ((⊥ : EReal), (0 : EReal), (0 : EReal)))))).2.1 := by
  obtain ⟨o2, o3, o4, o5⟩ := chunk_offsets i h hh
  rw [ctxBlock_eq, bodyOut_apply]
  rw [tOf_slab xq xk i h hh (k1_off2 i) (k1_off2_inb i) 0 o2 n, tOf_slab xq xk i h hh (k1_off3 i) (k1_off3_inb i) 1 o3 n,
    tOf_slab xq xk i h hh (k1_off4 i) (k1_off4_inb i) 2 o4 n, tOf_slab xq xk i h hh (k1_off5 i) (k1_off5_inb i) 3 o5 n,
    wOf_slab xv h (k1_off2 i) (k1_off2_inb i) 0 o2 d, wOf_slab xv h (k1_off3 i) (k1_off3_inb i) 1 o3 d,
    wOf_slab xv h (k1_off4 i) (k1_off4_inb i) 2 o4 d, wOf_slab xv h (k1_off5 i) (k1_off5_inb i) 3 o5 d]

/-- The same with the four steps named. -/
theorem ctxBlock_apply_nest4 (i : grid1.Coords) (h : Fin 12) (hh : (i 1).val = h.val) (xq xk xv : Vec Ideal S1x1x2048x768 .bf16)
    (u0 u1 : Fin 1) (n : Fin 2048) (d : Fin 64) :
    ctxBlock (F := Ideal) i xq xk xv (ix4 u0 u1 n d)
      = Ideal.div (Cert.Softmax.nest4 (tSlab xq xk h n) (wSlab xv h d)).2.2
          (Cert.Softmax.nest4 (tSlab xq xk h n) (wSlab xv h d)).2.1 :=
  ctxBlock_apply i h hh xq xk xv u0 u1 n d

end Cert.KernelIdeal.Hand

end
-- ==== Proof.KI.CtxJoin.lean ====
/-
  The attention quotient over the projected array is the specification's context.

  Entry (b, h, n, d) of the context array is the online-softmax quotient of batch b's three slabs of the projected
  array: four chunks of 512 keys, each step keeping the running maximum, denominator and numerator.  When every
  projected entry is a real number that quotient is the softmax-weighted sum over all 2048 keys — exp (score − M) over
  its row sum, times the value — whatever real shift M is used, so it is the context the specification writes with the
  row maximum.  The scores agree term by term: a slab entry of the projected array is the specification's projection,
  and the literal 1/8 is the specification's 1 / sqrt 64.
-/
import proofs.«105011_j8443905704227_2_alg».proof.Proof.KI.R0Value
import proofs.«105011_j8443905704227_2_alg».proof.Proof.KI.R1BlocksB
import proofs.«105011_j8443905704227_2_alg».proof.Proof.KI.R1Payload
import proofs.«105011_j8443905704227_2_alg».proof.Proof.KI.CtxOnline

set_option maxRecDepth 16384

noncomputable section

namespace Cert.KernelIdeal.Hand

open Cert.KernelIdeal Cert.KernelIdeal.Gen Cert.KernelIdeal.HandB
open Idealize.ShloMosaic Idealize.ShloMosaic.ValueIdx
open Cert.Spec Cert.Softmax Cert.Heads
open scoped BigOperators

/-- The scores the body forms from batch b's q and k slabs of x · wᵀ are the specification's scaled scores. -/
theorem tSlab_qkv (x : S4x2048x768.Idx → EReal) (wq : S2304x768.Idx → EReal) (b : Fin 4) (h : Fin 12) (n : Fin 2048) (r : Fin 4) :
    tSlab (slab (qkvArr x wq) 0 b) (slab (qkvArr x wq) 1 b) h n r
      = fun j : Fin 512 => scoreS x wq b h n (keySplit.symm (r, j)) := by
  funext j
  unfold tSlab scoreS
  rw [scale_eq_ofBits]
  rfl

/-- The values it weights are the specification's v projection. -/
theorem wSlab_qkv (x : S4x2048x768.Idx → EReal) (wq : S2304x768.Idx → EReal) (b : Fin 4) (h : Fin 12) (d : Fin 64) (r : Fin 4) :
    wSlab (slab (qkvArr x wq) 2 b) h d r
      = fun j : Fin 512 => qkvS x wq 2 b (keySplit.symm (r, j)) (headCol h d) := by
  funext j
  rfl

/-- For real inputs, the context entry the attention call leaves is the specification's. -/
theorem ctx_join (x : S4x2048x768.Idx → EReal) (wq : S2304x768.Idx → EReal)
    (hx : ∀ i, IsReal (x i)) (hwq : ∀ i, IsReal (wq i))
    (b : Fin 4) (h : Fin 12) (n : Fin 2048) (d : Fin 64) :
    ctxAt (qkvArr x wq) b h n d = ctxS x wq b h n d := by
  show ctxBlock (F := Ideal) (pt1 b h) (slab (qkvArr x wq) 0 b) (slab (qkvArr x wq) 1 b) (slab (qkvArr x wq) 2 b)
      (ix4 (0 : Fin 1) (0 : Fin 1) n d) = _
  rw [ctxBlock_apply (pt1 b h) h rfl _ _ _ 0 0 n d, ctxS_eq_online4_of_isReal x wq hx hwq b h n d]
  simp only [tSlab_qkv, wSlab_qkv]
  rfl

end Cert.KernelIdeal.Hand

end
-- ==== Proof.KI.RefIsSpec.lean ====
import proofs.«105011_j8443905704227_2_alg».proof.Proof.Gen.ReferenceIdeal.Read
import proofs.«105011_j8443905704227_2_alg».proof.Proof.KI.Spec

/-!
# The reference computes the specification

The reference is a chain of 29 array operations. Read at an index, each layout operation (reshape,
transpose, slice, broadcast) reads its operand at an index computed from the literal shapes, each
contraction is a finite sum, the maximum over the key axis is a fold of "max" from −∞ and the sum over
the key axis a finite sum from 0. Stage by stage the arrays are identified with the specification's
functions: the three projections, the scaled scores, the row maxima, the exponentials, the row sums, the
attention weights, the contexts and the projected result.
-/

noncomputable section

namespace Cert.ReferenceIdeal.RefValue

open Cert.ReferenceIdeal Cert.ReferenceIdeal.Gen Cert.ReferenceIdeal.Read Cert.Spec
open Idealize.ShloMosaic Idealize.ShloMosaic.ValueIdx
open scoped BigOperators

/-! ## Index equations -/

theorem lidx_v0_ix (b : Fin 4) (n : Fin 2048) (r : Fin 2304) (k : Fin 768) :
    lidx_main_v0 (ix3 b n r) k = ix3 b n k := funext fun a => Fin.ext (by
  match a with
  | ⟨0, _⟩ => rfl
  | ⟨1, _⟩ => rfl
  | ⟨2, _⟩ => rfl)

theorem ridx_v0_ix (b : Fin 4) (n : Fin 2048) (r : Fin 2304) (k : Fin 768) :
    ridx_main_v0 (ix3 b n r) k = ix2 r k := funext fun a => Fin.ext (by
  match a with
  | ⟨0, _⟩ => rfl
  | ⟨1, _⟩ => rfl)

/-- Row-major position ((((b·2048 + n)·3 + s)·12 + h)·64 + d) of the five-axis view is position
    (b, n, 768·s + 64·h + d) of the product. -/
theorem idx_v1_ix (b : Fin 4) (n : Fin 2048) (s : Fin 3) (h : Fin 12) (d : Fin 64) :
    idx_main_v1 (ix5 b n s h d) = ix3 b n (qkvRow s (headCol h d)) := funext fun a => Fin.ext (by
  have hb := b.isLt; have hn := n.isLt; have hs := s.isLt; have hh := h.isLt; have hd := d.isLt
  match a with
  | ⟨0, _⟩ => show ((((b.val * 2048 + n.val) * 3 + s.val) * 12 + h.val) * 64 + d.val) / 4718592 = b.val; omega
  | ⟨1, _⟩ => show ((((b.val * 2048 + n.val) * 3 + s.val) * 12 + h.val) * 64 + d.val) / 2304 % 2048 = n.val; omega
  | ⟨2, _⟩ => show ((((b.val * 2048 + n.val) * 3 + s.val) * 12 + h.val) * 64 + d.val) % 2304 = s.val * 768 + (h.val * 64 + d.val); omega)

theorem idx_v2_ix (s : Fin 3) (b : Fin 4) (h : Fin 12) (n : Fin 2048) (d : Fin 64) :
    idx_main_v2 (ix5 s b h n d) = ix5 b n s h d := funext fun a => Fin.ext (by
  match a with
  | ⟨0, _⟩ => rfl
  | ⟨1, _⟩ => rfl
  | ⟨2, _⟩ => rfl
  | ⟨3, _⟩ => rfl
  | ⟨4, _⟩ => rfl)

theorem idx_v3_ix (b : Fin 4) (h : Fin 12) (n : Fin 2048) (d : Fin 64) :
    idx_main_v3 (ix5 (0 : Fin 1) b h n d) = ix5 (0 : Fin 3) b h n d := funext fun a => Fin.ext (by
  match a with
  | ⟨0, _⟩ => rfl
  | ⟨1, _⟩ => rfl
  | ⟨2, _⟩ => rfl
  | ⟨3, _⟩ => rfl
  | ⟨4, _⟩ => rfl)

theorem idx_v5_ix (b : Fin 4) (h : Fin 12) (n : Fin 2048) (d : Fin 64) :
    idx_main_v5 (ix5 (0 : Fin 1) b h n d) = ix5 (1 : Fin 3) b h n d := funext fun a => Fin.ext (by
  match a with
  | ⟨0, _⟩ => rfl
  | ⟨1, _⟩ => rfl
  | ⟨2, _⟩ => rfl
  | ⟨3, _⟩ => rfl
  | ⟨4, _⟩ => rfl)

theorem idx_v7_ix (b : Fin 4) (h : Fin 12) (n : Fin 2048) (d : Fin 64) :
    idx_main_v7 (ix5 (0 : Fin 1) b h n d) = ix5 (2 : Fin 3) b h n d := funext fun a => Fin.ext (by
  match a with
  | ⟨0, _⟩ => rfl
  | ⟨1, _⟩ => rfl
  | ⟨2, _⟩ => rfl
  | ⟨3, _⟩ => rfl
  | ⟨4, _⟩ => rfl)

theorem idx_v4_ix (b : Fin 4) (h : Fin 12) (n : Fin 2048) (d : Fin 64) :
    idx_main_v4 (ix4 b h n d) = ix5 (0 : Fin 1) b h n d := funext fun a => Fin.ext (by
  have hb := b.isLt; have hh := h.isLt; have hn := n.isLt; have hd := d.isLt
  match a with
  | ⟨0, _⟩ => rfl
  | ⟨1, _⟩ => show (((b.val * 12 + h.val) * 2048 + n.val) * 64 + d.val) / 1572864 % 4 = b.val; omega
  | ⟨2, _⟩ => show (((b.val * 12 + h.val) * 2048 + n.val) * 64 + d.val) / 131072 % 12 = h.val; omega
  | ⟨3, _⟩ => show (((b.val * 12 + h.val) * 2048 + n.val) * 64 + d.val) / 64 % 2048 = n.val; omega
  | ⟨4, _⟩ => show (((b.val * 12 + h.val) * 2048 + n.val) * 64 + d.val) % 64 = d.val; omega)

theorem idx_v6_ix (b : Fin 4) (h : Fin 12) (n : Fin 2048) (d : Fin 64) :
    idx_main_v6 (ix4 b h n d) = ix5 (0 : Fin 1) b h n d := funext fun a => Fin.ext (by
  have hb := b.isLt; have hh := h.isLt; have hn := n.isLt; have hd := d.isLt
  match a with
  | ⟨0, _⟩ => rfl
  | ⟨1, _⟩ => show (((b.val * 12 + h.val) * 2048 + n.val) * 64 + d.val) / 1572864 % 4 = b.val; omega
  | ⟨2, _⟩ => show (((b.val * 12 + h.val) * 2048 + n.val) * 64 + d.val) / 131072 % 12 = h.val; omega
  | ⟨3, _⟩ => show (((b.val * 12 + h.val) * 2048 + n.val) * 64 + d.val) / 64 % 2048 = n.val; omega
  | ⟨4, _⟩ => show (((b.val * 12 + h.val) * 2048 + n.val) * 64 + d.val) % 64 = d.val; omega)

theorem idx_v8_ix (b : Fin 4) (h : Fin 12) (n : Fin 2048) (d : Fin 64) :
    idx_main_v8 (ix4 b h n d) = ix5 (0 : Fin 1) b h n d := funext fun a => Fin.ext (by
  have hb := b.isLt; have hh := h.isLt; have hn := n.isLt; have hd := d.isLt
  match a with
  | ⟨0, _⟩ => rfl
  | ⟨1, _⟩ => show (((b.val * 12 + h.val) * 2048 + n.val) * 64 + d.val) / 1572864 % 4 = b.val; omega
  | ⟨2, _⟩ => show (((b.val * 12 + h.val) * 2048 + n.val) * 64 + d.val) / 131072 % 12 = h.val; omega
  | ⟨3, _⟩ => show (((b.val * 12 + h.val) * 2048 + n.val) * 64 + d.val) / 64 % 2048 = n.val; omega
  | ⟨4, _⟩ => show (((b.val * 12 + h.val) * 2048 + n.val) * 64 + d.val) % 64 = d.val; omega)

theorem lidx_v11_ix (b : Fin 4) (h : Fin 12) (i j : Fin 2048) (k : Fin 64) :
    lidx_main_v11 (ix4 b h i j) k = ix4 b h i k := funext fun a => Fin.ext (by
  match a with
  | ⟨0, _⟩ => rfl
  | ⟨1, _⟩ => rfl
  | ⟨2, _⟩ => rfl
  | ⟨3, _⟩ => rfl)

theorem ridx_v11_ix (b : Fin 4) (h : Fin 12) (i j : Fin 2048) (k : Fin 64) :
    ridx_main_v11 (ix4 b h i j) k = ix4 b h j k := funext fun a => Fin.ext (by
  match a with
  | ⟨0, _⟩ => rfl
  | ⟨1, _⟩ => rfl
  | ⟨2, _⟩ => rfl
  | ⟨3, _⟩ => rfl)

/-- A row's maximum or sum, broadcast along the key axis, is read at the row. -/
theorem idx_v17_v18_ix (b : Fin 4) (h : Fin 12) (i j : Fin 2048) :
    idx_main_v17 (idx_main_v18 (ix4 b h i j)) = ix3 b h i := funext fun a => Fin.ext (by
  match a with
  | ⟨0, _⟩ => rfl
  | ⟨1, _⟩ => rfl
  | ⟨2, _⟩ => rfl)

theorem idx_v22_v23_ix (b : Fin 4) (h : Fin 12) (i j : Fin 2048) :
    idx_main_v22 (idx_main_v23 (ix4 b h i j)) = ix3 b h i := funext fun a => Fin.ext (by
  match a with
  | ⟨0, _⟩ => rfl
  | ⟨1, _⟩ => rfl
  | ⟨2, _⟩ => rfl)

theorem idx_v21_ix (b : Fin 4) (h : Fin 12) (i : Fin 2048) (k : Fin 2048) :
    idx_main_v21 (ix3 b h i) k = ix4 b h i k := funext fun a => Fin.ext (by
  match a with
  | ⟨0, _⟩ => rfl
  | ⟨1, _⟩ => rfl
  | ⟨2, _⟩ => rfl
  | ⟨3, _⟩ => rfl)

theorem lidx_v25_ix (b : Fin 4) (h : Fin 12) (i : Fin 2048) (d : Fin 64) (k : Fin 2048) :
    lidx_main_v25 (ix4 b h i d) k = ix4 b h i k := funext fun a => Fin.ext (by
  match a with
  | ⟨0, _⟩ => rfl
  | ⟨1, _⟩ => rfl
  | ⟨2, _⟩ => rfl
  | ⟨3, _⟩ => rfl)

theorem ridx_v25_ix (b : Fin 4) (h : Fin 12) (i : Fin 2048) (d : Fin 64) (k : Fin 2048) :
    ridx_main_v25 (ix4 b h i d) k = ix4 b h k d := funext fun a => Fin.ext (by
  match a with
  | ⟨0, _⟩ => rfl
  | ⟨1, _⟩ => rfl
  | ⟨2, _⟩ => rfl
  | ⟨3, _⟩ => rfl)

theorem idx_v26_ix (b : Fin 4) (n : Fin 2048) (h : Fin 12) (d : Fin 64) :
    idx_main_v26 (ix4 b n h d) = ix4 b h n d := funext fun a => Fin.ext (by
  match a with
  | ⟨0, _⟩ => rfl
  | ⟨1, _⟩ => rfl
  | ⟨2, _⟩ => rfl
  | ⟨3, _⟩ => rfl)

/-- Feature c of the 768 is coordinate c mod 64 of head c / 64. -/
theorem idx_v27_ix (b : Fin 4) (n : Fin 2048) (c : Fin 768) :
    idx_main_v27 (ix3 b n c) = ix4 b n (headOf c) (coordOf c) := funext fun a => Fin.ext (by
  have hb := b.isLt; have hn := n.isLt; have hc := c.isLt
  match a with
  | ⟨0, _⟩ => show ((b.val * 2048 + n.val) * 768 + c.val) / 1572864 = b.val; omega
  | ⟨1, _⟩ => show ((b.val * 2048 + n.val) * 768 + c.val) / 768 % 2048 = n.val; omega
  | ⟨2, _⟩ => show ((b.val * 2048 + n.val) * 768 + c.val) / 64 % 12 = c.val / 64; omega
  | ⟨3, _⟩ => show ((b.val * 2048 + n.val) * 768 + c.val) % 64 = c.val % 64; omega)

theorem lidx_v28_ix (b : Fin 4) (n : Fin 2048) (o : Fin 768) (k : Fin 768) :
    lidx_main_v28 (ix3 b n o) k = ix3 b n k := funext fun a => Fin.ext (by
  match a with
  | ⟨0, _⟩ => rfl
  | ⟨1, _⟩ => rfl
  | ⟨2, _⟩ => rfl)

theorem ridx_v28_ix (b : Fin 4) (n : Fin 2048) (o : Fin 768) (k : Fin 768) :
    ridx_main_v28 (ix3 b n o) k = ix2 o k := funext fun a => Fin.ext (by
  match a with
  | ⟨0, _⟩ => rfl
  | ⟨1, _⟩ => rfl)

/-! ## The stages -/

variable (x : (⟨S4x2048x768, .f32⟩ : BufTy).Contents (Elt Ideal)) (wq : (⟨S2304x768, .f32⟩ : BufTy).Contents (Elt Ideal))
  (wp : (⟨S768x768, .f32⟩ : BufTy).Contents (Elt Ideal))

/-- The fused projection at (b, n, r) is the sum over the features of activation times weight. -/
theorem v0_ix (b : Fin 4) (n : Fin 2048) (s : Fin 3) (f : Fin 768) :
    val_main_v0 (F := Ideal) x wq (ix3 b n (qkvRow s f)) = qkvS x wq s b n f := by
  rw [val_main_v0_apply]
  simp only [lidx_v0_ix, ridx_v0_ix]
  rfl

/-- The queries: the reshaped, transposed and sliced product read back at (b, h, n, d). -/
theorem v4_ix (b : Fin 4) (h : Fin 12) (n : Fin 2048) (d : Fin 64) :
    val_main_v4 (F := Ideal) x wq (ix4 b h n d) = qkvS x wq 0 b n (headCol h d) := by
  rw [val_main_v4_apply, val_main_v3_apply, val_main_v2_apply, val_main_v1_apply, idx_v4_ix, idx_v3_ix,
    idx_v2_ix, idx_v1_ix, v0_ix]

/-- The keys: the reshaped, transposed and sliced product read back at (b, h, n, d). -/
theorem v6_ix (b : Fin 4) (h : Fin 12) (n : Fin 2048) (d : Fin 64) :
    val_main_v6 (F := Ideal) x wq (ix4 b h n d) = qkvS x wq 1 b n (headCol h d) := by
  rw [val_main_v6_apply, val_main_v5_apply, val_main_v2_apply, val_main_v1_apply, idx_v6_ix, idx_v5_ix,
    idx_v2_ix, idx_v1_ix, v0_ix]

/-- The values: the reshaped, transposed and sliced product read back at (b, h, n, d). -/
theorem v8_ix (b : Fin 4) (h : Fin 12) (n : Fin 2048) (d : Fin 64) :
    val_main_v8 (F := Ideal) x wq (ix4 b h n d) = qkvS x wq 2 b n (headCol h d) := by
  rw [val_main_v8_apply, val_main_v7_apply, val_main_v2_apply, val_main_v1_apply, idx_v8_ix, idx_v7_ix,
    idx_v2_ix, idx_v1_ix, v0_ix]

/-- The broadcast scale is the quotient of 1.0 by the square root of 64.0 at every index. -/
theorem v12_ix (i : S4x12x2048x2048.Idx) : val_main_v12 (F := Ideal) i = Cert.Spec.scale := by
  rw [val_main_v12_apply, val_main_v10_apply, val_main_v9_apply, val_main_cst_0_apply, val_main_cst_apply]
  rfl

/-- The scaled scores. -/
theorem v13_ix (b : Fin 4) (h : Fin 12) (i j : Fin 2048) :
    val_main_v13 (F := Ideal) x wq (ix4 b h i j) = scoreS x wq b h i j := by
  rw [val_main_v13_apply, val_main_v11_apply, v12_ix]
  simp only [lidx_v11_ix, ridx_v11_ix, v4_ix, v6_ix]
  rfl

/-- The reduced index (b, h, i) with the key position k put back on the last axis. -/
theorem lift_d3_ix (hR : S4x12x2048x2048.Reduces [3] S4x12x2048) (b : Fin 4) (h : Fin 12) (i : Fin 2048)
    (k : Fin (S4x12x2048x2048.size 3)) : hR.lift (ix3 b h i) k = ix4 b h i (⟨k.val, k.isLt⟩ : Fin 2048) := by
  funext c; apply Fin.ext
  fin_cases c <;> rfl

/-- The reduction by "max" from −∞ over the key axis is the supremum of the row's scores. -/
theorem v14_ix (b : Fin 4) (h : Fin 12) (i : Fin 2048) :
    val_main_v14 (F := Ideal) x wq (ix3 b h i) = rowMaxS x wq b h i := by
  unfold val_main_v14
  have hR : S4x12x2048x2048.Reduces [3] S4x12x2048 := by decide
  rw [Host.reduce_eq_fold_single FloatOps.maximumf _ _ reducesTo_S4x12x2048x2048_S4x12x2048_d3 hR h_S_]
  have hf : (val_main_v13 (F := Ideal) x wq ∘ hR.lift (ix3 b h i)) = fun j : Fin 2048 => scoreS x wq b h i j :=
    funext fun k => (congrArg (val_main_v13 (F := Ideal) x wq) (lift_d3_ix hR b h i k)).trans (v13_ix x wq b h i _)
  have hb : val_main_cst_1 (F := Ideal) (Shape.Idx.first h_S_) = (⊥ : EReal) := ofBits_neg_inf
  rw [hb]
  exact congrArg (fun f => Finset.fold max (⊥ : EReal) f (Finset.univ : Finset (Fin 2048))) hf

/-- The further maximum with a −∞ array changes nothing. -/
theorem v16_ix (b : Fin 4) (h : Fin 12) (i : Fin 2048) :
    val_main_v16 (F := Ideal) x wq (ix3 b h i) = rowMaxS x wq b h i := by
  rw [val_main_v16_apply, val_main_v15_apply, val_main_cst_2_apply, v14_ix]
  show max (Ideal.ofBits .f32 0xFF800000#32) (rowMaxS x wq b h i) = rowMaxS x wq b h i
  rw [ofBits_neg_inf]
  exact max_eq_right bot_le

theorem v18_ix (b : Fin 4) (h : Fin 12) (i j : Fin 2048) :
    val_main_v18 (F := Ideal) x wq (ix4 b h i j) = rowMaxS x wq b h i := by
  rw [val_main_v18_apply, val_main_v17_apply, idx_v17_v18_ix, v16_ix]

/-- The exponentials of the scores less their row's maximum. -/
theorem v20_ix (b : Fin 4) (h : Fin 12) (i j : Fin 2048) :
    val_main_v20 (F := Ideal) x wq (ix4 b h i j) = expS x wq b h i j := by
  rw [val_main_v20_apply, val_main_v19_apply, v13_ix, v18_ix]
  rfl

/-- The sum from 0 over the key axis. -/
theorem v21_ix (b : Fin 4) (h : Fin 12) (i : Fin 2048) :
    val_main_v21 (F := Ideal) x wq (ix3 b h i) = rowSumS x wq b h i := by
  rw [val_main_v21_apply, val_main_cst_3_apply, Ideal.ofBits_def, Ideal.ofBits_zero_f32, zero_add]
  simp only [idx_v21_ix, v20_ix]
  rfl

theorem v23_ix (b : Fin 4) (h : Fin 12) (i j : Fin 2048) :
    val_main_v23 (F := Ideal) x wq (ix4 b h i j) = rowSumS x wq b h i := by
  rw [val_main_v23_apply, val_main_v22_apply, idx_v22_v23_ix, v21_ix]

/-- The attention weights. -/
theorem v24_ix (b : Fin 4) (h : Fin 12) (i j : Fin 2048) :
    val_main_v24 (F := Ideal) x wq (ix4 b h i j) = attnS x wq b h i j := by
  rw [val_main_v24_apply, v20_ix, v23_ix]
  rfl

/-- The contexts. -/
theorem v25_ix (b : Fin 4) (h : Fin 12) (i : Fin 2048) (d : Fin 64) :
    val_main_v25 (F := Ideal) x wq (ix4 b h i d) = ctxS x wq b h i d := by
  rw [val_main_v25_apply]
  simp only [lidx_v25_ix, ridx_v25_ix, v24_ix, v8_ix]
  rfl

/-- The contexts with the heads side by side as 768 features. -/
theorem v27_ix (b : Fin 4) (n : Fin 2048) (c : Fin 768) :
    val_main_v27 (F := Ideal) x wq (ix3 b n c) = ctxS x wq b (headOf c) n (coordOf c) := by
  rw [val_main_v27_apply, val_main_v26_apply, idx_v27_ix, idx_v26_ix, v25_ix]

/-- The projected result. -/
theorem v28_ix (b : Fin 4) (n : Fin 2048) (o : Fin 768) :
    val_main_v28 (F := Ideal) x wq wp (ix3 b n o) = outS x wq wp b n o := by
  rw [val_main_v28_apply]
  simp only [lidx_v28_ix, ridx_v28_ix, v27_ix]
  rfl

/-- The reference's result array is the specification's. -/
theorem ref_is_spec : val_main_v28 (F := Ideal) x wq wp = outArr x wq wp := by
  funext i
  exact (congrArg (val_main_v28 (F := Ideal) x wq wp) (eq_ix3 i)).trans (v28_ix x wq wp (i 0) (i 1) (i 2))

open Idealize.ShloMosaic.TcCoe Idealize.SL.Sem in
/-- The result term of the reference's run, at any memory and on any device, is the specification of the
    three argument arrays found there. -/
theorem res_is_spec (m : (ℓ : Loc nD τ sig) → Buf (Elt Ideal) ℓ) (c : Dev nD) :
    Cert.ReferenceIdeal.Value.res_main_v28 (F := Ideal) m c
      = outArr (m ((c.tc : Thread nD τ).loc main_arg0)) (m ((c.tc : Thread nD τ).loc main_arg1))
          (m ((c.tc : Thread nD τ).loc main_arg2)) :=
  (val_main_v28_eq (F := Ideal) m c).trans (ref_is_spec _ _ _)

end Cert.ReferenceIdeal.RefValue

end
-- ==== Proof.KI.Finite.lean ====
import proofs.«105011_j8443905704227_2_alg».proof.Pre_finite_inputs
import Idealize.ShloMosaic.Lib.ReduceAll
import Idealize.ShloMosaic.PureOps.Ideal
import Idealize.ShloMosaic.PureOps.Ideal.Laws
import Mathlib.Tactic

/-!
# The precondition, decoded

The precondition says of each of the three inputs that |x| < +∞ at every entry. On the extended
reals this is: every entry is a real number.
-/

noncomputable section

namespace Cert.Finite

open Idealize.ShloMosaic
open Cert.Pre_finite_inputs

instance : Subsingleton S_.Idx := ⟨fun _ _ => funext fun d => d.elim0⟩

/-- An extended real whose absolute value is below +∞ is a real number. -/
theorem real_of_abs_lt_inf (x : EReal)
    (h : Ideal.cmp .olt (max x (-x)) (Ideal.ofBits .f32 0x7F800000#32) = 1#1) :
    ∃ r : ℝ, x = (r : EReal) := by
  have htop : Ideal.ofBits .f32 0x7F800000#32 = ⊤ := by simp [Ideal.ofBits, Ideal.ieee]
  rw [htop] at h
  induction x using EReal.rec with
  | bot => simp [Ideal.cmp] at h
  | top => simp [Ideal.cmp] at h
  | coe r => exact ⟨r, rfl⟩

variable [Cert.Pre_finite_inputs.Facts]

theorem finite_of_pre (x : FVec Ideal S4x2048x768 .f32) (wq : FVec Ideal S2304x768 .f32)
    (wp : FVec Ideal S768x768 .f32)
    (h : Cert.Pre_finite_inputs.fn (F := Ideal) x wq wp = (fun _ => 1#1)) :
    (∀ i, ∃ r : ℝ, x i = (r : EReal)) ∧ (∀ i, ∃ r : ℝ, wq i = (r : EReal))
      ∧ (∀ i, ∃ r : ℝ, wp i = (r : EReal)) := by
  have h0 := congrFun h (fun d => d.elim0)
  dsimp only [Cert.Pre_finite_inputs.fn, andi] at h0
  rw [IntOp.andi_eq_one, IntOp.andi_eq_one] at h0
  obtain ⟨⟨hx, hq⟩, hp⟩ := h0
  exact ⟨fun i => real_of_abs_lt_inf (x i) (Host.reduce_andi_all _ _ _ _ _ hx i),
    fun i => real_of_abs_lt_inf (wq i) (Host.reduce_andi_all _ _ _ _ _ hq i),
    fun i => real_of_abs_lt_inf (wp i) (Host.reduce_andi_all _ _ _ _ _ hp i)⟩

/-- The same with the real arrays chosen. -/
theorem exists_real_of_pre (x : FVec Ideal S4x2048x768 .f32) (wq : FVec Ideal S2304x768 .f32)
    (wp : FVec Ideal S768x768 .f32)
    (h : Cert.Pre_finite_inputs.fn (F := Ideal) x wq wp = (fun _ => 1#1)) :
    ∃ (X : S4x2048x768.Idx → ℝ) (Wq : S2304x768.Idx → ℝ) (Wp : S768x768.Idx → ℝ),
      x = (fun i => (X i : EReal)) ∧ wq = (fun i => (Wq i : EReal)) ∧ wp = (fun i => (Wp i : EReal)) := by
  obtain ⟨hx, hq, hp⟩ := finite_of_pre x wq wp h
  choose X hX using hx
  choose Wq hWq using hq
  choose Wp hWp using hp
  exact ⟨X, Wq, Wp, funext hX, funext hWq, funext hWp⟩

end Cert.Finite
-- ==== Proof.lean ====
/-
  Multi-head self-attention over 4 × 2048 tokens of 768 features, 12 heads of 64 — out = softmax(q kᵀ / 8) v merged over
  the heads and projected — computed by three chained kernel launches, against the plain reference.

  The first launch writes the projections x · wᵀ for q, k and v, one 2048 × 768 slab per (batch, q|k|v).  The second,
  per (batch, head), forms the scaled scores against four chunks of 512 keys in turn, keeping a running row maximum m,
  denominator l and numerator acc — rescaled by exp (m_old − m_new) at each chunk — and stores acc / l.  The third, per
  batch, accumulates over the twelve heads the product of a head's context with the matching 64 columns of the output
  weight, and writes the accumulator out after the last head.  The reference does the same with whole-array operations:
  an einsum, a reshape and transpose into heads, scores times 1 / sqrt 64, a softmax (row maximum, exp, row sum, divide),
  two more einsums.

  At the ideal reading (a float an extended real, every operation exact) both results are ONE function of the three
  inputs, `Cert.Spec.outArr`: the reference's term reads as it operation by operation; the kernels' result is followed
  through the three launches.  The two meet where the online softmax meets the plain one: for real scores the running
  quotient acc / l is the softmax-weighted sum, since exp (m − m') · exp (s − m) = exp (s − m') telescopes, the start
  −∞ contributes exp (−∞) = 0, and the denominator is a positive real; that is where the inputs' finiteness is used —
  the scores are then finite sums of products of reals.  The scale 1/8 is exactly 1 / sqrt 64, and a sum over the 768
  merged features is the sum over 12 heads of sums over 64 coordinates.

  The three frames: each kernel program runs its three launches to the end from any memory, the argument arrays only
  ever read (the same argument at the word-level and at the ideal reading of the program); the reference is a
  straight-line host program.  No operation of the kernels was rewritten for the ideal reading, so nothing is owed
  for that step.
-/
import proofs.«105011_j8443905704227_2_alg».proof.Defs
import proofs.«105011_j8443905704227_2_alg».proof.Proof.Gen.Kernel
import proofs.«105011_j8443905704227_2_alg».proof.Proof.Gen.KernelIdeal
import proofs.«105011_j8443905704227_2_alg».proof.Proof.Gen.ReferenceIdeal
import proofs.«105011_j8443905704227_2_alg».proof.Proof.Gen.ReferenceIdeal.Run
import proofs.«105011_j8443905704227_2_alg».proof.Proof.Gen.ReferenceIdeal.Read
import proofs.«105011_j8443905704227_2_alg».proof.Proof.Gen.Pre_finite_inputs
import proofs.«105011_j8443905704227_2_alg».proof.Proof.K.Run
import proofs.«105011_j8443905704227_2_alg».proof.Proof.KI.Run
import proofs.«105011_j8443905704227_2_alg».proof.Proof.KI.Bridge
import proofs.«105011_j8443905704227_2_alg».proof.Proof.KI.CtxJoin
import proofs.«105011_j8443905704227_2_alg».proof.Proof.KI.RefIsSpec
import proofs.«105011_j8443905704227_2_alg».proof.Proof.KI.Finite
import Idealize.ShloMosaic.Adequacy
import Idealize.ShloMosaic.Init

noncomputable section

namespace Cert.Proof

open Idealize.ShloMosaic Idealize.SL.Sem

/-- The word-level kernel program runs to the end and leaves its arguments as launched. -/
theorem frame_k : Cert.frame_Kernel := fun m ρ _ =>
  (θ_run Cert.Kernel.defs _ _).mono (fun _ h c => (h c).2) (Cert.Kernel.Hand.run_main (F := Bits) m ρ)

/-- So does its ideal reading. -/
theorem frame_ki : Cert.frame_KernelIdeal := fun m ρ _ =>
  (θ_run Cert.KernelIdeal.defs _ _).mono (fun _ h c => (h c).2) (Cert.KernelIdeal.Hand.run_main (F := Ideal) m ρ)

/-- And the reference. -/
theorem frame_ri : Cert.frame_ReferenceIdeal := fun m ρ _ =>
  (θ_run Cert.ReferenceIdeal.defs _ _).mono (fun _ h c => (h c).2) (Cert.ReferenceIdeal.Value.run (F := Ideal) m ρ)

/-- From memories agreeing on the three inputs, all finite, the kernels' result array and the reference's both end
    at the specification's function of the inputs. -/
theorem algebraic : Cert.algebraic_KernelIdeal_ReferenceIdeal := by
  intro m ρ m' ρ' hpre hagree
  have hk : ∀ c : Dev Cert.KernelIdeal.nD,
      (Cert.KernelIdeal.Hand.dat2 (F := Ideal) (Cert.KernelIdeal.Hand.V2 m) c).arrAt 2 Cert.KernelIdeal.cfg2.N
        = Cert.Spec.outArr (m ((c.tc : Thread Cert.KernelIdeal.nD Cert.KernelIdeal.τ).loc Cert.KernelIdeal.main_arg0))
            (m ((c.tc : Thread Cert.KernelIdeal.nD Cert.KernelIdeal.τ).loc Cert.KernelIdeal.main_arg1))
            (m ((c.tc : Thread Cert.KernelIdeal.nD Cert.KernelIdeal.τ).loc Cert.KernelIdeal.main_arg2)) := fun c => by
    have hfin := Cert.Finite.finite_of_pre _ _ _ (hpre c)
    exact Cert.KernelIdeal.Hand.result_is_spec m c
      (Cert.KernelIdeal.Hand.ctx_join _ _ (fun i => hfin.1 i) (fun i => hfin.2.1 i))
  have hr : ∀ c : Dev Cert.KernelIdeal.nD,
      Cert.ReferenceIdeal.Value.res_main_v28 (F := Ideal) m' c
        = Cert.Spec.outArr (m ((c.tc : Thread Cert.KernelIdeal.nD Cert.KernelIdeal.τ).loc Cert.KernelIdeal.main_arg0))
            (m ((c.tc : Thread Cert.KernelIdeal.nD Cert.KernelIdeal.τ).loc Cert.KernelIdeal.main_arg1))
            (m ((c.tc : Thread Cert.KernelIdeal.nD Cert.KernelIdeal.τ).loc Cert.KernelIdeal.main_arg2)) := fun c => by
    rw [Cert.ReferenceIdeal.RefValue.res_is_spec, (hagree c).1, (hagree c).2.1, (hagree c).2.2]
  exact ⟨fun c => Cert.Spec.outArr (m ((c.tc : Thread Cert.KernelIdeal.nD Cert.KernelIdeal.τ).loc Cert.KernelIdeal.main_arg0))
        (m ((c.tc : Thread Cert.KernelIdeal.nD Cert.KernelIdeal.τ).loc Cert.KernelIdeal.main_arg1))
        (m ((c.tc : Thread Cert.KernelIdeal.nD Cert.KernelIdeal.τ).loc Cert.KernelIdeal.main_arg2)),
    (θ_run Cert.KernelIdeal.defs _ _).mono (fun _ h c => ⟨(h c).1.trans (hk c), (h c).2⟩)
      (Cert.KernelIdeal.Hand.run_main (F := Ideal) m ρ),
    (θ_run Cert.ReferenceIdeal.defs _ _).mono (fun _ h c => ⟨(h c).1.trans (hr c), (h c).2⟩)
      (Cert.ReferenceIdeal.Value.run (F := Ideal) m' ρ')⟩

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
